-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S2400000 : Shape := ⟨1, ![2400000]⟩
abbrev S4096 : Shape := ⟨1, ![4096]⟩
abbrev S3x64x64 : Shape := ⟨3, ![3, 64, 64]⟩
abbrev S3x64 : Shape := ⟨2, ![3, 64]⟩
abbrev S64x256 : Shape := ⟨2, ![64, 256]⟩
abbrev S64 : Shape := ⟨1, ![64]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S2400000 : S_.BroadcastsInDim S2400000 (![] : Fin 0 → Fin S2400000.rank)
  reducesTo_S2400000_S_d0 : S2400000.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg11 : FVec F S64 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg8 : FVec F S3x64x64 .f32) (main_arg9 : FVec F S3x64 .f32) (main_arg10 : FVec F S64x256 .f32) (main_arg11 : FVec F S64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64x64 .f32 := Host.absf main_arg8
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg9
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S64x256 .f32 := Host.absf main_arg10
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg11 main_v33

def fn {F : FTy → Type} [FloatOps F] (main_arg0 : FVec F S150000x64 .f32) (main_arg1 : IVec S2400000 32) (main_arg2 : IVec S2400000 32) (main_arg3 : FVec F S2400000 .f32) (main_arg4 : IVec S4096 32) (main_arg5 : IVec S4096 32) (main_arg6 : FVec F S3x64x64 .f32) (main_arg7 : FVec F S3x64 .f32) (main_arg8 : FVec F S3x64x64 .f32) (main_arg9 : FVec F S3x64 .f32) (main_arg10 : FVec F S64x256 .f32) (main_arg11 : FVec F S64 .f32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S2400000 .f32 := Host.absf main_arg3
  let main_cst_0 : FVec F S_ .f32 := constant S_ .f32 0x7F800000#32
  let main_v5 : FVec F S2400000 .f32 := broadcastInDim S2400000 ![] bcast_S_S2400000 main_cst_0
  let main_v6 : IVec S2400000 1 := cmpf .olt main_v4 main_v5
  let main_c_1 : IVec S_ 1 := constantI S_ 1 1#1
  let main_v7 : IVec S_ 1 := (fun x v => Host.reduce IntOp.andi x v reducesTo_S2400000_S_d0 h_S_) main_v6 main_c_1
  let main_v8 : IVec S_ 1 := andi main_v3 main_v7
  let main_v9 : FVec F S3x64x64 .f32 := Host.absf main_arg6
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg7
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg8 main_arg9 main_arg10 main_arg11 main_v13 main_v16
-- ==== Kernel.lean ====
abbrev S150000x64 : Shape := ⟨2, ![150000, 64]⟩
abbrev S2400000 : Shape := ⟨1, ![2400000]⟩
abbrev S4096 : Shape := ⟨1, ![4096]⟩
abbrev S3x64x64 : Shape := ⟨3, ![3, 64, 64]⟩
abbrev S3x64 : Shape := ⟨2, ![3, 64]⟩
abbrev S64x256 : Shape := ⟨2, ![64, 256]⟩
abbrev S64 : Shape := ⟨1, ![64]⟩
abbrev S2400000x1 : Shape := ⟨2, ![2400000, 1]⟩
abbrev S_ : Shape := ⟨0, ![]⟩
abbrev S2400000x64 : Shape := ⟨2, ![2400000, 64]⟩
abbrev S1x64x64 : Shape := ⟨3, ![1, 64, 64]⟩
abbrev S64x64 : Shape := ⟨2, ![64, 64]⟩
abbrev S1x64 : Shape := ⟨2, ![1, 64]⟩
abbrev S15000x64 : Shape := ⟨2, ![15000, 64]⟩
abbrev S150000x256 : Shape := ⟨2, ![150000, 256]⟩
abbrev S4096x1 : Shape := ⟨2, ![4096, 1]⟩
abbrev S4096x256 : Shape := ⟨2, ![4096, 256]⟩
abbrev S512x256 : Shape := ⟨2, ![512, 256]⟩
abbrev S512x1 : Shape := ⟨2, ![512, 1]⟩
abbrev S256x64 : Shape := ⟨2, ![256, 64]⟩
abbrev S512x64 : Shape := ⟨2, ![512, 64]⟩
abbrev S512 : Shape := ⟨1, ![512]⟩

abbrev nBuf : Space → Nat
  | .hbm => 118
  | .vmem => 38
  | .smem => 0
  | _ => 0

abbrev bufTy : (tb : Table) → Fin (tcTables nBuf tb) → BufTy
  | .hbm, ⟨0, _⟩ => ⟨S150000x64, .f32⟩
  | .hbm, ⟨1, _⟩ => ⟨S2400000, .i32⟩
  | .hbm, ⟨2, _⟩ => ⟨S2400000, .i32⟩
  | .hbm, ⟨3, _⟩ => ⟨S2400000, .f32⟩
  | .hbm, ⟨4, _⟩ => ⟨S4096, .i32⟩
  | .hbm, ⟨5, _⟩ => ⟨S4096, .i32⟩
  | .hbm, ⟨6, _⟩ => ⟨S3x64x64, .f32⟩
  | .hbm, ⟨7, _⟩ => ⟨S3x64, .f32⟩
  | .hbm, ⟨8, _⟩ => ⟨S3x64x64, .f32⟩
  | .hbm, ⟨9, _⟩ => ⟨S3x64, .f32⟩
  | .hbm, ⟨10, _⟩ => ⟨S64x256, .f32⟩
  | .hbm, ⟨11, _⟩ => ⟨S64, .f32⟩
  | .hbm, ⟨12, _⟩ => ⟨S2400000x1, .f32⟩
  | .hbm, ⟨13, _⟩ => ⟨S_, .i32⟩
  | .hbm, ⟨14, _⟩ => ⟨S2400000, .i32⟩
  | .hbm, ⟨15, _⟩ => ⟨S2400000, .i1⟩
  | .hbm, ⟨16, _⟩ => ⟨S_, .i32⟩
  | .hbm, ⟨17, _⟩ => ⟨S2400000, .i32⟩
  | .hbm, ⟨18, _⟩ => ⟨S2400000, .i32⟩
  | .hbm, ⟨19, _⟩ => ⟨S2400000, .i32⟩
  | .hbm, ⟨20, _⟩ => ⟨S2400000x1, .i32⟩
  | .hbm, ⟨21, _⟩ => ⟨S2400000x64, .f32⟩
  | .hbm, ⟨22, _⟩ => ⟨S2400000x64, .f32⟩
  | .hbm, ⟨23, _⟩ => ⟨S2400000x64, .f32⟩
  | .hbm, ⟨24, _⟩ => ⟨S_, .f32⟩
  | .hbm, ⟨25, _⟩ => ⟨S150000x64, .f32⟩
  | .hbm, ⟨26, _⟩ => ⟨S2400000x1, .i32⟩
  | .hbm, ⟨27, _⟩ => ⟨S150000x64, .f32⟩
  | .hbm, ⟨28, _⟩ => ⟨S1x64x64, .f32⟩
  | .hbm, ⟨29, _⟩ => ⟨S64x64, .f32⟩
  | .hbm, ⟨30, _⟩ => ⟨S1x64, .f32⟩
  | .hbm, ⟨31, _⟩ => ⟨S64, .f32⟩
  | .hbm, ⟨32, _⟩ => ⟨S1x64x64, .f32⟩
  | .hbm, ⟨33, _⟩ => ⟨S64x64, .f32⟩
  | .hbm, ⟨34, _⟩ => ⟨S1x64, .f32⟩
  | .hbm, ⟨35, _⟩ => ⟨S64, .f32⟩
  | .hbm, ⟨36, _⟩ => ⟨S1x64, .f32⟩
  | .hbm, ⟨37, _⟩ => ⟨S1x64, .f32⟩
  | .hbm, ⟨38, _⟩ => ⟨S150000x64, .f32⟩
  | .hbm, ⟨39, _⟩ => ⟨S2400000x1, .f32⟩
  | .hbm, ⟨40, _⟩ => ⟨S_, .i32⟩
  | .hbm, ⟨41, _⟩ => ⟨S2400000, .i32⟩
  | .hbm, ⟨42, _⟩ => ⟨S2400000, .i1⟩
  | .hbm, ⟨43, _⟩ => ⟨S_, .i32⟩
  | .hbm, ⟨44, _⟩ => ⟨S2400000, .i32⟩
  | .hbm, ⟨45, _⟩ => ⟨S2400000, .i32⟩
  | .hbm, ⟨46, _⟩ => ⟨S2400000, .i32⟩
  | .hbm, ⟨47, _⟩ => ⟨S2400000x1, .i32⟩
  | .hbm, ⟨48, _⟩ => ⟨S2400000x64, .f32⟩
  | .hbm, ⟨49, _⟩ => ⟨S2400000x64, .f32⟩
  | .hbm, ⟨50, _⟩ => ⟨S2400000x64, .f32⟩
  | .hbm, ⟨51, _⟩ => ⟨S_, .f32⟩
  | .hbm, ⟨52, _⟩ => ⟨S150000x64, .f32⟩
  | .hbm, ⟨53, _⟩ => ⟨S2400000x1, .i32⟩
  | .hbm, ⟨54, _⟩ => ⟨S150000x64, .f32⟩
  | .hbm, ⟨55, _⟩ => ⟨S1x64x64, .f32⟩
  | .hbm, ⟨56, _⟩ => ⟨S64x64, .f32⟩
  | .hbm, ⟨57, _⟩ => ⟨S1x64, .f32⟩
  | .hbm, ⟨58, _⟩ => ⟨S64, .f32⟩
  | .hbm, ⟨59, _⟩ => ⟨S1x64x64, .f32⟩
  | .hbm, ⟨60, _⟩ => ⟨S64x64, .f32⟩
  | .hbm, ⟨61, _⟩ => ⟨S1x64, .f32⟩
  | .hbm, ⟨62, _⟩ => ⟨S64, .f32⟩
  | .hbm, ⟨63, _⟩ => ⟨S1x64, .f32⟩
  | .hbm, ⟨64, _⟩ => ⟨S1x64, .f32⟩
  | .hbm, ⟨65, _⟩ => ⟨S150000x64, .f32⟩
  | .hbm, ⟨66, _⟩ => ⟨S2400000x1, .f32⟩
  | .hbm, ⟨67, _⟩ => ⟨S_, .i32⟩
  | .hbm, ⟨68, _⟩ => ⟨S2400000, .i32⟩
  | .hbm, ⟨69, _⟩ => ⟨S2400000, .i1⟩
  | .hbm, ⟨70, _⟩ => ⟨S_, .i32⟩
  | .hbm, ⟨71, _⟩ => ⟨S2400000, .i32⟩
  | .hbm, ⟨72, _⟩ => ⟨S2400000, .i32⟩
  | .hbm, ⟨73, _⟩ => ⟨S2400000, .i32⟩
  | .hbm, ⟨74, _⟩ => ⟨S2400000x1, .i32⟩
  | .hbm, ⟨75, _⟩ => ⟨S2400000x64, .f32⟩
  | .hbm, ⟨76, _⟩ => ⟨S2400000x64, .f32⟩
  | .hbm, ⟨77, _⟩ => ⟨S2400000x64, .f32⟩
  | .hbm, ⟨78, _⟩ => ⟨S_, .f32⟩
  | .hbm, ⟨79, _⟩ => ⟨S150000x64, .f32⟩
  | .hbm, ⟨80, _⟩ => ⟨S2400000x1, .i32⟩
  | .hbm, ⟨81, _⟩ => ⟨S150000x64, .f32⟩
  | .hbm, ⟨82, _⟩ => ⟨S1x64x64, .f32⟩
  | .hbm, ⟨83, _⟩ => ⟨S64x64, .f32⟩
  | .hbm, ⟨84, _⟩ => ⟨S1x64, .f32⟩
  | .hbm, ⟨85, _⟩ => ⟨S64, .f32⟩
  | .hbm, ⟨86, _⟩ => ⟨S1x64x64, .f32⟩
  | .hbm, ⟨87, _⟩ => ⟨S64x64, .f32⟩
  | .hbm, ⟨88, _⟩ => ⟨S1x64, .f32⟩
  | .hbm, ⟨89, _⟩ => ⟨S64, .f32⟩
  | .hbm, ⟨90, _⟩ => ⟨S1x64, .f32⟩
  | .hbm, ⟨91, _⟩ => ⟨S1x64, .f32⟩
  | .hbm, ⟨92, _⟩ => ⟨S150000x64, .f32⟩
  | .hbm, ⟨93, _⟩ => ⟨S150000x256, .f32⟩
  | .hbm, ⟨94, _⟩ => ⟨S_, .i32⟩
  | .hbm, ⟨95, _⟩ => ⟨S4096, .i32⟩
  | .hbm, ⟨96, _⟩ => ⟨S4096, .i1⟩
  | .hbm, ⟨97, _⟩ => ⟨S_, .i32⟩
  | .hbm, ⟨98, _⟩ => ⟨S4096, .i32⟩
  | .hbm, ⟨99, _⟩ => ⟨S4096, .i32⟩
  | .hbm, ⟨100, _⟩ => ⟨S4096, .i32⟩
  | .hbm, ⟨101, _⟩ => ⟨S4096x1, .i32⟩
  | .hbm, ⟨102, _⟩ => ⟨S4096x256, .f32⟩
  | .hbm, ⟨103, _⟩ => ⟨S_, .i32⟩
  | .hbm, ⟨104, _⟩ => ⟨S4096, .i32⟩
  | .hbm, ⟨105, _⟩ => ⟨S4096, .i32⟩
  | .hbm, ⟨106, _⟩ => ⟨S_, .i32⟩
  | .hbm, ⟨107, _⟩ => ⟨S4096, .i32⟩
  | .hbm, ⟨108, _⟩ => ⟨S4096, .i1⟩
  | .hbm, ⟨109, _⟩ => ⟨S_, .i32⟩
  | .hbm, ⟨110, _⟩ => ⟨S4096, .i32⟩
  | .hbm, ⟨111, _⟩ => ⟨S4096, .i32⟩
  | .hbm, ⟨112, _⟩ => ⟨S4096, .i32⟩
  | .hbm, ⟨113, _⟩ => ⟨S4096x1, .i32⟩
  | .hbm, ⟨114, _⟩ => ⟨S4096x256, .f32⟩
  | .hbm, ⟨115, _⟩ => ⟨S1x64, .f32⟩
  | .hbm, ⟨116, _⟩ => ⟨S4096x1, .f32⟩
  | .hbm, ⟨117, _⟩ => ⟨S4096, .f32⟩
  | .local _ .vmem, ⟨0, _⟩ => ⟨S15000x64, .f32⟩
  | .local _ .vmem, ⟨1, _⟩ => ⟨S15000x64, .f32⟩
  | .local _ .vmem, ⟨2, _⟩ => ⟨S15000x64, .f32⟩
  | .local _ .vmem, ⟨3, _⟩ => ⟨S15000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S15000x64, .f32⟩
  | .local _ .vmem, ⟨9, _⟩ => ⟨S15000x64, .f32⟩
  | .local _ .vmem, ⟨10, _⟩ => ⟨S15000x64, .f32⟩
  | .local _ .vmem, ⟨11, _⟩ => ⟨S15000x64, .f32⟩
  | .local _ .vmem, ⟨12, _⟩ => ⟨S15000x64, .f32⟩
  | .local _ .vmem, ⟨13, _⟩ => ⟨S15000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S15000x64, .f32⟩
  | .local _ .vmem, ⟨19, _⟩ => ⟨S15000x64, .f32⟩
  | .local _ .vmem, ⟨20, _⟩ => ⟨S15000x64, .f32⟩
  | .local _ .vmem, ⟨21, _⟩ => ⟨S15000x64, .f32⟩
  | .local _ .vmem, ⟨22, _⟩ => ⟨S15000x64, .f32⟩
  | .local _ .vmem, ⟨23, _⟩ => ⟨S15000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S15000x64, .f32⟩
  | .local _ .vmem, ⟨29, _⟩ => ⟨S15000x64, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S512x256, .f32⟩
  | .local _ .vmem, ⟨34, _⟩ => ⟨S64x256, .f32⟩
  | .local _ .vmem, ⟨35, _⟩ => ⟨S1x64, .f32⟩
  | .local _ .vmem, ⟨36, _⟩ => ⟨S512x1, .f32⟩
  | .local _ .vmem, ⟨37, _⟩ => ⟨S512x1, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_1 : Ref sig .tc := ⟨.hbm, 40, rfl⟩
abbrev main_v25 : Ref sig .tc := ⟨.hbm, 41, rfl⟩
abbrev main_v26 : Ref sig .tc := ⟨.hbm, 42, rfl⟩
abbrev main_c_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_4 : Ref sig .tc := ⟨.hbm, 67, rfl⟩
abbrev main_v49 : Ref sig .tc := ⟨.hbm, 68, rfl⟩
abbrev main_v50 : Ref sig .tc := ⟨.hbm, 69, rfl⟩
abbrev main_c_5 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_6 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_c_7 : Ref sig .tc := ⟨.hbm, 94, rfl⟩
abbrev main_v73 : Ref sig .tc := ⟨.hbm, 95, rfl⟩
abbrev main_v74 : Ref sig .tc := ⟨.hbm, 96, rfl⟩
abbrev main_c_8 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_c_9 : Ref sig .tc := ⟨.hbm, 103, rfl⟩
abbrev main_v80 : Ref sig .tc := ⟨.hbm, 104, rfl⟩
abbrev main_v81 : Ref sig .tc := ⟨.hbm, 105, rfl⟩
abbrev main_c_10 : Ref sig .tc := ⟨.hbm, 106, rfl⟩
abbrev main_v82 : Ref sig .tc := ⟨.hbm, 107, rfl⟩
abbrev main_v83 : Ref sig .tc := ⟨.hbm, 108, rfl⟩
abbrev main_c_11 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem4_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S15000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S15000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S15000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S15000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S15000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S15000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S15000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S15000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S15000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S15000x64_S15000x64_0_0 : ∀ a, (![0, 0] : Fin 2 → Nat) a + S15000x64.size a ≤ S15000x64.size a
  h_S15000x64 : 0 < S15000x64.numel
  shapeCasts_S15000x64_S15000x64 : S15000x64.ShapeCasts S15000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x64_p1_0_S64x64 : S64x64.Transposes [1, 0] S64x64
  broadcasts_S1x64_S15000x64 : S1x64.Broadcasts S15000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S150000x64_S150000x64_S150000x64_S150000x64_S150000x256_d1 : Shape.Concatenates [S150000x64, S150000x64, S150000x64, S150000x64] S150000x256 1
  bcast_S_S4096 : S_.BroadcastsInDim S4096 (![] : Fin 0 → Fin S4096.rank)
  bcast_S4096_S4096x1_0 : S4096.BroadcastsInDim S4096x1 (![0] : Fin 1 → Fin S4096x1.rank)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S64x256_S64x256_0_0 : ∀ a, (![0, 0] : Fin 2 → Nat) a + S64x256.size a ≤ S64x256.size a
  h_S64x256 : 0 < S64x256.numel
  transposes_S64x256_p1_0_S256x64 : S64x256.Transposes [1, 0] S256x64
  broadcasts_S1x64_S512x64 : S1x64.Broadcasts S512x64
  reduces_S512x64_S512 : S512x64.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S4096x1_S4096 : S4096x1.ShapeCasts S4096
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S15000x64_S64x64_S15000x64_1_0_0_1_n_n_wf : DotDims.WF S15000x64 S64x64 S15000x64 [1] [0] [0] [1] [] []
  gather_S150000x256_S4096x1_S4096x256_1_0_n_n_0_1_1256_wf : GatherDims.WF S150000x256 S4096x1 S4096x256 [1] [0] [] [0] [] 1 ![1, 256]
  dot_S512x256_S256x64_S512x64_1_0_0_1_n_n_wf : DotDims.WF S512x256 S256x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S15000x64.size a ≤ S150000x64.size a
  hwx0_0 : ∀ i : grid0.Coords, EltTy.bits .f32 = 32 ∨ (Rect.block (s := S150000x64) S15000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S15000x64.size a ≤ S150000x64.size a
  hwx0_1 : ∀ i : grid0.Coords, EltTy.bits .f32 = 32 ∨ (Rect.block (s := S150000x64) S15000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S15000x64.size a ≤ S150000x64.size a
  hwx0_6 : ∀ i : grid0.Coords, EltTy.bits .f32 = 32 ∨ (Rect.block (s := S150000x64) S15000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S15000x64.size a ≤ S150000x64.size a
  hwx1_0 : ∀ i : grid1.Coords, EltTy.bits .f32 = 32 ∨ (Rect.block (s := S150000x64) S15000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S15000x64.size a ≤ S150000x64.size a
  hwx1_1 : ∀ i : grid1.Coords, EltTy.bits .f32 = 32 ∨ (Rect.block (s := S150000x64) S15000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S15000x64.size a ≤ S150000x64.size a
  hwx1_6 : ∀ i : grid1.Coords, EltTy.bits .f32 = 32 ∨ (Rect.block (s := S150000x64) S15000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S15000x64.size a ≤ S150000x64.size a
  hwx2_0 : ∀ i : grid2.Coords, EltTy.bits .f32 = 32 ∨ (Rect.block (s := S150000x64) S15000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S15000x64.size a ≤ S150000x64.size a
  hwx2_1 : ∀ i : grid2.Coords, EltTy.bits .f32 = 32 ∨ (Rect.block (s := S150000x64) S15000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S15000x64.size a ≤ S150000x64.size a
  hwx2_6 : ∀ i : grid2.Coords, EltTy.bits .f32 = 32 ∨ (Rect.block (s := S150000x64) S15000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x256.size a ≤ S4096x256.size a
  hwx3_0 : ∀ i : grid3.Coords, EltTy.bits .f32 = 32 ∨ (Rect.block (s := S4096x256) S512x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S4096x256.size a
  hwx3_1 : ∀ i : grid3.Coords, EltTy.bits .f32 = 32 ∨ (Rect.block (s := S4096x256) S512x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x256.size a ≤ S64x256.size a
  hwx3_2 : ∀ i : grid3.Coords, EltTy.bits .f32 = 32 ∨ (Rect.block (s := S64x256) S64x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x1.size a ≤ S4096x1.size a
  hwx3_4 : ∀ i : grid3.Coords, EltTy.bits .f32 = 32 ∨ (Rect.block (s := S4096x1) S512x1.size (cc3_transform_4 i) (hinb3_4 i)).WholeWords (EltTy.packing .f32)

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S15000x64_S64x64_S15000x64_1_0_0_1_n_n : DotDims S15000x64 S64x64 S15000x64 where
  lhsContracting := [1]
  rhsContracting := [0]
  lhsNonContracting := [0]
  rhsNonContracting := [1]
  lhsBatch := []
  rhsBatch := []
  wf := dot_S15000x64_S64x64_S15000x64_1_0_0_1_n_n_wf
def gather_S150000x256_S4096x1_S4096x256_1_0_n_n_0_1_1256 : GatherDims S150000x256 S4096x1 S4096x256 where
  offsetDims := [1]
  collapsedSliceDims := [0]
  operandBatchingDims := []
  startIndicesBatchingDims := []
  startIndexMap := [0]
  indexVectorDim := 1
  sliceSizes := ![1, 256]
  wf := gather_S150000x256_S4096x1_S4096x256_1_0_n_n_0_1_1256_wf
def dot_S512x256_S256x64_S512x64_1_0_0_1_n_n : DotDims S512x256 S256x64 S512x64 where
  lhsContracting := [1]
  rhsContracting := [0]
  lhsNonContracting := [0]
  rhsNonContracting := [1]
  lhsBatch := []
  rhsBatch := []
  wf := dot_S512x256_S256x64_S512x64_1_0_0_1_n_n_wf

abbrev win0_0 : Pipeline.Window sig grid0 :=
  Pipeline.Window.ofSpec (Memref.whole main_v12) S15000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S15000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S15000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S15000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S15000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S15000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v60) S15000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S15000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v71) S15000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v79) S512x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v88) S512x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S64x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v90) S512x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S150000x64 : Shape := ⟨2, ![150000, 64]⟩
abbrev S2400000 : Shape := ⟨1, ![2400000]⟩
abbrev S4096 : Shape := ⟨1, ![4096]⟩
abbrev S3x64x64 : Shape := ⟨3, ![3, 64, 64]⟩
abbrev S3x64 : Shape := ⟨2, ![3, 64]⟩
abbrev S64x256 : Shape := ⟨2, ![64, 256]⟩
abbrev S64 : Shape := ⟨1, ![64]⟩
abbrev S2400000x1 : Shape := ⟨2, ![2400000, 1]⟩
abbrev S_ : Shape := ⟨0, ![]⟩
abbrev S2400000x64 : Shape := ⟨2, ![2400000, 64]⟩
abbrev S1x64x64 : Shape := ⟨3, ![1, 64, 64]⟩
abbrev S64x64 : Shape := ⟨2, ![64, 64]⟩
abbrev S1x64 : Shape := ⟨2, ![1, 64]⟩
abbrev S150000x256 : Shape := ⟨2, ![150000, 256]⟩
abbrev S4096x1 : Shape := ⟨2, ![4096, 1]⟩
abbrev S4096x256 : Shape := ⟨2, ![4096, 256]⟩
abbrev S256x64 : Shape := ⟨2, ![256, 64]⟩
abbrev S4096x64 : Shape := ⟨2, ![4096, 64]⟩

abbrev nBuf : Space → Nat
  | .hbm => 182
  | .vmem => 0
  | .smem => 0
  | _ => 0

abbrev hbmTy0_0 (i : Nat) : BufTy := match i % 128 with
  | 0 => ⟨S150000x64, .f32⟩
  | 1 => ⟨S2400000, .i32⟩
  | 2 => ⟨S2400000, .i32⟩
  | 3 => ⟨S2400000, .f32⟩
  | 4 => ⟨S4096, .i32⟩
  | 5 => ⟨S4096, .i32⟩
  | 6 => ⟨S3x64x64, .f32⟩
  | 7 => ⟨S3x64, .f32⟩
  | 8 => ⟨S3x64x64, .f32⟩
  | 9 => ⟨S3x64, .f32⟩
  | 10 => ⟨S64x256, .f32⟩
  | 11 => ⟨S64, .f32⟩
  | 12 => ⟨S2400000x1, .f32⟩
  | 13 => ⟨S_, .i32⟩
  | 14 => ⟨S2400000, .i32⟩
  | 15 => ⟨S2400000, .i1⟩
  | 16 => ⟨S_, .i32⟩
  | 17 => ⟨S2400000, .i32⟩
  | 18 => ⟨S2400000, .i32⟩
  | 19 => ⟨S2400000, .i32⟩
  | 20 => ⟨S2400000x1, .i32⟩
  | 21 => ⟨S2400000x64, .f32⟩
  | 22 => ⟨S2400000x64, .f32⟩
  | 23 => ⟨S2400000x64, .f32⟩
  | 24 => ⟨S_, .f32⟩
  | 25 => ⟨S150000x64, .f32⟩
  | 26 => ⟨S2400000x1, .i32⟩
  | 27 => ⟨S150000x64, .f32⟩
  | 28 => ⟨S150000x64, .f32⟩
  | 29 => ⟨S1x64x64, .f32⟩
  | 30 => ⟨S64x64, .f32⟩
  | 31 => ⟨S64x64, .f32⟩
  | 32 => ⟨S150000x64, .f32⟩
  | 33 => ⟨S1x64, .f32⟩
  | 34 => ⟨S64, .f32⟩
  | 35 => ⟨S1x64, .f32⟩
  | 36 => ⟨S150000x64, .f32⟩
  | 37 => ⟨S150000x64, .f32⟩
  | 38 => ⟨S150000x64, .f32⟩
  | 39 => ⟨S1x64x64, .f32⟩
  | 40 => ⟨S64x64, .f32⟩
  | 41 => ⟨S64x64, .f32⟩
  | 42 => ⟨S150000x64, .f32⟩
  | 43 => ⟨S1x64, .f32⟩
  | 44 => ⟨S64, .f32⟩
  | 45 => ⟨S1x64, .f32⟩
  | 46 => ⟨S150000x64, .f32⟩
  | 47 => ⟨S150000x64, .f32⟩
  | 48 => ⟨S150000x64, .f32⟩
  | 49 => ⟨S_, .f32⟩
  | 50 => ⟨S_, .f32⟩
  | 51 => ⟨S150000x64, .f32⟩
  | 52 => ⟨S150000x64, .i1⟩
  | 53 => ⟨S_, .f32⟩
  | 54 => ⟨S150000x64, .f32⟩
  | 55 => ⟨S150000x64, .f32⟩
  | 56 => ⟨S150000x64, .f32⟩
  | 57 => ⟨S2400000x1, .f32⟩
  | 58 => ⟨S_, .i32⟩
  | 59 => ⟨S2400000, .i32⟩
  | 60 => ⟨S2400000, .i1⟩
  | 61 => ⟨S_, .i32⟩
  | 62 => ⟨S2400000, .i32⟩
  | 63 => ⟨S2400000, .i32⟩
  | 64 => ⟨S2400000, .i32⟩
  | 65 => ⟨S2400000x1, .i32⟩
  | 66 => ⟨S2400000x64, .f32⟩
  | 67 => ⟨S2400000x64, .f32⟩
  | 68 => ⟨S2400000x64, .f32⟩
  | 69 => ⟨S_, .f32⟩
  | 70 => ⟨S150000x64, .f32⟩
  | 71 => ⟨S2400000x1, .i32⟩
  | 72 => ⟨S150000x64, .f32⟩
  | 73 => ⟨S150000x64, .f32⟩
  | 74 => ⟨S1x64x64, .f32⟩
  | 75 => ⟨S64x64, .f32⟩
  | 76 => ⟨S64x64, .f32⟩
  | 77 => ⟨S150000x64, .f32⟩
  | 78 => ⟨S1x64, .f32⟩
  | 79 => ⟨S64, .f32⟩
  | 80 => ⟨S1x64, .f32⟩
  | 81 => ⟨S150000x64, .f32⟩
  | 82 => ⟨S150000x64, .f32⟩
  | 83 => ⟨S150000x64, .f32⟩
  | 84 => ⟨S1x64x64, .f32⟩
  | 85 => ⟨S64x64, .f32⟩
  | 86 => ⟨S64x64, .f32⟩
  | 87 => ⟨S150000x64, .f32⟩
  | 88 => ⟨S1x64, .f32⟩
  | 89 => ⟨S64, .f32⟩
  | 90 => ⟨S1x64, .f32⟩
  | 91 => ⟨S150000x64, .f32⟩
  | 92 => ⟨S150000x64, .f32⟩
  | 93 => ⟨S150000x64, .f32⟩
  | 94 => ⟨S_, .f32⟩
  | 95 => ⟨S_, .f32⟩
  | 96 => ⟨S150000x64, .f32⟩
  | 97 => ⟨S150000x64, .i1⟩
  | 98 => ⟨S_, .f32⟩
  | 99 => ⟨S150000x64, .f32⟩
  | 100 => ⟨S150000x64, .f32⟩
  | 101 => ⟨S150000x64, .f32⟩
  | 102 => ⟨S2400000x1, .f32⟩
  | 103 => ⟨S_, .i32⟩
  | 104 => ⟨S2400000, .i32⟩
  | 105 => ⟨S2400000, .i1⟩
  | 106 => ⟨S_, .i32⟩
  | 107 => ⟨S2400000, .i32⟩
  | 108 => ⟨S2400000, .i32⟩
  | 109 => ⟨S2400000, .i32⟩
  | 110 => ⟨S2400000x1, .i32⟩
  | 111 => ⟨S2400000x64, .f32⟩
  | 112 => ⟨S2400000x64, .f32⟩
  | 113 => ⟨S2400000x64, .f32⟩
  | 114 => ⟨S_, .f32⟩
  | 115 => ⟨S150000x64, .f32⟩
  | 116 => ⟨S2400000x1, .i32⟩
  | 117 => ⟨S150000x64, .f32⟩
  | 118 => ⟨S150000x64, .f32⟩
  | 119 => ⟨S1x64x64, .f32⟩
  | 120 => ⟨S64x64, .f32⟩
  | 121 => ⟨S64x64, .f32⟩
  | 122 => ⟨S150000x64, .f32⟩
  | 123 => ⟨S1x64, .f32⟩
  | 124 => ⟨S64, .f32⟩
  | 125 => ⟨S1x64, .f32⟩
  | 126 => ⟨S150000x64, .f32⟩
  | 127 => ⟨S150000x64, .f32⟩
  | _ => ⟨S150000x64, .f32⟩

abbrev hbmTy0_1 (i : Nat) : BufTy := match i % 128 with
  | 0 => ⟨S150000x64, .f32⟩
  | 1 => ⟨S1x64x64, .f32⟩
  | 2 => ⟨S64x64, .f32⟩
  | 3 => ⟨S64x64, .f32⟩
  | 4 => ⟨S150000x64, .f32⟩
  | 5 => ⟨S1x64, .f32⟩
  | 6 => ⟨S64, .f32⟩
  | 7 => ⟨S1x64, .f32⟩
  | 8 => ⟨S150000x64, .f32⟩
  | 9 => ⟨S150000x64, .f32⟩
  | 10 => ⟨S150000x64, .f32⟩
  | 11 => ⟨S_, .f32⟩
  | 12 => ⟨S_, .f32⟩
  | 13 => ⟨S150000x64, .f32⟩
  | 14 => ⟨S150000x64, .i1⟩
  | 15 => ⟨S_, .f32⟩
  | 16 => ⟨S150000x64, .f32⟩
  | 17 => ⟨S150000x64, .f32⟩
  | 18 => ⟨S150000x64, .f32⟩
  | 19 => ⟨S150000x256, .f32⟩
  | 20 => ⟨S_, .i32⟩
  | 21 => ⟨S4096, .i32⟩
  | 22 => ⟨S4096, .i1⟩
  | 23 => ⟨S_, .i32⟩
  | 24 => ⟨S4096, .i32⟩
  | 25 => ⟨S4096, .i32⟩
  | 26 => ⟨S4096, .i32⟩
  | 27 => ⟨S4096x1, .i32⟩
  | 28 => ⟨S4096x256, .f32⟩
  | 29 => ⟨S256x64, .f32⟩
  | 30 => ⟨S4096x64, .f32⟩
  | 31 => ⟨S1x64, .f32⟩
  | 32 => ⟨S4096x64, .f32⟩
  | 33 => ⟨S4096x64, .f32⟩
  | 34 => ⟨S_, .i32⟩
  | 35 => ⟨S4096, .i32⟩
  | 36 => ⟨S4096, .i32⟩
  | 37 => ⟨S_, .i32⟩
  | 38 => ⟨S4096, .i32⟩
  | 39 => ⟨S4096, .i1⟩
  | 40 => ⟨S_, .i32⟩
  | 41 => ⟨S4096, .i32⟩
  | 42 => ⟨S4096, .i32⟩
  | 43 => ⟨S4096, .i32⟩
  | 44 => ⟨S4096x1, .i32⟩
  | 45 => ⟨S4096x256, .f32⟩
  | 46 => ⟨S256x64, .f32⟩
  | 47 => ⟨S4096x64, .f32⟩
  | 48 => ⟨S1x64, .f32⟩
  | 49 => ⟨S4096x64, .f32⟩
  | 50 => ⟨S4096x64, .f32⟩
  | 51 => ⟨S4096x64, .f32⟩
  | 52 => ⟨S_, .f32⟩
  | 53 => ⟨S4096, .f32⟩
  | _ => ⟨S150000x64, .f32⟩

abbrev hbmTy (i : Nat) : BufTy := match i / 128 with
  | 0 => hbmTy0_0 i
  | 1 => hbmTy0_1 i
  | _ => ⟨S150000x64, .f32⟩

abbrev bufTy : (tb : Table) → Fin (tcTables nBuf tb) → BufTy
  | .hbm, ⟨i, _⟩ => hbmTy i
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_1 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v34 : Ref sig .tc := ⟨.hbm, 56, rfl⟩
abbrev main_v35 : Ref sig .tc := ⟨.hbm, 57, rfl⟩
abbrev main_c_2 : Ref sig .tc := ⟨.hbm, 58, rfl⟩
abbrev main_v36 : Ref sig .tc := ⟨.hbm, 59, rfl⟩
abbrev main_v37 : Ref sig .tc := ⟨.hbm, 60, rfl⟩
abbrev main_c_3 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_4 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_5 : Ref sig .tc := ⟨.hbm, 94, rfl⟩
abbrev main_call1_cst : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_v69 : Ref sig .tc := ⟨.hbm, 101, rfl⟩
abbrev main_v70 : Ref sig .tc := ⟨.hbm, 102, rfl⟩
abbrev main_c_6 : Ref sig .tc := ⟨.hbm, 103, rfl⟩
abbrev main_v71 : Ref sig .tc := ⟨.hbm, 104, rfl⟩
abbrev main_v72 : Ref sig .tc := ⟨.hbm, 105, rfl⟩
abbrev main_c_7 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_8 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_9 : Ref sig .tc := ⟨.hbm, 139, rfl⟩
abbrev main_call2_cst : Ref sig .tc := ⟨.hbm, 140, rfl⟩
abbrev main_call2_v0 : Ref sig .tc := ⟨.hbm, 141, rfl⟩
abbrev main_call2_v1 : Ref sig .tc := ⟨.hbm, 142, rfl⟩
abbrev main_call2_v2 : Ref sig .tc := ⟨.hbm, 143, rfl⟩
abbrev main_call2_v3 : Ref sig .tc := ⟨.hbm, 144, rfl⟩
abbrev main_call2_v4 : Ref sig .tc := ⟨.hbm, 145, rfl⟩
abbrev main_v104 : Ref sig .tc := ⟨.hbm, 146, rfl⟩
abbrev main_v105 : Ref sig .tc := ⟨.hbm, 147, rfl⟩
abbrev main_c_10 : Ref sig .tc := ⟨.hbm, 148, rfl⟩
abbrev main_v106 : Ref sig .tc := ⟨.hbm, 149, rfl⟩
abbrev main_v107 : Ref sig .tc := ⟨.hbm, 150, rfl⟩
abbrev main_c_11 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_c_12 : Ref sig .tc := ⟨.hbm, 162, rfl⟩
abbrev main_v118 : Ref sig .tc := ⟨.hbm, 163, rfl⟩
abbrev main_v119 : Ref sig .tc := ⟨.hbm, 164, rfl⟩
abbrev main_c_13 : Ref sig .tc := ⟨.hbm, 165, rfl⟩
abbrev main_v120 : Ref sig .tc := ⟨.hbm, 166, rfl⟩
abbrev main_v121 : Ref sig .tc := ⟨.hbm, 167, rfl⟩
abbrev main_c_14 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_cst_15 : Ref sig .tc := ⟨.hbm, 180, rfl⟩
abbrev main_v133 : Ref sig .tc := ⟨.hbm, 181, rfl⟩

abbrev nD : Nat := 1
abbrev τ : Topo := Topo.v7x

variable {F : FTy → Type} [FloatOps F]

class Facts₀ : Prop where
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S150000x64_S150000x64_S150000x64_S150000x64_S150000x256_d1 : Shape.Concatenates [S150000x64, S150000x64, S150000x64, S150000x64] S150000x256 1
  bcast_S_S4096 : S_.BroadcastsInDim S4096 (![] : Fin 0 → Fin S4096.rank)
  bcast_S4096_S4096x1_0 : S4096.BroadcastsInDim S4096x1 (![0] : Fin 1 → Fin S4096x1.rank)
  transposes_S64x256_S256x64_1_0 : S64x256.Transposes [1, 0] S256x64
  bcast_S1x64_S4096x64_0_1 : S1x64.BroadcastsInDim S4096x64 (![0, 1] : Fin 2 → Fin S4096x64.rank)
  reducesTo_S4096x64_S4096_d1 : S4096x64.ReducesTo [1] S4096
  h_S_ : 0 < S_.numel
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S150000x64_S64x64_S150000x64_1_0_0_1_n_n_wf : DotDims.WF S150000x64 S64x64 S150000x64 [1] [0] [0] [1] [] []
  gather_S150000x256_S4096x1_S4096x256_1_0_n_n_0_1_1256_wf : GatherDims.WF S150000x256 S4096x1 S4096x256 [1] [0] [] [0] [] 1 ![1, 256]
  dot_S4096x256_S256x64_S4096x64_1_0_0_1_n_n_wf : DotDims.WF S4096x256 S256x64 S4096x64 [1] [0] [0] [1] [] []

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def gather_S150000x256_S4096x1_S4096x256_1_0_n_n_0_1_1256 : GatherDims S150000x256 S4096x1 S4096x256 where
  offsetDims := [1]
  collapsedSliceDims := [0]
  operandBatchingDims := []
  startIndicesBatchingDims := []
  startIndexMap := [0]
  indexVectorDim := 1
  sliceSizes := ![1, 256]
  wf := gather_S150000x256_S4096x1_S4096x256_1_0_n_n_0_1_1256_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

class Facts : Prop extends Facts₀ where

variable [Facts]
-- ==== Proof.KernelRegion0.lean ====
/-
  Region 0 of @main: graph-convolution layer 1 as a pallas_call over ten row blocks of 15000 rows. At a grid point
  the body reads the aggregated block, the features block, the two 64×64 weights and the two bias rows, and
  overwrites the whole output block with one value (the skeleton's payload).
  This module states what the body leaves in the output's staging buffer as a function of the input blocks, proves
  the body's triple by symbolic execution, and packages the pipeline's proof data and body obligation, all at a
  parameter `V`: the buffers' contents when the region is entered.
-/
import proofs.«142689_j30262339568120_1_alg».proof.Proof.Gen.Kernel.Launch
import proofs.«142689_j30262339568120_1_alg».proof.Proof.Gen.Kernel.Skeleton
import proofs.«142689_j30262339568120_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether it was fetched there or its
    index has not moved since the fetch (a window with a constant index is fetched once). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole buffer -/

abbrev r0_S15000x64 : Rect S15000x64 := Rect.unit (s := S15000x64) ![0, 0] S15000x64.size inb_S15000x64_S15000x64_0_0
abbrev r0_S64x64 : Rect S64x64 := Rect.unit (s := S64x64) ![0, 0] S64x64.size inb_S64x64_S64x64_0_0
abbrev r0_S1x64 : Rect S1x64 := Rect.unit (s := S1x64) ![0, 0] S1x64.size inb_S1x64_S1x64_0_0

/-- The output's staging buffer after the body: its one store, of the payload of the loads. -/
def out0_6 (x0 : Vec F S15000x64 .f32) (x1 : Vec F S15000x64 .f32) (x2 : Vec F S64x64 .f32) (x3 : Vec F S1x64 .f32) (x4 : Vec F S64x64 .f32) (x5 : Vec F S1x64 .f32) : Vec F S15000x64 .f32 :=
  View.canon [⟨r0_S15000x64, k0_pay1 (View.ld x0 r0_S15000x64) (View.ld x1 r0_S15000x64) (View.ld x2 r0_S64x64) (View.ld x4 r0_S64x64) (View.ld x3 r0_S1x64) (View.ld x5 r0_S1x64)⟩]

/-- The one store covers the buffer. -/
theorem cover0_6 (p0 : Vec F S15000x64 .f32) (y : S15000x64.Idx) :
    ∃ pc ∈ ([⟨r0_S15000x64, p0⟩] : List (View.Piece (Elt F) S15000x64 .f32)), y ∈ pc.1.set :=
  View.cover_of_tiled [⟨r0_S15000x64, p0⟩] S15000x64.size (by rfl) y

set_option maxHeartbeats 1000000 in
/-- The body on whole staging memrefs, the inputs' at contents `x_w` and the output's at anything, runs to the
    continuation with the inputs' as they were and the output's at `out0_6` of them. -/
theorem sound_kernel0 (c : Dev nD) (E : Set ℕ) (i : grid0.Coords) (arg0 : Memref sig .tc .vmem S15000x64 .f32) (harg0 : arg0.IsWhole) (arg1 : Memref sig .tc .vmem S15000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S15000x64 .f32) (harg6 : arg6.IsWhole)
    (x0 : Vec F S15000x64 .f32) (x1 : Vec F S15000x64 .f32) (x2 : Vec F S64x64 .f32) (x3 : Vec F S1x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out0_6 x0 x1 x2 x3 x4 x5)) -∗ K ⟨⟩))
      ⊢ wp frame (wpE (defs₀ (F := F)) Variants.none c none) E (cc0__gcn_layer_kernel i arg0 harg0 arg1 harg1 arg2 harg2 arg3 harg3 arg4 harg4 arg5 harg5 arg6 harg6) K := by
  simp only [cc0__gcn_layer_kernel_eq_skeleton]; unfold cc0__gcn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The arrays as the region finds them; after the body at point `t` each input's buffer at its block and the
    output's at `out0_6` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KernelRegion1.lean ====
/-
  Region 1 of @main: graph-convolution layer 2 as a pallas_call over ten row blocks of 15000 rows. At a grid point
  the body reads the aggregated block, the features block, the two 64×64 weights and the two bias rows, and
  overwrites the whole output block with one value (the skeleton's payload).
  This module states what the body leaves in the output's staging buffer as a function of the input blocks, proves
  the body's triple by symbolic execution, and packages the pipeline's proof data and body obligation, all at a
  parameter `V`: the buffers' contents when the region is entered.
-/
import proofs.«142689_j30262339568120_1_alg».proof.Proof.Gen.Kernel.Launch
import proofs.«142689_j30262339568120_1_alg».proof.Proof.Gen.Kernel.Skeleton
import proofs.«142689_j30262339568120_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether it was fetched there or its
    index has not moved since the fetch (a window with a constant index is fetched once). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole buffer -/

abbrev r1_S15000x64 : Rect S15000x64 := Rect.unit (s := S15000x64) ![0, 0] S15000x64.size inb_S15000x64_S15000x64_0_0
abbrev r1_S64x64 : Rect S64x64 := Rect.unit (s := S64x64) ![0, 0] S64x64.size inb_S64x64_S64x64_0_0
abbrev r1_S1x64 : Rect S1x64 := Rect.unit (s := S1x64) ![0, 0] S1x64.size inb_S1x64_S1x64_0_0

/-- The output's staging buffer after the body: its one store, of the payload of the loads. -/
def out1_6 (x0 : Vec F S15000x64 .f32) (x1 : Vec F S15000x64 .f32) (x2 : Vec F S64x64 .f32) (x3 : Vec F S1x64 .f32) (x4 : Vec F S64x64 .f32) (x5 : Vec F S1x64 .f32) : Vec F S15000x64 .f32 :=
  View.canon [⟨r1_S15000x64, k1_pay1 (View.ld x0 r1_S15000x64) (View.ld x1 r1_S15000x64) (View.ld x2 r1_S64x64) (View.ld x4 r1_S64x64) (View.ld x3 r1_S1x64) (View.ld x5 r1_S1x64)⟩]

/-- The one store covers the buffer. -/
theorem cover1_6 (p0 : Vec F S15000x64 .f32) (y : S15000x64.Idx) :
    ∃ pc ∈ ([⟨r1_S15000x64, p0⟩] : List (View.Piece (Elt F) S15000x64 .f32)), y ∈ pc.1.set :=
  View.cover_of_tiled [⟨r1_S15000x64, p0⟩] S15000x64.size (by rfl) y

set_option maxHeartbeats 1000000 in
/-- The body on whole staging memrefs, the inputs' at contents `x_w` and the output's at anything, runs to the
    continuation with the inputs' as they were and the output's at `out1_6` of them. -/
theorem sound_kernel1 (c : Dev nD) (E : Set ℕ) (i : grid1.Coords) (arg0 : Memref sig .tc .vmem S15000x64 .f32) (harg0 : arg0.IsWhole) (arg1 : Memref sig .tc .vmem S15000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S15000x64 .f32) (harg6 : arg6.IsWhole)
    (x0 : Vec F S15000x64 .f32) (x1 : Vec F S15000x64 .f32) (x2 : Vec F S64x64 .f32) (x3 : Vec F S1x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out1_6 x0 x1 x2 x3 x4 x5)) -∗ K ⟨⟩))
      ⊢ wp frame (wpE (defs₀ (F := F)) Variants.none c none) E (cc1__gcn_layer_kernel i arg0 harg0 arg1 harg1 arg2 harg2 arg3 harg3 arg4 harg4 arg5 harg5 arg6 harg6) K := by
  simp only [cc1__gcn_layer_kernel_eq_skeleton]; unfold cc1__gcn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The arrays as the region finds them; after the body at point `t` each input's buffer at its block and the
    output's at `out1_6` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KernelRegion2.lean ====
/-
  Region 2 of @main: graph-convolution layer 3 as a pallas_call over ten row blocks of 15000 rows. At a grid point
  the body reads the aggregated block, the features block, the two 64×64 weights and the two bias rows, and
  overwrites the whole output block with one value (the skeleton's payload).
  This module states what the body leaves in the output's staging buffer as a function of the input blocks, proves
  the body's triple by symbolic execution, and packages the pipeline's proof data and body obligation, all at a
  parameter `V`: the buffers' contents when the region is entered.
-/
import proofs.«142689_j30262339568120_1_alg».proof.Proof.Gen.Kernel.Launch
import proofs.«142689_j30262339568120_1_alg».proof.Proof.Gen.Kernel.Skeleton
import proofs.«142689_j30262339568120_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, whether it was fetched there or its
    index has not moved since the fetch (a window with a constant index is fetched once). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take the whole buffer -/

abbrev r2_S15000x64 : Rect S15000x64 := Rect.unit (s := S15000x64) ![0, 0] S15000x64.size inb_S15000x64_S15000x64_0_0
abbrev r2_S64x64 : Rect S64x64 := Rect.unit (s := S64x64) ![0, 0] S64x64.size inb_S64x64_S64x64_0_0
abbrev r2_S1x64 : Rect S1x64 := Rect.unit (s := S1x64) ![0, 0] S1x64.size inb_S1x64_S1x64_0_0

/-- The output's staging buffer after the body: its one store, of the payload of the loads. -/
def out2_6 (x0 : Vec F S15000x64 .f32) (x1 : Vec F S15000x64 .f32) (x2 : Vec F S64x64 .f32) (x3 : Vec F S1x64 .f32) (x4 : Vec F S64x64 .f32) (x5 : Vec F S1x64 .f32) : Vec F S15000x64 .f32 :=
  View.canon [⟨r2_S15000x64, k2_pay1 (View.ld x0 r2_S15000x64) (View.ld x1 r2_S15000x64) (View.ld x2 r2_S64x64) (View.ld x4 r2_S64x64) (View.ld x3 r2_S1x64) (View.ld x5 r2_S1x64)⟩]

/-- The one store covers the buffer. -/
theorem cover2_6 (p0 : Vec F S15000x64 .f32) (y : S15000x64.Idx) :
    ∃ pc ∈ ([⟨r2_S15000x64, p0⟩] : List (View.Piece (Elt F) S15000x64 .f32)), y ∈ pc.1.set :=
  View.cover_of_tiled [⟨r2_S15000x64, p0⟩] S15000x64.size (by rfl) y

set_option maxHeartbeats 1000000 in
/-- The body on whole staging memrefs, the inputs' at contents `x_w` and the output's at anything, runs to the
    continuation with the inputs' as they were and the output's at `out2_6` of them. -/
theorem sound_kernel2 (c : Dev nD) (E : Set ℕ) (i : grid2.Coords) (arg0 : Memref sig .tc .vmem S15000x64 .f32) (harg0 : arg0.IsWhole) (arg1 : Memref sig .tc .vmem S15000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S15000x64 .f32) (harg6 : arg6.IsWhole)
    (x0 : Vec F S15000x64 .f32) (x1 : Vec F S15000x64 .f32) (x2 : Vec F S64x64 .f32) (x3 : Vec F S1x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out2_6 x0 x1 x2 x3 x4 x5)) -∗ K ⟨⟩))
      ⊢ wp frame (wpE (defs₀ (F := F)) Variants.none c none) E (cc2__gcn_layer_kernel i arg0 harg0 arg1 harg1 arg2 harg2 arg3 harg3 arg4 harg4 arg5 harg5 arg6 harg6) K := by
  simp only [cc2__gcn_layer_kernel_eq_skeleton]; unfold cc2__gcn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The arrays as the region finds them; after the body at point `t` each input's buffer at its block and the
    output's at `out2_6` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.KernelRegion3.lean ====
/-
  Region 3 of @main: the scoring pallas_call over eight blocks of 512 pairs. At a grid point the body reads the
  gathered user block, the gathered item block, the 64×256 projection and its bias row, and overwrites the whole
  512×1 output block with one value (the skeleton's payload).
  This module states what the body leaves in the output's staging buffer as a function of the input blocks, proves
  the body's triple by symbolic execution, and packages the pipeline's proof data and body obligation, all at a
  parameter `V`: the buffers' contents when the region is entered.
-/
import proofs.«142689_j30262339568120_1_alg».proof.Proof.Gen.Kernel.Launch
import proofs.«142689_j30262339568120_1_alg».proof.Proof.Gen.Kernel.Skeleton
import proofs.«142689_j30262339568120_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's current staging buffer holds its block at every point, whether it was fetched there or its
    index has not moved since the fetch (a window with a constant index is fetched once). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store take the whole buffer -/

abbrev r3_S512x256 : Rect S512x256 := Rect.unit (s := S512x256) ![0, 0] S512x256.size inb_S512x256_S512x256_0_0
abbrev r3_S64x256 : Rect S64x256 := Rect.unit (s := S64x256) ![0, 0] S64x256.size inb_S64x256_S64x256_0_0
abbrev r3_S1x64 : Rect S1x64 := Rect.unit (s := S1x64) ![0, 0] S1x64.size inb_S1x64_S1x64_0_0
abbrev r3_S512x1 : Rect S512x1 := Rect.unit (s := S512x1) ![0, 0] S512x1.size inb_S512x1_S512x1_0_0

/-- The output's staging buffer after the body: its one store, of the payload of the loads. -/
def out3_4 (x0 : Vec F S512x256 .f32) (x1 : Vec F S512x256 .f32) (x2 : Vec F S64x256 .f32) (x3 : Vec F S1x64 .f32) : Vec F S512x1 .f32 :=
  View.canon [⟨r3_S512x1, k3_pay1 (View.ld x0 r3_S512x256) (View.ld x1 r3_S512x256) (View.ld x2 r3_S64x256) (View.ld x3 r3_S1x64)⟩]

/-- The one store covers the buffer. -/
theorem cover3_4 (p0 : Vec F S512x1 .f32) (y : S512x1.Idx) :
    ∃ pc ∈ ([⟨r3_S512x1, p0⟩] : List (View.Piece (Elt F) S512x1 .f32)), y ∈ pc.1.set :=
  View.cover_of_tiled [⟨r3_S512x1, p0⟩] S512x1.size (by rfl) y

set_option maxHeartbeats 1000000 in
/-- The body on whole staging memrefs, the inputs' at contents `x_w` and the output's at anything, runs to the
    continuation with the inputs' as they were and the output's at `out3_4` of them. -/
theorem sound_kernel3 (c : Dev nD) (E : Set ℕ) (i : grid3.Coords) (arg0 : Memref sig .tc .vmem S512x256 .f32) (harg0 : arg0.IsWhole) (arg1 : Memref sig .tc .vmem S512x256 .f32) (harg1 : arg1.IsWhole) (arg2 : Memref sig .tc .vmem S64x256 .f32) (harg2 : arg2.IsWhole) (arg3 : Memref sig .tc .vmem S1x64 .f32) (harg3 : arg3.IsWhole) (arg4 : Memref sig .tc .vmem S512x1 .f32) (harg4 : arg4.IsWhole)
    (x0 : Vec F S512x256 .f32) (x1 : Vec F S512x256 .f32) (x2 : Vec F S64x256 .f32) (x3 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out3_4 x0 x1 x2 x3)) -∗ K ⟨⟩))
      ⊢ wp frame (wpE (defs₀ (F := F)) Variants.none c none) E (cc3__score_kernel i arg0 harg0 arg1 harg1 arg2 harg2 arg3 harg3 arg4 harg4) K := by
  simp only [cc3__score_kernel_eq_skeleton]; unfold cc3__score_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The arrays as the region finds them; after the body at point `t` each input's buffer at its block and the
    output's at `out3_4` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.KernelRun.lean ====
/-
  @main of the program as nine items in order — a stretch of host operations, a pallas_call, …, the last stretch — and
  its run. The buffers' contents at each boundary are a fold from the launch memory: a host stretch applies its
  operations; a region leaves each of its arrays at what the pipeline's write-backs leave and every other buffer as it
  found it. Each region enters the fold as a segment record over its proof data. The run theorem says: every weakly
  fair execution terminates, nothing faults, and every unscoped buffer ends at the last contents of the fold; the
  twelve argument arrays are shown to reach the end as launched (no stretch writes one; a region reads one only
  through an input window).
-/
import proofs.«142689_j30262339568120_1_alg».proof.Proof.KernelRegion0
import proofs.«142689_j30262339568120_1_alg».proof.Proof.KernelRegion1
import proofs.«142689_j30262339568120_1_alg».proof.Proof.KernelRegion2
import proofs.«142689_j30262339568120_1_alg».proof.Proof.KernelRegion3
import proofs.«142689_j30262339568120_1_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev X0 : Dev nD → Valuation τ sig (Elt F) := fun c b => m (c, b)

/-- After the host stretch `hostOps0`: what region 0 is entered from. -/
abbrev X1 : Dev nD → Valuation τ sig (Elt F) := fun c => StableHlo.after hostOps0 (X0 m c)
abbrev Y1 : (c : Dev nD) → (b : Ref sig .tc) → Buf (Elt F) ((c : Thread nD τ).loc b) := fun c b => X1 m c b
/-- At region 0's exit: its arrays at what the pipeline leaves (an input as entered, the output's blocks written
    back point by point), every other buffer as entered. -/
def X2 (c : Dev nD) : Valuation τ sig (Elt F) :=
  Pipeline.withArrays spec0 c (X1 m c) fun w => (dat0 (Y1 m) c).arrAt w cfg0.N
theorem X2_arr (c : Dev nD) (w : Fin cfg0.W) :
    X2 m c (Proc.devRef .tc (Pipeline.arrRef spec0 w)) = (dat0 (Y1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = X1 m c (Proc.devRef .tc b) := by
  unfold X2; exact Pipeline.withArrays_of_ne spec0 c _ _ b hb
abbrev Y2 : (c : Dev nD) → (b : Ref sig .tc) → Buf (Elt F) ((c : Thread nD τ).loc b) := fun c b => X2 m c b
theorem hF0 (c : Dev nD) (w : Fin cfg0.W) : (dat0 (Y1 m) c).arrAt w cfg0.N = Y2 m c (Pipeline.arrRef spec0 w) :=
  (X2_arr m c w).symm
theorem hrest0 (c : Dev nD) : ∀ b, b ∉ Finset.univ.image (Pipeline.arrRef spec0) → Y2 m c b = Y1 m c b :=
  fun b hb => X2_of_ne m c b fun w e => hb (Finset.mem_image.mpr ⟨w, Finset.mem_univ _, e⟩)

/-- After the host stretch `hostOps1`: what region 1 is entered from. -/
abbrev X3 : Dev nD → Valuation τ sig (Elt F) := fun c => StableHlo.after hostOps1 (X2 m c)
abbrev Y3 : (c : Dev nD) → (b : Ref sig .tc) → Buf (Elt F) ((c : Thread nD τ).loc b) := fun c b => X3 m c b
/-- At region 1's exit: its arrays at what the pipeline leaves (an input as entered, the output's blocks written
    back point by point), every other buffer as entered. -/
def X4 (c : Dev nD) : Valuation τ sig (Elt F) :=
  Pipeline.withArrays spec1 c (X3 m c) fun w => (dat1 (Y3 m) c).arrAt w cfg1.N
theorem X4_arr (c : Dev nD) (w : Fin cfg1.W) :
    X4 m c (Proc.devRef .tc (Pipeline.arrRef spec1 w)) = (dat1 (Y3 m) c).arrAt w cfg1.N := by
  unfold X4; exact Pipeline.withArrays_arr spec1 launch1.win.arr_inj c _ _ w
theorem X4_of_ne (c : Dev nD) (b : Ref sig .tc) (hb : ∀ w, Pipeline.arrRef spec1 w ≠ b) :
    X4 m c (Proc.devRef .tc b) = X3 m c (Proc.devRef .tc b) := by
  unfold X4; exact Pipeline.withArrays_of_ne spec1 c _ _ b hb
abbrev Y4 : (c : Dev nD) → (b : Ref sig .tc) → Buf (Elt F) ((c : Thread nD τ).loc b) := fun c b => X4 m c b
theorem hF1 (c : Dev nD) (w : Fin cfg1.W) : (dat1 (Y3 m) c).arrAt w cfg1.N = Y4 m c (Pipeline.arrRef spec1 w) :=
  (X4_arr m c w).symm
theorem hrest1 (c : Dev nD) : ∀ b, b ∉ Finset.univ.image (Pipeline.arrRef spec1) → Y4 m c b = Y3 m c b :=
  fun b hb => X4_of_ne m c b fun w e => hb (Finset.mem_image.mpr ⟨w, Finset.mem_univ _, e⟩)

/-- After the host stretch `hostOps2`: what region 2 is entered from. -/
abbrev X5 : Dev nD → Valuation τ sig (Elt F) := fun c => StableHlo.after hostOps2 (X4 m c)
abbrev Y5 : (c : Dev nD) → (b : Ref sig .tc) → Buf (Elt F) ((c : Thread nD τ).loc b) := fun c b => X5 m c b
/-- At region 2's exit: its arrays at what the pipeline leaves (an input as entered, the output's blocks written
    back point by point), every other buffer as entered. -/
def X6 (c : Dev nD) : Valuation τ sig (Elt F) :=
  Pipeline.withArrays spec2 c (X5 m c) fun w => (dat2 (Y5 m) c).arrAt w cfg2.N
theorem X6_arr (c : Dev nD) (w : Fin cfg2.W) :
    X6 m c (Proc.devRef .tc (Pipeline.arrRef spec2 w)) = (dat2 (Y5 m) c).arrAt w cfg2.N := by
  unfold X6; exact Pipeline.withArrays_arr spec2 launch2.win.arr_inj c _ _ w
theorem X6_of_ne (c : Dev nD) (b : Ref sig .tc) (hb : ∀ w, Pipeline.arrRef spec2 w ≠ b) :
    X6 m c (Proc.devRef .tc b) = X5 m c (Proc.devRef .tc b) := by
  unfold X6; exact Pipeline.withArrays_of_ne spec2 c _ _ b hb
abbrev Y6 : (c : Dev nD) → (b : Ref sig .tc) → Buf (Elt F) ((c : Thread nD τ).loc b) := fun c b => X6 m c b
theorem hF2 (c : Dev nD) (w : Fin cfg2.W) : (dat2 (Y5 m) c).arrAt w cfg2.N = Y6 m c (Pipeline.arrRef spec2 w) :=
  (X6_arr m c w).symm
theorem hrest2 (c : Dev nD) : ∀ b, b ∉ Finset.univ.image (Pipeline.arrRef spec2) → Y6 m c b = Y5 m c b :=
  fun b hb => X6_of_ne m c b fun w e => hb (Finset.mem_image.mpr ⟨w, Finset.mem_univ _, e⟩)

/-- After the host stretch `hostOps3`: what region 3 is entered from. -/
abbrev X7 : Dev nD → Valuation τ sig (Elt F) := fun c => StableHlo.after hostOps3 (X6 m c)
abbrev Y7 : (c : Dev nD) → (b : Ref sig .tc) → Buf (Elt F) ((c : Thread nD τ).loc b) := fun c b => X7 m c b
/-- At region 3's exit: its arrays at what the pipeline leaves (an input as entered, the output's blocks written
    back point by point), every other buffer as entered. -/
def X8 (c : Dev nD) : Valuation τ sig (Elt F) :=
  Pipeline.withArrays spec3 c (X7 m c) fun w => (dat3 (Y7 m) c).arrAt w cfg3.N
theorem X8_arr (c : Dev nD) (w : Fin cfg3.W) :
    X8 m c (Proc.devRef .tc (Pipeline.arrRef spec3 w)) = (dat3 (Y7 m) c).arrAt w cfg3.N := by
  unfold X8; exact Pipeline.withArrays_arr spec3 launch3.win.arr_inj c _ _ w
theorem X8_of_ne (c : Dev nD) (b : Ref sig .tc) (hb : ∀ w, Pipeline.arrRef spec3 w ≠ b) :
    X8 m c (Proc.devRef .tc b) = X7 m c (Proc.devRef .tc b) := by
  unfold X8; exact Pipeline.withArrays_of_ne spec3 c _ _ b hb
abbrev Y8 : (c : Dev nD) → (b : Ref sig .tc) → Buf (Elt F) ((c : Thread nD τ).loc b) := fun c b => X8 m c b
theorem hF3 (c : Dev nD) (w : Fin cfg3.W) : (dat3 (Y7 m) c).arrAt w cfg3.N = Y8 m c (Pipeline.arrRef spec3 w) :=
  (X8_arr m c w).symm
theorem hrest3 (c : Dev nD) : ∀ b, b ∉ Finset.univ.image (Pipeline.arrRef spec3) → Y8 m c b = Y7 m c b :=
  fun b hb => X8_of_ne m c b fun w e => hb (Finset.mem_image.mpr ⟨w, Finset.mem_univ _, e⟩)

/-- After the last host stretch. -/
abbrev X9 : Dev nD → Valuation τ sig (Elt F) := fun c => StableHlo.after hostOps4 (X8 m c)

/-! ## The arguments end as launched -/

theorem X9_main_arg0 (c : Dev nD) : X9 m c (Proc.devRef .tc main_arg0) = m ((c : Thread nD τ).loc main_arg0) :=
  calc X9 m c (Proc.devRef .tc main_arg0)
    _ = X8 m c (Proc.devRef .tc main_arg0) := StableHlo.after_of_writes_sub hostOps4 _ hostOps4_writes (by decide : main_arg0 ∉ hostOps4_W)
    _ = X7 m c (Proc.devRef .tc main_arg0) := X8_of_ne m c main_arg0 (by decide)
    _ = X6 m c (Proc.devRef .tc main_arg0) := StableHlo.after_of_writes_sub hostOps3 _ hostOps3_writes (by decide : main_arg0 ∉ hostOps3_W)
    _ = X5 m c (Proc.devRef .tc main_arg0) := X6_of_ne m c main_arg0 (by decide)
    _ = X4 m c (Proc.devRef .tc main_arg0) := StableHlo.after_of_writes_sub hostOps2 _ hostOps2_writes (by decide : main_arg0 ∉ hostOps2_W)
    _ = X3 m c (Proc.devRef .tc main_arg0) := X4_of_ne m c main_arg0 (by decide)
    _ = X2 m c (Proc.devRef .tc main_arg0) := StableHlo.after_of_writes_sub hostOps1 _ hostOps1_writes (by decide : main_arg0 ∉ hostOps1_W)
    _ = X1 m c (Proc.devRef .tc main_arg0) := (X2_arr m c 1).trans (((dat0 (Y1 m) c).arrAt_in 1 rfl _).trans (A_eq0 (Y1 m) c 1))
    _ = X0 m c (Proc.devRef .tc main_arg0) := StableHlo.after_of_writes_sub hostOps0 _ hostOps0_writes (by decide : main_arg0 ∉ hostOps0_W)
    _ = m ((c : Thread nD τ).loc main_arg0) := rfl
theorem X9_main_arg1 (c : Dev nD) : X9 m c (Proc.devRef .tc main_arg1) = m ((c : Thread nD τ).loc main_arg1) :=
  calc X9 m c (Proc.devRef .tc main_arg1)
    _ = X8 m c (Proc.devRef .tc main_arg1) := StableHlo.after_of_writes_sub hostOps4 _ hostOps4_writes (by decide : main_arg1 ∉ hostOps4_W)
    _ = X7 m c (Proc.devRef .tc main_arg1) := X8_of_ne m c main_arg1 (by decide)
    _ = X6 m c (Proc.devRef .tc main_arg1) := StableHlo.after_of_writes_sub hostOps3 _ hostOps3_writes (by decide : main_arg1 ∉ hostOps3_W)
    _ = X5 m c (Proc.devRef .tc main_arg1) := X6_of_ne m c main_arg1 (by decide)
    _ = X4 m c (Proc.devRef .tc main_arg1) := StableHlo.after_of_writes_sub hostOps2 _ hostOps2_writes (by decide : main_arg1 ∉ hostOps2_W)
    _ = X3 m c (Proc.devRef .tc main_arg1) := X4_of_ne m c main_arg1 (by decide)
    _ = X2 m c (Proc.devRef .tc main_arg1) := StableHlo.after_of_writes_sub hostOps1 _ hostOps1_writes (by decide : main_arg1 ∉ hostOps1_W)
    _ = X1 m c (Proc.devRef .tc main_arg1) := X2_of_ne m c main_arg1 (by decide)
    _ = X0 m c (Proc.devRef .tc main_arg1) := StableHlo.after_of_writes_sub hostOps0 _ hostOps0_writes (by decide : main_arg1 ∉ hostOps0_W)
    _ = m ((c : Thread nD τ).loc main_arg1) := rfl
theorem X9_main_arg2 (c : Dev nD) : X9 m c (Proc.devRef .tc main_arg2) = m ((c : Thread nD τ).loc main_arg2) :=
  calc X9 m c (Proc.devRef .tc main_arg2)
    _ = X8 m c (Proc.devRef .tc main_arg2) := StableHlo.after_of_writes_sub hostOps4 _ hostOps4_writes (by decide : main_arg2 ∉ hostOps4_W)
    _ = X7 m c (Proc.devRef .tc main_arg2) := X8_of_ne m c main_arg2 (by decide)
    _ = X6 m c (Proc.devRef .tc main_arg2) := StableHlo.after_of_writes_sub hostOps3 _ hostOps3_writes (by decide : main_arg2 ∉ hostOps3_W)
    _ = X5 m c (Proc.devRef .tc main_arg2) := X6_of_ne m c main_arg2 (by decide)
    _ = X4 m c (Proc.devRef .tc main_arg2) := StableHlo.after_of_writes_sub hostOps2 _ hostOps2_writes (by decide : main_arg2 ∉ hostOps2_W)
    _ = X3 m c (Proc.devRef .tc main_arg2) := X4_of_ne m c main_arg2 (by decide)
    _ = X2 m c (Proc.devRef .tc main_arg2) := StableHlo.after_of_writes_sub hostOps1 _ hostOps1_writes (by decide : main_arg2 ∉ hostOps1_W)
    _ = X1 m c (Proc.devRef .tc main_arg2) := X2_of_ne m c main_arg2 (by decide)
    _ = X0 m c (Proc.devRef .tc main_arg2) := StableHlo.after_of_writes_sub hostOps0 _ hostOps0_writes (by decide : main_arg2 ∉ hostOps0_W)
    _ = m ((c : Thread nD τ).loc main_arg2) := rfl
theorem X9_main_arg3 (c : Dev nD) : X9 m c (Proc.devRef .tc main_arg3) = m ((c : Thread nD τ).loc main_arg3) :=
  calc X9 m c (Proc.devRef .tc main_arg3)
    _ = X8 m c (Proc.devRef .tc main_arg3) := StableHlo.after_of_writes_sub hostOps4 _ hostOps4_writes (by decide : main_arg3 ∉ hostOps4_W)
    _ = X7 m c (Proc.devRef .tc main_arg3) := X8_of_ne m c main_arg3 (by decide)
    _ = X6 m c (Proc.devRef .tc main_arg3) := StableHlo.after_of_writes_sub hostOps3 _ hostOps3_writes (by decide : main_arg3 ∉ hostOps3_W)
    _ = X5 m c (Proc.devRef .tc main_arg3) := X6_of_ne m c main_arg3 (by decide)
    _ = X4 m c (Proc.devRef .tc main_arg3) := StableHlo.after_of_writes_sub hostOps2 _ hostOps2_writes (by decide : main_arg3 ∉ hostOps2_W)
    _ = X3 m c (Proc.devRef .tc main_arg3) := X4_of_ne m c main_arg3 (by decide)
    _ = X2 m c (Proc.devRef .tc main_arg3) := StableHlo.after_of_writes_sub hostOps1 _ hostOps1_writes (by decide : main_arg3 ∉ hostOps1_W)
    _ = X1 m c (Proc.devRef .tc main_arg3) := X2_of_ne m c main_arg3 (by decide)
    _ = X0 m c (Proc.devRef .tc main_arg3) := StableHlo.after_of_writes_sub hostOps0 _ hostOps0_writes (by decide : main_arg3 ∉ hostOps0_W)
    _ = m ((c : Thread nD τ).loc main_arg3) := rfl
theorem X9_main_arg4 (c : Dev nD) : X9 m c (Proc.devRef .tc main_arg4) = m ((c : Thread nD τ).loc main_arg4) :=
  calc X9 m c (Proc.devRef .tc main_arg4)
    _ = X8 m c (Proc.devRef .tc main_arg4) := StableHlo.after_of_writes_sub hostOps4 _ hostOps4_writes (by decide : main_arg4 ∉ hostOps4_W)
    _ = X7 m c (Proc.devRef .tc main_arg4) := X8_of_ne m c main_arg4 (by decide)
    _ = X6 m c (Proc.devRef .tc main_arg4) := StableHlo.after_of_writes_sub hostOps3 _ hostOps3_writes (by decide : main_arg4 ∉ hostOps3_W)
    _ = X5 m c (Proc.devRef .tc main_arg4) := X6_of_ne m c main_arg4 (by decide)
    _ = X4 m c (Proc.devRef .tc main_arg4) := StableHlo.after_of_writes_sub hostOps2 _ hostOps2_writes (by decide : main_arg4 ∉ hostOps2_W)
    _ = X3 m c (Proc.devRef .tc main_arg4) := X4_of_ne m c main_arg4 (by decide)
    _ = X2 m c (Proc.devRef .tc main_arg4) := StableHlo.after_of_writes_sub hostOps1 _ hostOps1_writes (by decide : main_arg4 ∉ hostOps1_W)
    _ = X1 m c (Proc.devRef .tc main_arg4) := X2_of_ne m c main_arg4 (by decide)
    _ = X0 m c (Proc.devRef .tc main_arg4) := StableHlo.after_of_writes_sub hostOps0 _ hostOps0_writes (by decide : main_arg4 ∉ hostOps0_W)
    _ = m ((c : Thread nD τ).loc main_arg4) := rfl
theorem X9_main_arg5 (c : Dev nD) : X9 m c (Proc.devRef .tc main_arg5) = m ((c : Thread nD τ).loc main_arg5) :=
  calc X9 m c (Proc.devRef .tc main_arg5)
    _ = X8 m c (Proc.devRef .tc main_arg5) := StableHlo.after_of_writes_sub hostOps4 _ hostOps4_writes (by decide : main_arg5 ∉ hostOps4_W)
    _ = X7 m c (Proc.devRef .tc main_arg5) := X8_of_ne m c main_arg5 (by decide)
    _ = X6 m c (Proc.devRef .tc main_arg5) := StableHlo.after_of_writes_sub hostOps3 _ hostOps3_writes (by decide : main_arg5 ∉ hostOps3_W)
    _ = X5 m c (Proc.devRef .tc main_arg5) := X6_of_ne m c main_arg5 (by decide)
    _ = X4 m c (Proc.devRef .tc main_arg5) := StableHlo.after_of_writes_sub hostOps2 _ hostOps2_writes (by decide : main_arg5 ∉ hostOps2_W)
    _ = X3 m c (Proc.devRef .tc main_arg5) := X4_of_ne m c main_arg5 (by decide)
    _ = X2 m c (Proc.devRef .tc main_arg5) := StableHlo.after_of_writes_sub hostOps1 _ hostOps1_writes (by decide : main_arg5 ∉ hostOps1_W)
    _ = X1 m c (Proc.devRef .tc main_arg5) := X2_of_ne m c main_arg5 (by decide)
    _ = X0 m c (Proc.devRef .tc main_arg5) := StableHlo.after_of_writes_sub hostOps0 _ hostOps0_writes (by decide : main_arg5 ∉ hostOps0_W)
    _ = m ((c : Thread nD τ).loc main_arg5) := rfl
theorem X9_main_arg6 (c : Dev nD) : X9 m c (Proc.devRef .tc main_arg6) = m ((c : Thread nD τ).loc main_arg6) :=
  calc X9 m c (Proc.devRef .tc main_arg6)
    _ = X8 m c (Proc.devRef .tc main_arg6) := StableHlo.after_of_writes_sub hostOps4 _ hostOps4_writes (by decide : main_arg6 ∉ hostOps4_W)
    _ = X7 m c (Proc.devRef .tc main_arg6) := X8_of_ne m c main_arg6 (by decide)
    _ = X6 m c (Proc.devRef .tc main_arg6) := StableHlo.after_of_writes_sub hostOps3 _ hostOps3_writes (by decide : main_arg6 ∉ hostOps3_W)
    _ = X5 m c (Proc.devRef .tc main_arg6) := X6_of_ne m c main_arg6 (by decide)
    _ = X4 m c (Proc.devRef .tc main_arg6) := StableHlo.after_of_writes_sub hostOps2 _ hostOps2_writes (by decide : main_arg6 ∉ hostOps2_W)
    _ = X3 m c (Proc.devRef .tc main_arg6) := X4_of_ne m c main_arg6 (by decide)
    _ = X2 m c (Proc.devRef .tc main_arg6) := StableHlo.after_of_writes_sub hostOps1 _ hostOps1_writes (by decide : main_arg6 ∉ hostOps1_W)
    _ = X1 m c (Proc.devRef .tc main_arg6) := X2_of_ne m c main_arg6 (by decide)
    _ = X0 m c (Proc.devRef .tc main_arg6) := StableHlo.after_of_writes_sub hostOps0 _ hostOps0_writes (by decide : main_arg6 ∉ hostOps0_W)
    _ = m ((c : Thread nD τ).loc main_arg6) := rfl
theorem X9_main_arg7 (c : Dev nD) : X9 m c (Proc.devRef .tc main_arg7) = m ((c : Thread nD τ).loc main_arg7) :=
  calc X9 m c (Proc.devRef .tc main_arg7)
    _ = X8 m c (Proc.devRef .tc main_arg7) := StableHlo.after_of_writes_sub hostOps4 _ hostOps4_writes (by decide : main_arg7 ∉ hostOps4_W)
    _ = X7 m c (Proc.devRef .tc main_arg7) := X8_of_ne m c main_arg7 (by decide)
    _ = X6 m c (Proc.devRef .tc main_arg7) := StableHlo.after_of_writes_sub hostOps3 _ hostOps3_writes (by decide : main_arg7 ∉ hostOps3_W)
    _ = X5 m c (Proc.devRef .tc main_arg7) := X6_of_ne m c main_arg7 (by decide)
    _ = X4 m c (Proc.devRef .tc main_arg7) := StableHlo.after_of_writes_sub hostOps2 _ hostOps2_writes (by decide : main_arg7 ∉ hostOps2_W)
    _ = X3 m c (Proc.devRef .tc main_arg7) := X4_of_ne m c main_arg7 (by decide)
    _ = X2 m c (Proc.devRef .tc main_arg7) := StableHlo.after_of_writes_sub hostOps1 _ hostOps1_writes (by decide : main_arg7 ∉ hostOps1_W)
    _ = X1 m c (Proc.devRef .tc main_arg7) := X2_of_ne m c main_arg7 (by decide)
    _ = X0 m c (Proc.devRef .tc main_arg7) := StableHlo.after_of_writes_sub hostOps0 _ hostOps0_writes (by decide : main_arg7 ∉ hostOps0_W)
    _ = m ((c : Thread nD τ).loc main_arg7) := rfl
theorem X9_main_arg8 (c : Dev nD) : X9 m c (Proc.devRef .tc main_arg8) = m ((c : Thread nD τ).loc main_arg8) :=
  calc X9 m c (Proc.devRef .tc main_arg8)
    _ = X8 m c (Proc.devRef .tc main_arg8) := StableHlo.after_of_writes_sub hostOps4 _ hostOps4_writes (by decide : main_arg8 ∉ hostOps4_W)
    _ = X7 m c (Proc.devRef .tc main_arg8) := X8_of_ne m c main_arg8 (by decide)
    _ = X6 m c (Proc.devRef .tc main_arg8) := StableHlo.after_of_writes_sub hostOps3 _ hostOps3_writes (by decide : main_arg8 ∉ hostOps3_W)
    _ = X5 m c (Proc.devRef .tc main_arg8) := X6_of_ne m c main_arg8 (by decide)
    _ = X4 m c (Proc.devRef .tc main_arg8) := StableHlo.after_of_writes_sub hostOps2 _ hostOps2_writes (by decide : main_arg8 ∉ hostOps2_W)
    _ = X3 m c (Proc.devRef .tc main_arg8) := X4_of_ne m c main_arg8 (by decide)
    _ = X2 m c (Proc.devRef .tc main_arg8) := StableHlo.after_of_writes_sub hostOps1 _ hostOps1_writes (by decide : main_arg8 ∉ hostOps1_W)
    _ = X1 m c (Proc.devRef .tc main_arg8) := X2_of_ne m c main_arg8 (by decide)
    _ = X0 m c (Proc.devRef .tc main_arg8) := StableHlo.after_of_writes_sub hostOps0 _ hostOps0_writes (by decide : main_arg8 ∉ hostOps0_W)
    _ = m ((c : Thread nD τ).loc main_arg8) := rfl
theorem X9_main_arg9 (c : Dev nD) : X9 m c (Proc.devRef .tc main_arg9) = m ((c : Thread nD τ).loc main_arg9) :=
  calc X9 m c (Proc.devRef .tc main_arg9)
    _ = X8 m c (Proc.devRef .tc main_arg9) := StableHlo.after_of_writes_sub hostOps4 _ hostOps4_writes (by decide : main_arg9 ∉ hostOps4_W)
    _ = X7 m c (Proc.devRef .tc main_arg9) := X8_of_ne m c main_arg9 (by decide)
    _ = X6 m c (Proc.devRef .tc main_arg9) := StableHlo.after_of_writes_sub hostOps3 _ hostOps3_writes (by decide : main_arg9 ∉ hostOps3_W)
    _ = X5 m c (Proc.devRef .tc main_arg9) := X6_of_ne m c main_arg9 (by decide)
    _ = X4 m c (Proc.devRef .tc main_arg9) := StableHlo.after_of_writes_sub hostOps2 _ hostOps2_writes (by decide : main_arg9 ∉ hostOps2_W)
    _ = X3 m c (Proc.devRef .tc main_arg9) := X4_of_ne m c main_arg9 (by decide)
    _ = X2 m c (Proc.devRef .tc main_arg9) := StableHlo.after_of_writes_sub hostOps1 _ hostOps1_writes (by decide : main_arg9 ∉ hostOps1_W)
    _ = X1 m c (Proc.devRef .tc main_arg9) := X2_of_ne m c main_arg9 (by decide)
    _ = X0 m c (Proc.devRef .tc main_arg9) := StableHlo.after_of_writes_sub hostOps0 _ hostOps0_writes (by decide : main_arg9 ∉ hostOps0_W)
    _ = m ((c : Thread nD τ).loc main_arg9) := rfl
theorem X9_main_arg10 (c : Dev nD) : X9 m c (Proc.devRef .tc main_arg10) = m ((c : Thread nD τ).loc main_arg10) :=
  calc X9 m c (Proc.devRef .tc main_arg10)
    _ = X8 m c (Proc.devRef .tc main_arg10) := StableHlo.after_of_writes_sub hostOps4 _ hostOps4_writes (by decide : main_arg10 ∉ hostOps4_W)
    _ = X7 m c (Proc.devRef .tc main_arg10) := (X8_arr m c 2).trans (((dat3 (Y7 m) c).arrAt_in 2 rfl _).trans (A_eq3 (Y7 m) c 2))
    _ = X6 m c (Proc.devRef .tc main_arg10) := StableHlo.after_of_writes_sub hostOps3 _ hostOps3_writes (by decide : main_arg10 ∉ hostOps3_W)
    _ = X5 m c (Proc.devRef .tc main_arg10) := X6_of_ne m c main_arg10 (by decide)
    _ = X4 m c (Proc.devRef .tc main_arg10) := StableHlo.after_of_writes_sub hostOps2 _ hostOps2_writes (by decide : main_arg10 ∉ hostOps2_W)
    _ = X3 m c (Proc.devRef .tc main_arg10) := X4_of_ne m c main_arg10 (by decide)
    _ = X2 m c (Proc.devRef .tc main_arg10) := StableHlo.after_of_writes_sub hostOps1 _ hostOps1_writes (by decide : main_arg10 ∉ hostOps1_W)
    _ = X1 m c (Proc.devRef .tc main_arg10) := X2_of_ne m c main_arg10 (by decide)
    _ = X0 m c (Proc.devRef .tc main_arg10) := StableHlo.after_of_writes_sub hostOps0 _ hostOps0_writes (by decide : main_arg10 ∉ hostOps0_W)
    _ = m ((c : Thread nD τ).loc main_arg10) := rfl
theorem X9_main_arg11 (c : Dev nD) : X9 m c (Proc.devRef .tc main_arg11) = m ((c : Thread nD τ).loc main_arg11) :=
  calc X9 m c (Proc.devRef .tc main_arg11)
    _ = X8 m c (Proc.devRef .tc main_arg11) := StableHlo.after_of_writes_sub hostOps4 _ hostOps4_writes (by decide : main_arg11 ∉ hostOps4_W)
    _ = X7 m c (Proc.devRef .tc main_arg11) := X8_of_ne m c main_arg11 (by decide)
    _ = X6 m c (Proc.devRef .tc main_arg11) := StableHlo.after_of_writes_sub hostOps3 _ hostOps3_writes (by decide : main_arg11 ∉ hostOps3_W)
    _ = X5 m c (Proc.devRef .tc main_arg11) := X6_of_ne m c main_arg11 (by decide)
    _ = X4 m c (Proc.devRef .tc main_arg11) := StableHlo.after_of_writes_sub hostOps2 _ hostOps2_writes (by decide : main_arg11 ∉ hostOps2_W)
    _ = X3 m c (Proc.devRef .tc main_arg11) := X4_of_ne m c main_arg11 (by decide)
    _ = X2 m c (Proc.devRef .tc main_arg11) := StableHlo.after_of_writes_sub hostOps1 _ hostOps1_writes (by decide : main_arg11 ∉ hostOps1_W)
    _ = X1 m c (Proc.devRef .tc main_arg11) := X2_of_ne m c main_arg11 (by decide)
    _ = X0 m c (Proc.devRef .tc main_arg11) := StableHlo.after_of_writes_sub hostOps0 _ hostOps0_writes (by decide : main_arg11 ∉ hostOps0_W)
    _ = m ((c : Thread nD τ).loc main_arg11) := rfl

/-! ## The proof data family and the thread state -/

/-- Every pipeline's proof data at its region's entry contents, as a literal match on the pipeline. -/
def pdats : (p : Fin 4) → (c : Dev nD) → Dat τ (Elt F) Unit ℕ (UR sig nD τ) ℕ (Pipeline.pin (pcfgs (F := F)) adm p) c
  | ⟨0, _⟩ => fun c => dat0 (Y1 m) c
  | ⟨1, _⟩ => fun c => dat1 (Y3 m) c
  | ⟨2, _⟩ => fun c => dat2 (Y5 m) c
  | ⟨3, _⟩ => fun c => dat3 (Y7 m) c
abbrev vars0 : Variants := Variants.none
/-- No core owes another anything: no level is assigned. -/
abbrev lvls : GSem nD τ sig → Finset Unit := fun _ => ∅
abbrev lvOf : GSem nD τ sig → Unit → ℕ := fun _ _ => 0
/-- What rides beside the buffers through every item: the core's generator register at some state, and nothing owed. -/
abbrev rest (c : Dev nD) : sProp 𝕄 := iprop((∃ r, prngReg c r) ∗ ∃ W, owes (c : Thread nD τ) (0 : CellTallies nD τ sig Unit) W)
/-- A host stretch as a segment from the contents `X`. -/
abbrev hostSeg (ops : List (HloOp τ sig (Elt F))) (hsub : ops.Forall fun op => op.bufs ⊆ StableHlo.tcRefs τ sig)
    (hfresh : ops.Forall fun op => op.fresh = ∅) (X : Dev nD → Valuation τ sig (Elt F)) :
    Pipeline.HostSeg (Name := ℕ) (U := UR sig nD τ) (pcfgs (F := F)) defs₀ vars0 lvls lvOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) X rest

/-- An unscoped TensorCore reference is among those the thread state holds. -/
theorem memUc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev lastT (c : Dev nD) : sProp 𝕄 := iprop(StableHlo.held (c : Thread nD τ) (Pipeline.ucRefs τ sig) (X9 m c) ∗ ∃ r, prngReg c r)

/-! ## The regions as segments -/

set_option backward.isDefEq.respectTransparency.types false in
/-- Region 0 over the thread state: entered from every unscoped buffer at `X1`, left at `X2`. Its arrays are split
    out of the unscoped buffers at entry and put back, at what the pipeline leaves, at exit; the generator register
    passes through the class invariant; nothing is owed and the kernel has no semaphore of its own. -/
def reg0 : Pipeline.RegionSeg (pcfgs (F := F)) adm (pdats m) () defs₀ vars0 lvls lvOf 0 where
  win := launch0.win.to₀
  block_pos := launch0.block_pos
  stage_whole := launch0.stage_whole
  K := PEmpty
  osem k := k.elim
  ho := Pipeline.OwnSemFacts.none _
  hbody c := (body_obligation0 (Y1 m) c).loose
  hwaits := Pipeline.hwaits_of_owed_zero _ _ _ _ lvls lvOf 0 fun _ _ => rfl
  pre c := iprop(StableHlo.held (c : Thread nD τ) (Pipeline.ucRefs τ sig) (X1 m c) ∗ rest c)
  post c := iprop(StableHlo.held (c : Thread nD τ) (Pipeline.ucRefs τ sig) (X2 m c) ∗ rest c)
  X c := iprop(∃ r, prngReg c r)
  Y c := iprop(∃ r, prngReg c r)
  Z c := Pipeline.unscopedRest (Ix := Unit) (Name := ℕ) (U := UR sig nD τ) (Lvl := ℕ) spec0 c (Y1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Y1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Y1 m c) (Y2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `X3`, left at `X4`. Its arrays are split
    out of the unscoped buffers at entry and put back, at what the pipeline leaves, at exit; the generator register
    passes through the class invariant; nothing is owed and the kernel has no semaphore of its own. -/
def reg1 : Pipeline.RegionSeg (pcfgs (F := F)) adm (pdats m) () defs₀ vars0 lvls lvOf 1 where
  win := launch1.win.to₀
  block_pos := launch1.block_pos
  stage_whole := launch1.stage_whole
  K := PEmpty
  osem k := k.elim
  ho := Pipeline.OwnSemFacts.none _
  hbody c := (body_obligation1 (Y3 m) c).loose
  hwaits := Pipeline.hwaits_of_owed_zero _ _ _ _ lvls lvOf 1 fun _ _ => rfl
  pre c := iprop(StableHlo.held (c : Thread nD τ) (Pipeline.ucRefs τ sig) (X3 m c) ∗ rest c)
  post c := iprop(StableHlo.held (c : Thread nD τ) (Pipeline.ucRefs τ sig) (X4 m c) ∗ rest c)
  X c := iprop(∃ r, prngReg c r)
  Y c := iprop(∃ r, prngReg c r)
  Z c := Pipeline.unscopedRest (Ix := Unit) (Name := ℕ) (U := UR sig nD τ) (Lvl := ℕ) spec1 c (Y3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Y3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Y3 m c) (Y4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `X5`, left at `X6`. Its arrays are split
    out of the unscoped buffers at entry and put back, at what the pipeline leaves, at exit; the generator register
    passes through the class invariant; nothing is owed and the kernel has no semaphore of its own. -/
def reg2 : Pipeline.RegionSeg (pcfgs (F := F)) adm (pdats m) () defs₀ vars0 lvls lvOf 2 where
  win := launch2.win.to₀
  block_pos := launch2.block_pos
  stage_whole := launch2.stage_whole
  K := PEmpty
  osem k := k.elim
  ho := Pipeline.OwnSemFacts.none _
  hbody c := (body_obligation2 (Y5 m) c).loose
  hwaits := Pipeline.hwaits_of_owed_zero _ _ _ _ lvls lvOf 2 fun _ _ => rfl
  pre c := iprop(StableHlo.held (c : Thread nD τ) (Pipeline.ucRefs τ sig) (X5 m c) ∗ rest c)
  post c := iprop(StableHlo.held (c : Thread nD τ) (Pipeline.ucRefs τ sig) (X6 m c) ∗ rest c)
  X c := iprop(∃ r, prngReg c r)
  Y c := iprop(∃ r, prngReg c r)
  Z c := Pipeline.unscopedRest (Ix := Unit) (Name := ℕ) (U := UR sig nD τ) (Lvl := ℕ) spec2 c (Y5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Y5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Y5 m c) (Y6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `X7`, left at `X8`. Its arrays are split
    out of the unscoped buffers at entry and put back, at what the pipeline leaves, at exit; the generator register
    passes through the class invariant; nothing is owed and the kernel has no semaphore of its own. -/
def reg3 : Pipeline.RegionSeg (pcfgs (F := F)) adm (pdats m) () defs₀ vars0 lvls lvOf 3 where
  win := launch3.win.to₀
  block_pos := launch3.block_pos
  stage_whole := launch3.stage_whole
  K := PEmpty
  osem k := k.elim
  ho := Pipeline.OwnSemFacts.none _
  hbody c := (body_obligation3 (Y7 m) c).loose
  hwaits := Pipeline.hwaits_of_owed_zero _ _ _ _ lvls lvOf 3 fun _ _ => rfl
  pre c := iprop(StableHlo.held (c : Thread nD τ) (Pipeline.ucRefs τ sig) (X7 m c) ∗ rest c)
  post c := iprop(StableHlo.held (c : Thread nD τ) (Pipeline.ucRefs τ sig) (X8 m c) ∗ rest c)
  X c := iprop(∃ r, prngReg c r)
  Y c := iprop(∃ r, prngReg c r)
  Z c := Pipeline.unscopedRest (Ix := Unit) (Name := ℕ) (U := UR sig nD τ) (Lvl := ℕ) spec3 c (Y7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Y7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Y7 m c) (Y8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev items : List (Pipeline.Seg (pcfgs (F := F)) adm (pdats m) () defs₀ vars0 lvls lvOf) :=
  [ .host (hostSeg hostOps0 hostOps0_sub hostOps0_fresh (X0 m)),
    .region (reg0 m),
    .host (hostSeg hostOps1 hostOps1_sub hostOps1_fresh (X2 m)),
    .region (reg1 m),
    .host (hostSeg hostOps2 hostOps2_sub hostOps2_fresh (X4 m)),
    .region (reg2 m),
    .host (hostSeg hostOps3 hostOps3_sub hostOps3_fresh (X6 m)),
    .region (reg3 m),
    .host (hostSeg hostOps4 hostOps4_sub hostOps4_fresh (X8 m)) ]

theorem main_run (c : Dev nD) : main (F := F) c = Pipeline.Seg.run (items m) := (main_chain c).trans (by chain_rfl)

set_option backward.isDefEq.respectTransparency.types false in
/-- THE RUN: from any memory with zero counters every weakly fair execution of @main terminates, nothing faulting, and
    every unscoped buffer of every core ends at the last contents of the fold. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = X9 m c b) :=
  Pipeline.θ_run_regions_kit (pcfgs (F := F)) adm (pdats m) () cellOf_inj emb₁ defs₀ vars0 lvls lvOf m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ rest c)) (Tₙ := lastT m)
    (hch := ⟨fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (X9 m c) ∗ rest c)
        ⊢ iprop(lastT m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach lvls lvOf fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X9 m c b)
    (hfin := fun c s' => by
      iintro ⟨⟨Hh, -⟩, HSI⟩
      unfold StableHlo.held
      imodintro
      iapply (pointsTo_read_all (Pipeline.ucRefs τ sig) (fun b => (((c : Thread nD τ)).1, b)) (X9 m c) s')
      isplitl [Hh] <;> iassumption)
    (hQ := fun s h c => h c)

/-- THE FRAME: the twelve argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (memUc main_arg0 (by decide))).trans (X9_main_arg0 m c),
     (h c _ (memUc main_arg1 (by decide))).trans (X9_main_arg1 m c),
     (h c _ (memUc main_arg2 (by decide))).trans (X9_main_arg2 m c),
     (h c _ (memUc main_arg3 (by decide))).trans (X9_main_arg3 m c),
     (h c _ (memUc main_arg4 (by decide))).trans (X9_main_arg4 m c),
     (h c _ (memUc main_arg5 (by decide))).trans (X9_main_arg5 m c),
     (h c _ (memUc main_arg6 (by decide))).trans (X9_main_arg6 m c),
     (h c _ (memUc main_arg7 (by decide))).trans (X9_main_arg7 m c),
     (h c _ (memUc main_arg8 (by decide))).trans (X9_main_arg8 m c),
     (h c _ (memUc main_arg9 (by decide))).trans (X9_main_arg9 m c),
     (h c _ (memUc main_arg10 (by decide))).trans (X9_main_arg10 m c),
     (h c _ (memUc main_arg11 (by decide))).trans (X9_main_arg11 m c)⟩)
    (run_all m ρ)

end Cert.Kernel.Frame

end
-- ==== Proof.KernelIdealRegion0.lean ====
/-
  Region 0 of @main: graph-convolution layer 1 as a pallas_call over ten row blocks of 15000 rows. At a grid point
  the body reads the aggregated block, the features block, the two 64×64 weights and the two bias rows, and
  overwrites the whole output block with one value (the skeleton's payload).
  This module states what the body leaves in the output's staging buffer as a function of the input blocks, proves
  the body's triple by symbolic execution, and packages the pipeline's proof data and body obligation, all at a
  parameter `V`: the buffers' contents when the region is entered.
-/
import proofs.«142689_j30262339568120_1_alg».proof.Proof.Gen.KernelIdeal.Launch
import proofs.«142689_j30262339568120_1_alg».proof.Proof.Gen.KernelIdeal.Skeleton
import proofs.«142689_j30262339568120_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether it was fetched there or its
    index has not moved since the fetch (a window with a constant index is fetched once). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole buffer -/

abbrev r0_S15000x64 : Rect S15000x64 := Rect.unit (s := S15000x64) ![0, 0] S15000x64.size inb_S15000x64_S15000x64_0_0
abbrev r0_S64x64 : Rect S64x64 := Rect.unit (s := S64x64) ![0, 0] S64x64.size inb_S64x64_S64x64_0_0
abbrev r0_S1x64 : Rect S1x64 := Rect.unit (s := S1x64) ![0, 0] S1x64.size inb_S1x64_S1x64_0_0

/-- The output's staging buffer after the body: its one store, of the payload of the loads. -/
def out0_6 (x0 : Vec F S15000x64 .f32) (x1 : Vec F S15000x64 .f32) (x2 : Vec F S64x64 .f32) (x3 : Vec F S1x64 .f32) (x4 : Vec F S64x64 .f32) (x5 : Vec F S1x64 .f32) : Vec F S15000x64 .f32 :=
  View.canon [⟨r0_S15000x64, k0_pay1 (View.ld x0 r0_S15000x64) (View.ld x1 r0_S15000x64) (View.ld x2 r0_S64x64) (View.ld x4 r0_S64x64) (View.ld x3 r0_S1x64) (View.ld x5 r0_S1x64)⟩]

/-- The one store covers the buffer. -/
theorem cover0_6 (p0 : Vec F S15000x64 .f32) (y : S15000x64.Idx) :
    ∃ pc ∈ ([⟨r0_S15000x64, p0⟩] : List (View.Piece (Elt F) S15000x64 .f32)), y ∈ pc.1.set :=
  View.cover_of_tiled [⟨r0_S15000x64, p0⟩] S15000x64.size (by rfl) y

set_option maxHeartbeats 1000000 in
/-- The body on whole staging memrefs, the inputs' at contents `x_w` and the output's at anything, runs to the
    continuation with the inputs' as they were and the output's at `out0_6` of them. -/
theorem sound_kernel0 (c : Dev nD) (E : Set ℕ) (i : grid0.Coords) (arg0 : Memref sig .tc .vmem S15000x64 .f32) (harg0 : arg0.IsWhole) (arg1 : Memref sig .tc .vmem S15000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S15000x64 .f32) (harg6 : arg6.IsWhole)
    (x0 : Vec F S15000x64 .f32) (x1 : Vec F S15000x64 .f32) (x2 : Vec F S64x64 .f32) (x3 : Vec F S1x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out0_6 x0 x1 x2 x3 x4 x5)) -∗ K ⟨⟩))
      ⊢ wp frame (wpE (defs₀ (F := F)) Variants.none c none) E (cc0__gcn_layer_kernel i arg0 harg0 arg1 harg1 arg2 harg2 arg3 harg3 arg4 harg4 arg5 harg5 arg6 harg6) K := by
  simp only [cc0__gcn_layer_kernel_eq_skeleton]; unfold cc0__gcn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The arrays as the region finds them; after the body at point `t` each input's buffer at its block and the
    output's at `out0_6` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KernelIdealRegion1.lean ====
/-
  Region 1 of @main: graph-convolution layer 2 as a pallas_call over ten row blocks of 15000 rows. At a grid point
  the body reads the aggregated block, the features block, the two 64×64 weights and the two bias rows, and
  overwrites the whole output block with one value (the skeleton's payload).
  This module states what the body leaves in the output's staging buffer as a function of the input blocks, proves
  the body's triple by symbolic execution, and packages the pipeline's proof data and body obligation, all at a
  parameter `V`: the buffers' contents when the region is entered.
-/
import proofs.«142689_j30262339568120_1_alg».proof.Proof.Gen.KernelIdeal.Launch
import proofs.«142689_j30262339568120_1_alg».proof.Proof.Gen.KernelIdeal.Skeleton
import proofs.«142689_j30262339568120_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether it was fetched there or its
    index has not moved since the fetch (a window with a constant index is fetched once). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole buffer -/

abbrev r1_S15000x64 : Rect S15000x64 := Rect.unit (s := S15000x64) ![0, 0] S15000x64.size inb_S15000x64_S15000x64_0_0
abbrev r1_S64x64 : Rect S64x64 := Rect.unit (s := S64x64) ![0, 0] S64x64.size inb_S64x64_S64x64_0_0
abbrev r1_S1x64 : Rect S1x64 := Rect.unit (s := S1x64) ![0, 0] S1x64.size inb_S1x64_S1x64_0_0

/-- The output's staging buffer after the body: its one store, of the payload of the loads. -/
def out1_6 (x0 : Vec F S15000x64 .f32) (x1 : Vec F S15000x64 .f32) (x2 : Vec F S64x64 .f32) (x3 : Vec F S1x64 .f32) (x4 : Vec F S64x64 .f32) (x5 : Vec F S1x64 .f32) : Vec F S15000x64 .f32 :=
  View.canon [⟨r1_S15000x64, k1_pay1 (View.ld x0 r1_S15000x64) (View.ld x1 r1_S15000x64) (View.ld x2 r1_S64x64) (View.ld x4 r1_S64x64) (View.ld x3 r1_S1x64) (View.ld x5 r1_S1x64)⟩]

/-- The one store covers the buffer. -/
theorem cover1_6 (p0 : Vec F S15000x64 .f32) (y : S15000x64.Idx) :
    ∃ pc ∈ ([⟨r1_S15000x64, p0⟩] : List (View.Piece (Elt F) S15000x64 .f32)), y ∈ pc.1.set :=
  View.cover_of_tiled [⟨r1_S15000x64, p0⟩] S15000x64.size (by rfl) y

set_option maxHeartbeats 1000000 in
/-- The body on whole staging memrefs, the inputs' at contents `x_w` and the output's at anything, runs to the
    continuation with the inputs' as they were and the output's at `out1_6` of them. -/
theorem sound_kernel1 (c : Dev nD) (E : Set ℕ) (i : grid1.Coords) (arg0 : Memref sig .tc .vmem S15000x64 .f32) (harg0 : arg0.IsWhole) (arg1 : Memref sig .tc .vmem S15000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S15000x64 .f32) (harg6 : arg6.IsWhole)
    (x0 : Vec F S15000x64 .f32) (x1 : Vec F S15000x64 .f32) (x2 : Vec F S64x64 .f32) (x3 : Vec F S1x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out1_6 x0 x1 x2 x3 x4 x5)) -∗ K ⟨⟩))
      ⊢ wp frame (wpE (defs₀ (F := F)) Variants.none c none) E (cc1__gcn_layer_kernel i arg0 harg0 arg1 harg1 arg2 harg2 arg3 harg3 arg4 harg4 arg5 harg5 arg6 harg6) K := by
  simp only [cc1__gcn_layer_kernel_eq_skeleton]; unfold cc1__gcn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The arrays as the region finds them; after the body at point `t` each input's buffer at its block and the
    output's at `out1_6` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KernelIdealRegion2.lean ====
/-
  Region 2 of @main: graph-convolution layer 3 as a pallas_call over ten row blocks of 15000 rows. At a grid point
  the body reads the aggregated block, the features block, the two 64×64 weights and the two bias rows, and
  overwrites the whole output block with one value (the skeleton's payload).
  This module states what the body leaves in the output's staging buffer as a function of the input blocks, proves
  the body's triple by symbolic execution, and packages the pipeline's proof data and body obligation, all at a
  parameter `V`: the buffers' contents when the region is entered.
-/
import proofs.«142689_j30262339568120_1_alg».proof.Proof.Gen.KernelIdeal.Launch
import proofs.«142689_j30262339568120_1_alg».proof.Proof.Gen.KernelIdeal.Skeleton
import proofs.«142689_j30262339568120_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, whether it was fetched there or its
    index has not moved since the fetch (a window with a constant index is fetched once). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take the whole buffer -/

abbrev r2_S15000x64 : Rect S15000x64 := Rect.unit (s := S15000x64) ![0, 0] S15000x64.size inb_S15000x64_S15000x64_0_0
abbrev r2_S64x64 : Rect S64x64 := Rect.unit (s := S64x64) ![0, 0] S64x64.size inb_S64x64_S64x64_0_0
abbrev r2_S1x64 : Rect S1x64 := Rect.unit (s := S1x64) ![0, 0] S1x64.size inb_S1x64_S1x64_0_0

/-- The output's staging buffer after the body: its one store, of the payload of the loads. -/
def out2_6 (x0 : Vec F S15000x64 .f32) (x1 : Vec F S15000x64 .f32) (x2 : Vec F S64x64 .f32) (x3 : Vec F S1x64 .f32) (x4 : Vec F S64x64 .f32) (x5 : Vec F S1x64 .f32) : Vec F S15000x64 .f32 :=
  View.canon [⟨r2_S15000x64, k2_pay1 (View.ld x0 r2_S15000x64) (View.ld x1 r2_S15000x64) (View.ld x2 r2_S64x64) (View.ld x4 r2_S64x64) (View.ld x3 r2_S1x64) (View.ld x5 r2_S1x64)⟩]

/-- The one store covers the buffer. -/
theorem cover2_6 (p0 : Vec F S15000x64 .f32) (y : S15000x64.Idx) :
    ∃ pc ∈ ([⟨r2_S15000x64, p0⟩] : List (View.Piece (Elt F) S15000x64 .f32)), y ∈ pc.1.set :=
  View.cover_of_tiled [⟨r2_S15000x64, p0⟩] S15000x64.size (by rfl) y

set_option maxHeartbeats 1000000 in
/-- The body on whole staging memrefs, the inputs' at contents `x_w` and the output's at anything, runs to the
    continuation with the inputs' as they were and the output's at `out2_6` of them. -/
theorem sound_kernel2 (c : Dev nD) (E : Set ℕ) (i : grid2.Coords) (arg0 : Memref sig .tc .vmem S15000x64 .f32) (harg0 : arg0.IsWhole) (arg1 : Memref sig .tc .vmem S15000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S15000x64 .f32) (harg6 : arg6.IsWhole)
    (x0 : Vec F S15000x64 .f32) (x1 : Vec F S15000x64 .f32) (x2 : Vec F S64x64 .f32) (x3 : Vec F S1x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out2_6 x0 x1 x2 x3 x4 x5)) -∗ K ⟨⟩))
      ⊢ wp frame (wpE (defs₀ (F := F)) Variants.none c none) E (cc2__gcn_layer_kernel i arg0 harg0 arg1 harg1 arg2 harg2 arg3 harg3 arg4 harg4 arg5 harg5 arg6 harg6) K := by
  simp only [cc2__gcn_layer_kernel_eq_skeleton]; unfold cc2__gcn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The arrays as the region finds them; after the body at point `t` each input's buffer at its block and the
    output's at `out2_6` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KernelIdealRegion3.lean ====
/-
  Region 3 of @main: the scoring pallas_call over eight blocks of 512 pairs. At a grid point the body reads the
  gathered user block, the gathered item block, the 64×256 projection and its bias row, and overwrites the whole
  512×1 output block with one value (the skeleton's payload).
  This module states what the body leaves in the output's staging buffer as a function of the input blocks, proves
  the body's triple by symbolic execution, and packages the pipeline's proof data and body obligation, all at a
  parameter `V`: the buffers' contents when the region is entered.
-/
import proofs.«142689_j30262339568120_1_alg».proof.Proof.Gen.KernelIdeal.Launch
import proofs.«142689_j30262339568120_1_alg».proof.Proof.Gen.KernelIdeal.Skeleton
import proofs.«142689_j30262339568120_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's current staging buffer holds its block at every point, whether it was fetched there or its
    index has not moved since the fetch (a window with a constant index is fetched once). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store take the whole buffer -/

abbrev r3_S512x256 : Rect S512x256 := Rect.unit (s := S512x256) ![0, 0] S512x256.size inb_S512x256_S512x256_0_0
abbrev r3_S64x256 : Rect S64x256 := Rect.unit (s := S64x256) ![0, 0] S64x256.size inb_S64x256_S64x256_0_0
abbrev r3_S1x64 : Rect S1x64 := Rect.unit (s := S1x64) ![0, 0] S1x64.size inb_S1x64_S1x64_0_0
abbrev r3_S512x1 : Rect S512x1 := Rect.unit (s := S512x1) ![0, 0] S512x1.size inb_S512x1_S512x1_0_0

/-- The output's staging buffer after the body: its one store, of the payload of the loads. -/
def out3_4 (x0 : Vec F S512x256 .f32) (x1 : Vec F S512x256 .f32) (x2 : Vec F S64x256 .f32) (x3 : Vec F S1x64 .f32) : Vec F S512x1 .f32 :=
  View.canon [⟨r3_S512x1, k3_pay1 (View.ld x0 r3_S512x256) (View.ld x1 r3_S512x256) (View.ld x2 r3_S64x256) (View.ld x3 r3_S1x64)⟩]

/-- The one store covers the buffer. -/
theorem cover3_4 (p0 : Vec F S512x1 .f32) (y : S512x1.Idx) :
    ∃ pc ∈ ([⟨r3_S512x1, p0⟩] : List (View.Piece (Elt F) S512x1 .f32)), y ∈ pc.1.set :=
  View.cover_of_tiled [⟨r3_S512x1, p0⟩] S512x1.size (by rfl) y

set_option maxHeartbeats 1000000 in
/-- The body on whole staging memrefs, the inputs' at contents `x_w` and the output's at anything, runs to the
    continuation with the inputs' as they were and the output's at `out3_4` of them. -/
theorem sound_kernel3 (c : Dev nD) (E : Set ℕ) (i : grid3.Coords) (arg0 : Memref sig .tc .vmem S512x256 .f32) (harg0 : arg0.IsWhole) (arg1 : Memref sig .tc .vmem S512x256 .f32) (harg1 : arg1.IsWhole) (arg2 : Memref sig .tc .vmem S64x256 .f32) (harg2 : arg2.IsWhole) (arg3 : Memref sig .tc .vmem S1x64 .f32) (harg3 : arg3.IsWhole) (arg4 : Memref sig .tc .vmem S512x1 .f32) (harg4 : arg4.IsWhole)
    (x0 : Vec F S512x256 .f32) (x1 : Vec F S512x256 .f32) (x2 : Vec F S64x256 .f32) (x3 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out3_4 x0 x1 x2 x3)) -∗ K ⟨⟩))
      ⊢ wp frame (wpE (defs₀ (F := F)) Variants.none c none) E (cc3__score_kernel i arg0 harg0 arg1 harg1 arg2 harg2 arg3 harg3 arg4 harg4) K := by
  simp only [cc3__score_kernel_eq_skeleton]; unfold cc3__score_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The arrays as the region finds them; after the body at point `t` each input's buffer at its block and the
    output's at `out3_4` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.KernelIdealRun.lean ====
/-
  @main of the program as nine items in order — a stretch of host operations, a pallas_call, …, the last stretch — and
  its run. The buffers' contents at each boundary are a fold from the launch memory: a host stretch applies its
  operations; a region leaves each of its arrays at what the pipeline's write-backs leave and every other buffer as it
  found it. Each region enters the fold as a segment record over its proof data. The run theorem says: every weakly
  fair execution terminates, nothing faults, and every unscoped buffer ends at the last contents of the fold; the
  twelve argument arrays are shown to reach the end as launched (no stretch writes one; a region reads one only
  through an input window).
-/
import proofs.«142689_j30262339568120_1_alg».proof.Proof.KernelIdealRegion0
import proofs.«142689_j30262339568120_1_alg».proof.Proof.KernelIdealRegion1
import proofs.«142689_j30262339568120_1_alg».proof.Proof.KernelIdealRegion2
import proofs.«142689_j30262339568120_1_alg».proof.Proof.KernelIdealRegion3
import proofs.«142689_j30262339568120_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev X0 : Dev nD → Valuation τ sig (Elt F) := fun c b => m (c, b)

/-- After the host stretch `hostOps0`: what region 0 is entered from. -/
abbrev X1 : Dev nD → Valuation τ sig (Elt F) := fun c => StableHlo.after hostOps0 (X0 m c)
abbrev Y1 : (c : Dev nD) → (b : Ref sig .tc) → Buf (Elt F) ((c : Thread nD τ).loc b) := fun c b => X1 m c b
/-- At region 0's exit: its arrays at what the pipeline leaves (an input as entered, the output's blocks written
    back point by point), every other buffer as entered. -/
def X2 (c : Dev nD) : Valuation τ sig (Elt F) :=
  Pipeline.withArrays spec0 c (X1 m c) fun w => (dat0 (Y1 m) c).arrAt w cfg0.N
theorem X2_arr (c : Dev nD) (w : Fin cfg0.W) :
    X2 m c (Proc.devRef .tc (Pipeline.arrRef spec0 w)) = (dat0 (Y1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = X1 m c (Proc.devRef .tc b) := by
  unfold X2; exact Pipeline.withArrays_of_ne spec0 c _ _ b hb
abbrev Y2 : (c : Dev nD) → (b : Ref sig .tc) → Buf (Elt F) ((c : Thread nD τ).loc b) := fun c b => X2 m c b
theorem hF0 (c : Dev nD) (w : Fin cfg0.W) : (dat0 (Y1 m) c).arrAt w cfg0.N = Y2 m c (Pipeline.arrRef spec0 w) :=
  (X2_arr m c w).symm
theorem hrest0 (c : Dev nD) : ∀ b, b ∉ Finset.univ.image (Pipeline.arrRef spec0) → Y2 m c b = Y1 m c b :=
  fun b hb => X2_of_ne m c b fun w e => hb (Finset.mem_image.mpr ⟨w, Finset.mem_univ _, e⟩)

/-- After the host stretch `hostOps1`: what region 1 is entered from. -/
abbrev X3 : Dev nD → Valuation τ sig (Elt F) := fun c => StableHlo.after hostOps1 (X2 m c)
abbrev Y3 : (c : Dev nD) → (b : Ref sig .tc) → Buf (Elt F) ((c : Thread nD τ).loc b) := fun c b => X3 m c b
/-- At region 1's exit: its arrays at what the pipeline leaves (an input as entered, the output's blocks written
    back point by point), every other buffer as entered. -/
def X4 (c : Dev nD) : Valuation τ sig (Elt F) :=
  Pipeline.withArrays spec1 c (X3 m c) fun w => (dat1 (Y3 m) c).arrAt w cfg1.N
theorem X4_arr (c : Dev nD) (w : Fin cfg1.W) :
    X4 m c (Proc.devRef .tc (Pipeline.arrRef spec1 w)) = (dat1 (Y3 m) c).arrAt w cfg1.N := by
  unfold X4; exact Pipeline.withArrays_arr spec1 launch1.win.arr_inj c _ _ w
theorem X4_of_ne (c : Dev nD) (b : Ref sig .tc) (hb : ∀ w, Pipeline.arrRef spec1 w ≠ b) :
    X4 m c (Proc.devRef .tc b) = X3 m c (Proc.devRef .tc b) := by
  unfold X4; exact Pipeline.withArrays_of_ne spec1 c _ _ b hb
abbrev Y4 : (c : Dev nD) → (b : Ref sig .tc) → Buf (Elt F) ((c : Thread nD τ).loc b) := fun c b => X4 m c b
theorem hF1 (c : Dev nD) (w : Fin cfg1.W) : (dat1 (Y3 m) c).arrAt w cfg1.N = Y4 m c (Pipeline.arrRef spec1 w) :=
  (X4_arr m c w).symm
theorem hrest1 (c : Dev nD) : ∀ b, b ∉ Finset.univ.image (Pipeline.arrRef spec1) → Y4 m c b = Y3 m c b :=
  fun b hb => X4_of_ne m c b fun w e => hb (Finset.mem_image.mpr ⟨w, Finset.mem_univ _, e⟩)

/-- After the host stretch `hostOps2`: what region 2 is entered from. -/
abbrev X5 : Dev nD → Valuation τ sig (Elt F) := fun c => StableHlo.after hostOps2 (X4 m c)
abbrev Y5 : (c : Dev nD) → (b : Ref sig .tc) → Buf (Elt F) ((c : Thread nD τ).loc b) := fun c b => X5 m c b
/-- At region 2's exit: its arrays at what the pipeline leaves (an input as entered, the output's blocks written
    back point by point), every other buffer as entered. -/
def X6 (c : Dev nD) : Valuation τ sig (Elt F) :=
  Pipeline.withArrays spec2 c (X5 m c) fun w => (dat2 (Y5 m) c).arrAt w cfg2.N
theorem X6_arr (c : Dev nD) (w : Fin cfg2.W) :
    X6 m c (Proc.devRef .tc (Pipeline.arrRef spec2 w)) = (dat2 (Y5 m) c).arrAt w cfg2.N := by
  unfold X6; exact Pipeline.withArrays_arr spec2 launch2.win.arr_inj c _ _ w
theorem X6_of_ne (c : Dev nD) (b : Ref sig .tc) (hb : ∀ w, Pipeline.arrRef spec2 w ≠ b) :
    X6 m c (Proc.devRef .tc b) = X5 m c (Proc.devRef .tc b) := by
  unfold X6; exact Pipeline.withArrays_of_ne spec2 c _ _ b hb
abbrev Y6 : (c : Dev nD) → (b : Ref sig .tc) → Buf (Elt F) ((c : Thread nD τ).loc b) := fun c b => X6 m c b
theorem hF2 (c : Dev nD) (w : Fin cfg2.W) : (dat2 (Y5 m) c).arrAt w cfg2.N = Y6 m c (Pipeline.arrRef spec2 w) :=
  (X6_arr m c w).symm
theorem hrest2 (c : Dev nD) : ∀ b, b ∉ Finset.univ.image (Pipeline.arrRef spec2) → Y6 m c b = Y5 m c b :=
  fun b hb => X6_of_ne m c b fun w e => hb (Finset.mem_image.mpr ⟨w, Finset.mem_univ _, e⟩)

/-- After the host stretch `hostOps3`: what region 3 is entered from. -/
abbrev X7 : Dev nD → Valuation τ sig (Elt F) := fun c => StableHlo.after hostOps3 (X6 m c)
abbrev Y7 : (c : Dev nD) → (b : Ref sig .tc) → Buf (Elt F) ((c : Thread nD τ).loc b) := fun c b => X7 m c b
/-- At region 3's exit: its arrays at what the pipeline leaves (an input as entered, the output's blocks written
    back point by point), every other buffer as entered. -/
def X8 (c : Dev nD) : Valuation τ sig (Elt F) :=
  Pipeline.withArrays spec3 c (X7 m c) fun w => (dat3 (Y7 m) c).arrAt w cfg3.N
theorem X8_arr (c : Dev nD) (w : Fin cfg3.W) :
    X8 m c (Proc.devRef .tc (Pipeline.arrRef spec3 w)) = (dat3 (Y7 m) c).arrAt w cfg3.N := by
  unfold X8; exact Pipeline.withArrays_arr spec3 launch3.win.arr_inj c _ _ w
theorem X8_of_ne (c : Dev nD) (b : Ref sig .tc) (hb : ∀ w, Pipeline.arrRef spec3 w ≠ b) :
    X8 m c (Proc.devRef .tc b) = X7 m c (Proc.devRef .tc b) := by
  unfold X8; exact Pipeline.withArrays_of_ne spec3 c _ _ b hb
abbrev Y8 : (c : Dev nD) → (b : Ref sig .tc) → Buf (Elt F) ((c : Thread nD τ).loc b) := fun c b => X8 m c b
theorem hF3 (c : Dev nD) (w : Fin cfg3.W) : (dat3 (Y7 m) c).arrAt w cfg3.N = Y8 m c (Pipeline.arrRef spec3 w) :=
  (X8_arr m c w).symm
theorem hrest3 (c : Dev nD) : ∀ b, b ∉ Finset.univ.image (Pipeline.arrRef spec3) → Y8 m c b = Y7 m c b :=
  fun b hb => X8_of_ne m c b fun w e => hb (Finset.mem_image.mpr ⟨w, Finset.mem_univ _, e⟩)

/-- After the last host stretch. -/
abbrev X9 : Dev nD → Valuation τ sig (Elt F) := fun c => StableHlo.after hostOps4 (X8 m c)

/-! ## The arguments end as launched -/

theorem X9_main_arg0 (c : Dev nD) : X9 m c (Proc.devRef .tc main_arg0) = m ((c : Thread nD τ).loc main_arg0) :=
  calc X9 m c (Proc.devRef .tc main_arg0)
    _ = X8 m c (Proc.devRef .tc main_arg0) := StableHlo.after_of_writes_sub hostOps4 _ hostOps4_writes (by decide : main_arg0 ∉ hostOps4_W)
    _ = X7 m c (Proc.devRef .tc main_arg0) := X8_of_ne m c main_arg0 (by decide)
    _ = X6 m c (Proc.devRef .tc main_arg0) := StableHlo.after_of_writes_sub hostOps3 _ hostOps3_writes (by decide : main_arg0 ∉ hostOps3_W)
    _ = X5 m c (Proc.devRef .tc main_arg0) := X6_of_ne m c main_arg0 (by decide)
    _ = X4 m c (Proc.devRef .tc main_arg0) := StableHlo.after_of_writes_sub hostOps2 _ hostOps2_writes (by decide : main_arg0 ∉ hostOps2_W)
    _ = X3 m c (Proc.devRef .tc main_arg0) := X4_of_ne m c main_arg0 (by decide)
    _ = X2 m c (Proc.devRef .tc main_arg0) := StableHlo.after_of_writes_sub hostOps1 _ hostOps1_writes (by decide : main_arg0 ∉ hostOps1_W)
    _ = X1 m c (Proc.devRef .tc main_arg0) := (X2_arr m c 1).trans (((dat0 (Y1 m) c).arrAt_in 1 rfl _).trans (A_eq0 (Y1 m) c 1))
    _ = X0 m c (Proc.devRef .tc main_arg0) := StableHlo.after_of_writes_sub hostOps0 _ hostOps0_writes (by decide : main_arg0 ∉ hostOps0_W)
    _ = m ((c : Thread nD τ).loc main_arg0) := rfl
theorem X9_main_arg1 (c : Dev nD) : X9 m c (Proc.devRef .tc main_arg1) = m ((c : Thread nD τ).loc main_arg1) :=
  calc X9 m c (Proc.devRef .tc main_arg1)
    _ = X8 m c (Proc.devRef .tc main_arg1) := StableHlo.after_of_writes_sub hostOps4 _ hostOps4_writes (by decide : main_arg1 ∉ hostOps4_W)
    _ = X7 m c (Proc.devRef .tc main_arg1) := X8_of_ne m c main_arg1 (by decide)
    _ = X6 m c (Proc.devRef .tc main_arg1) := StableHlo.after_of_writes_sub hostOps3 _ hostOps3_writes (by decide : main_arg1 ∉ hostOps3_W)
    _ = X5 m c (Proc.devRef .tc main_arg1) := X6_of_ne m c main_arg1 (by decide)
    _ = X4 m c (Proc.devRef .tc main_arg1) := StableHlo.after_of_writes_sub hostOps2 _ hostOps2_writes (by decide : main_arg1 ∉ hostOps2_W)
    _ = X3 m c (Proc.devRef .tc main_arg1) := X4_of_ne m c main_arg1 (by decide)
    _ = X2 m c (Proc.devRef .tc main_arg1) := StableHlo.after_of_writes_sub hostOps1 _ hostOps1_writes (by decide : main_arg1 ∉ hostOps1_W)
    _ = X1 m c (Proc.devRef .tc main_arg1) := X2_of_ne m c main_arg1 (by decide)
    _ = X0 m c (Proc.devRef .tc main_arg1) := StableHlo.after_of_writes_sub hostOps0 _ hostOps0_writes (by decide : main_arg1 ∉ hostOps0_W)
    _ = m ((c : Thread nD τ).loc main_arg1) := rfl
theorem X9_main_arg2 (c : Dev nD) : X9 m c (Proc.devRef .tc main_arg2) = m ((c : Thread nD τ).loc main_arg2) :=
  calc X9 m c (Proc.devRef .tc main_arg2)
    _ = X8 m c (Proc.devRef .tc main_arg2) := StableHlo.after_of_writes_sub hostOps4 _ hostOps4_writes (by decide : main_arg2 ∉ hostOps4_W)
    _ = X7 m c (Proc.devRef .tc main_arg2) := X8_of_ne m c main_arg2 (by decide)
    _ = X6 m c (Proc.devRef .tc main_arg2) := StableHlo.after_of_writes_sub hostOps3 _ hostOps3_writes (by decide : main_arg2 ∉ hostOps3_W)
    _ = X5 m c (Proc.devRef .tc main_arg2) := X6_of_ne m c main_arg2 (by decide)
    _ = X4 m c (Proc.devRef .tc main_arg2) := StableHlo.after_of_writes_sub hostOps2 _ hostOps2_writes (by decide : main_arg2 ∉ hostOps2_W)
    _ = X3 m c (Proc.devRef .tc main_arg2) := X4_of_ne m c main_arg2 (by decide)
    _ = X2 m c (Proc.devRef .tc main_arg2) := StableHlo.after_of_writes_sub hostOps1 _ hostOps1_writes (by decide : main_arg2 ∉ hostOps1_W)
    _ = X1 m c (Proc.devRef .tc main_arg2) := X2_of_ne m c main_arg2 (by decide)
    _ = X0 m c (Proc.devRef .tc main_arg2) := StableHlo.after_of_writes_sub hostOps0 _ hostOps0_writes (by decide : main_arg2 ∉ hostOps0_W)
    _ = m ((c : Thread nD τ).loc main_arg2) := rfl
theorem X9_main_arg3 (c : Dev nD) : X9 m c (Proc.devRef .tc main_arg3) = m ((c : Thread nD τ).loc main_arg3) :=
  calc X9 m c (Proc.devRef .tc main_arg3)
    _ = X8 m c (Proc.devRef .tc main_arg3) := StableHlo.after_of_writes_sub hostOps4 _ hostOps4_writes (by decide : main_arg3 ∉ hostOps4_W)
    _ = X7 m c (Proc.devRef .tc main_arg3) := X8_of_ne m c main_arg3 (by decide)
    _ = X6 m c (Proc.devRef .tc main_arg3) := StableHlo.after_of_writes_sub hostOps3 _ hostOps3_writes (by decide : main_arg3 ∉ hostOps3_W)
    _ = X5 m c (Proc.devRef .tc main_arg3) := X6_of_ne m c main_arg3 (by decide)
    _ = X4 m c (Proc.devRef .tc main_arg3) := StableHlo.after_of_writes_sub hostOps2 _ hostOps2_writes (by decide : main_arg3 ∉ hostOps2_W)
    _ = X3 m c (Proc.devRef .tc main_arg3) := X4_of_ne m c main_arg3 (by decide)
    _ = X2 m c (Proc.devRef .tc main_arg3) := StableHlo.after_of_writes_sub hostOps1 _ hostOps1_writes (by decide : main_arg3 ∉ hostOps1_W)
    _ = X1 m c (Proc.devRef .tc main_arg3) := X2_of_ne m c main_arg3 (by decide)
    _ = X0 m c (Proc.devRef .tc main_arg3) := StableHlo.after_of_writes_sub hostOps0 _ hostOps0_writes (by decide : main_arg3 ∉ hostOps0_W)
    _ = m ((c : Thread nD τ).loc main_arg3) := rfl
theorem X9_main_arg4 (c : Dev nD) : X9 m c (Proc.devRef .tc main_arg4) = m ((c : Thread nD τ).loc main_arg4) :=
  calc X9 m c (Proc.devRef .tc main_arg4)
    _ = X8 m c (Proc.devRef .tc main_arg4) := StableHlo.after_of_writes_sub hostOps4 _ hostOps4_writes (by decide : main_arg4 ∉ hostOps4_W)
    _ = X7 m c (Proc.devRef .tc main_arg4) := X8_of_ne m c main_arg4 (by decide)
    _ = X6 m c (Proc.devRef .tc main_arg4) := StableHlo.after_of_writes_sub hostOps3 _ hostOps3_writes (by decide : main_arg4 ∉ hostOps3_W)
    _ = X5 m c (Proc.devRef .tc main_arg4) := X6_of_ne m c main_arg4 (by decide)
    _ = X4 m c (Proc.devRef .tc main_arg4) := StableHlo.after_of_writes_sub hostOps2 _ hostOps2_writes (by decide : main_arg4 ∉ hostOps2_W)
    _ = X3 m c (Proc.devRef .tc main_arg4) := X4_of_ne m c main_arg4 (by decide)
    _ = X2 m c (Proc.devRef .tc main_arg4) := StableHlo.after_of_writes_sub hostOps1 _ hostOps1_writes (by decide : main_arg4 ∉ hostOps1_W)
    _ = X1 m c (Proc.devRef .tc main_arg4) := X2_of_ne m c main_arg4 (by decide)
    _ = X0 m c (Proc.devRef .tc main_arg4) := StableHlo.after_of_writes_sub hostOps0 _ hostOps0_writes (by decide : main_arg4 ∉ hostOps0_W)
    _ = m ((c : Thread nD τ).loc main_arg4) := rfl
theorem X9_main_arg5 (c : Dev nD) : X9 m c (Proc.devRef .tc main_arg5) = m ((c : Thread nD τ).loc main_arg5) :=
  calc X9 m c (Proc.devRef .tc main_arg5)
    _ = X8 m c (Proc.devRef .tc main_arg5) := StableHlo.after_of_writes_sub hostOps4 _ hostOps4_writes (by decide : main_arg5 ∉ hostOps4_W)
    _ = X7 m c (Proc.devRef .tc main_arg5) := X8_of_ne m c main_arg5 (by decide)
    _ = X6 m c (Proc.devRef .tc main_arg5) := StableHlo.after_of_writes_sub hostOps3 _ hostOps3_writes (by decide : main_arg5 ∉ hostOps3_W)
    _ = X5 m c (Proc.devRef .tc main_arg5) := X6_of_ne m c main_arg5 (by decide)
    _ = X4 m c (Proc.devRef .tc main_arg5) := StableHlo.after_of_writes_sub hostOps2 _ hostOps2_writes (by decide : main_arg5 ∉ hostOps2_W)
    _ = X3 m c (Proc.devRef .tc main_arg5) := X4_of_ne m c main_arg5 (by decide)
    _ = X2 m c (Proc.devRef .tc main_arg5) := StableHlo.after_of_writes_sub hostOps1 _ hostOps1_writes (by decide : main_arg5 ∉ hostOps1_W)
    _ = X1 m c (Proc.devRef .tc main_arg5) := X2_of_ne m c main_arg5 (by decide)
    _ = X0 m c (Proc.devRef .tc main_arg5) := StableHlo.after_of_writes_sub hostOps0 _ hostOps0_writes (by decide : main_arg5 ∉ hostOps0_W)
    _ = m ((c : Thread nD τ).loc main_arg5) := rfl
theorem X9_main_arg6 (c : Dev nD) : X9 m c (Proc.devRef .tc main_arg6) = m ((c : Thread nD τ).loc main_arg6) :=
  calc X9 m c (Proc.devRef .tc main_arg6)
    _ = X8 m c (Proc.devRef .tc main_arg6) := StableHlo.after_of_writes_sub hostOps4 _ hostOps4_writes (by decide : main_arg6 ∉ hostOps4_W)
    _ = X7 m c (Proc.devRef .tc main_arg6) := X8_of_ne m c main_arg6 (by decide)
    _ = X6 m c (Proc.devRef .tc main_arg6) := StableHlo.after_of_writes_sub hostOps3 _ hostOps3_writes (by decide : main_arg6 ∉ hostOps3_W)
    _ = X5 m c (Proc.devRef .tc main_arg6) := X6_of_ne m c main_arg6 (by decide)
    _ = X4 m c (Proc.devRef .tc main_arg6) := StableHlo.after_of_writes_sub hostOps2 _ hostOps2_writes (by decide : main_arg6 ∉ hostOps2_W)
    _ = X3 m c (Proc.devRef .tc main_arg6) := X4_of_ne m c main_arg6 (by decide)
    _ = X2 m c (Proc.devRef .tc main_arg6) := StableHlo.after_of_writes_sub hostOps1 _ hostOps1_writes (by decide : main_arg6 ∉ hostOps1_W)
    _ = X1 m c (Proc.devRef .tc main_arg6) := X2_of_ne m c main_arg6 (by decide)
    _ = X0 m c (Proc.devRef .tc main_arg6) := StableHlo.after_of_writes_sub hostOps0 _ hostOps0_writes (by decide : main_arg6 ∉ hostOps0_W)
    _ = m ((c : Thread nD τ).loc main_arg6) := rfl
theorem X9_main_arg7 (c : Dev nD) : X9 m c (Proc.devRef .tc main_arg7) = m ((c : Thread nD τ).loc main_arg7) :=
  calc X9 m c (Proc.devRef .tc main_arg7)
    _ = X8 m c (Proc.devRef .tc main_arg7) := StableHlo.after_of_writes_sub hostOps4 _ hostOps4_writes (by decide : main_arg7 ∉ hostOps4_W)
    _ = X7 m c (Proc.devRef .tc main_arg7) := X8_of_ne m c main_arg7 (by decide)
    _ = X6 m c (Proc.devRef .tc main_arg7) := StableHlo.after_of_writes_sub hostOps3 _ hostOps3_writes (by decide : main_arg7 ∉ hostOps3_W)
    _ = X5 m c (Proc.devRef .tc main_arg7) := X6_of_ne m c main_arg7 (by decide)
    _ = X4 m c (Proc.devRef .tc main_arg7) := StableHlo.after_of_writes_sub hostOps2 _ hostOps2_writes (by decide : main_arg7 ∉ hostOps2_W)
    _ = X3 m c (Proc.devRef .tc main_arg7) := X4_of_ne m c main_arg7 (by decide)
    _ = X2 m c (Proc.devRef .tc main_arg7) := StableHlo.after_of_writes_sub hostOps1 _ hostOps1_writes (by decide : main_arg7 ∉ hostOps1_W)
    _ = X1 m c (Proc.devRef .tc main_arg7) := X2_of_ne m c main_arg7 (by decide)
    _ = X0 m c (Proc.devRef .tc main_arg7) := StableHlo.after_of_writes_sub hostOps0 _ hostOps0_writes (by decide : main_arg7 ∉ hostOps0_W)
    _ = m ((c : Thread nD τ).loc main_arg7) := rfl
theorem X9_main_arg8 (c : Dev nD) : X9 m c (Proc.devRef .tc main_arg8) = m ((c : Thread nD τ).loc main_arg8) :=
  calc X9 m c (Proc.devRef .tc main_arg8)
    _ = X8 m c (Proc.devRef .tc main_arg8) := StableHlo.after_of_writes_sub hostOps4 _ hostOps4_writes (by decide : main_arg8 ∉ hostOps4_W)
    _ = X7 m c (Proc.devRef .tc main_arg8) := X8_of_ne m c main_arg8 (by decide)
    _ = X6 m c (Proc.devRef .tc main_arg8) := StableHlo.after_of_writes_sub hostOps3 _ hostOps3_writes (by decide : main_arg8 ∉ hostOps3_W)
    _ = X5 m c (Proc.devRef .tc main_arg8) := X6_of_ne m c main_arg8 (by decide)
    _ = X4 m c (Proc.devRef .tc main_arg8) := StableHlo.after_of_writes_sub hostOps2 _ hostOps2_writes (by decide : main_arg8 ∉ hostOps2_W)
    _ = X3 m c (Proc.devRef .tc main_arg8) := X4_of_ne m c main_arg8 (by decide)
    _ = X2 m c (Proc.devRef .tc main_arg8) := StableHlo.after_of_writes_sub hostOps1 _ hostOps1_writes (by decide : main_arg8 ∉ hostOps1_W)
    _ = X1 m c (Proc.devRef .tc main_arg8) := X2_of_ne m c main_arg8 (by decide)
    _ = X0 m c (Proc.devRef .tc main_arg8) := StableHlo.after_of_writes_sub hostOps0 _ hostOps0_writes (by decide : main_arg8 ∉ hostOps0_W)
    _ = m ((c : Thread nD τ).loc main_arg8) := rfl
theorem X9_main_arg9 (c : Dev nD) : X9 m c (Proc.devRef .tc main_arg9) = m ((c : Thread nD τ).loc main_arg9) :=
  calc X9 m c (Proc.devRef .tc main_arg9)
    _ = X8 m c (Proc.devRef .tc main_arg9) := StableHlo.after_of_writes_sub hostOps4 _ hostOps4_writes (by decide : main_arg9 ∉ hostOps4_W)
    _ = X7 m c (Proc.devRef .tc main_arg9) := X8_of_ne m c main_arg9 (by decide)
    _ = X6 m c (Proc.devRef .tc main_arg9) := StableHlo.after_of_writes_sub hostOps3 _ hostOps3_writes (by decide : main_arg9 ∉ hostOps3_W)
    _ = X5 m c (Proc.devRef .tc main_arg9) := X6_of_ne m c main_arg9 (by decide)
    _ = X4 m c (Proc.devRef .tc main_arg9) := StableHlo.after_of_writes_sub hostOps2 _ hostOps2_writes (by decide : main_arg9 ∉ hostOps2_W)
    _ = X3 m c (Proc.devRef .tc main_arg9) := X4_of_ne m c main_arg9 (by decide)
    _ = X2 m c (Proc.devRef .tc main_arg9) := StableHlo.after_of_writes_sub hostOps1 _ hostOps1_writes (by decide : main_arg9 ∉ hostOps1_W)
    _ = X1 m c (Proc.devRef .tc main_arg9) := X2_of_ne m c main_arg9 (by decide)
    _ = X0 m c (Proc.devRef .tc main_arg9) := StableHlo.after_of_writes_sub hostOps0 _ hostOps0_writes (by decide : main_arg9 ∉ hostOps0_W)
    _ = m ((c : Thread nD τ).loc main_arg9) := rfl
theorem X9_main_arg10 (c : Dev nD) : X9 m c (Proc.devRef .tc main_arg10) = m ((c : Thread nD τ).loc main_arg10) :=
  calc X9 m c (Proc.devRef .tc main_arg10)
    _ = X8 m c (Proc.devRef .tc main_arg10) := StableHlo.after_of_writes_sub hostOps4 _ hostOps4_writes (by decide : main_arg10 ∉ hostOps4_W)
    _ = X7 m c (Proc.devRef .tc main_arg10) := (X8_arr m c 2).trans (((dat3 (Y7 m) c).arrAt_in 2 rfl _).trans (A_eq3 (Y7 m) c 2))
    _ = X6 m c (Proc.devRef .tc main_arg10) := StableHlo.after_of_writes_sub hostOps3 _ hostOps3_writes (by decide : main_arg10 ∉ hostOps3_W)
    _ = X5 m c (Proc.devRef .tc main_arg10) := X6_of_ne m c main_arg10 (by decide)
    _ = X4 m c (Proc.devRef .tc main_arg10) := StableHlo.after_of_writes_sub hostOps2 _ hostOps2_writes (by decide : main_arg10 ∉ hostOps2_W)
    _ = X3 m c (Proc.devRef .tc main_arg10) := X4_of_ne m c main_arg10 (by decide)
    _ = X2 m c (Proc.devRef .tc main_arg10) := StableHlo.after_of_writes_sub hostOps1 _ hostOps1_writes (by decide : main_arg10 ∉ hostOps1_W)
    _ = X1 m c (Proc.devRef .tc main_arg10) := X2_of_ne m c main_arg10 (by decide)
    _ = X0 m c (Proc.devRef .tc main_arg10) := StableHlo.after_of_writes_sub hostOps0 _ hostOps0_writes (by decide : main_arg10 ∉ hostOps0_W)
    _ = m ((c : Thread nD τ).loc main_arg10) := rfl
theorem X9_main_arg11 (c : Dev nD) : X9 m c (Proc.devRef .tc main_arg11) = m ((c : Thread nD τ).loc main_arg11) :=
  calc X9 m c (Proc.devRef .tc main_arg11)
    _ = X8 m c (Proc.devRef .tc main_arg11) := StableHlo.after_of_writes_sub hostOps4 _ hostOps4_writes (by decide : main_arg11 ∉ hostOps4_W)
    _ = X7 m c (Proc.devRef .tc main_arg11) := X8_of_ne m c main_arg11 (by decide)
    _ = X6 m c (Proc.devRef .tc main_arg11) := StableHlo.after_of_writes_sub hostOps3 _ hostOps3_writes (by decide : main_arg11 ∉ hostOps3_W)
    _ = X5 m c (Proc.devRef .tc main_arg11) := X6_of_ne m c main_arg11 (by decide)
    _ = X4 m c (Proc.devRef .tc main_arg11) := StableHlo.after_of_writes_sub hostOps2 _ hostOps2_writes (by decide : main_arg11 ∉ hostOps2_W)
    _ = X3 m c (Proc.devRef .tc main_arg11) := X4_of_ne m c main_arg11 (by decide)
    _ = X2 m c (Proc.devRef .tc main_arg11) := StableHlo.after_of_writes_sub hostOps1 _ hostOps1_writes (by decide : main_arg11 ∉ hostOps1_W)
    _ = X1 m c (Proc.devRef .tc main_arg11) := X2_of_ne m c main_arg11 (by decide)
    _ = X0 m c (Proc.devRef .tc main_arg11) := StableHlo.after_of_writes_sub hostOps0 _ hostOps0_writes (by decide : main_arg11 ∉ hostOps0_W)
    _ = m ((c : Thread nD τ).loc main_arg11) := rfl

/-! ## The proof data family and the thread state -/

/-- Every pipeline's proof data at its region's entry contents, as a literal match on the pipeline. -/
def pdats : (p : Fin 4) → (c : Dev nD) → Dat τ (Elt F) Unit ℕ (UR sig nD τ) ℕ (Pipeline.pin (pcfgs (F := F)) adm p) c
  | ⟨0, _⟩ => fun c => dat0 (Y1 m) c
  | ⟨1, _⟩ => fun c => dat1 (Y3 m) c
  | ⟨2, _⟩ => fun c => dat2 (Y5 m) c
  | ⟨3, _⟩ => fun c => dat3 (Y7 m) c
abbrev vars0 : Variants := Variants.none
/-- No core owes another anything: no level is assigned. -/
abbrev lvls : GSem nD τ sig → Finset Unit := fun _ => ∅
abbrev lvOf : GSem nD τ sig → Unit → ℕ := fun _ _ => 0
/-- What rides beside the buffers through every item: the core's generator register at some state, and nothing owed. -/
abbrev rest (c : Dev nD) : sProp 𝕄 := iprop((∃ r, prngReg c r) ∗ ∃ W, owes (c : Thread nD τ) (0 : CellTallies nD τ sig Unit) W)
/-- A host stretch as a segment from the contents `X`. -/
abbrev hostSeg (ops : List (HloOp τ sig (Elt F))) (hsub : ops.Forall fun op => op.bufs ⊆ StableHlo.tcRefs τ sig)
    (hfresh : ops.Forall fun op => op.fresh = ∅) (X : Dev nD → Valuation τ sig (Elt F)) :
    Pipeline.HostSeg (Name := ℕ) (U := UR sig nD τ) (pcfgs (F := F)) defs₀ vars0 lvls lvOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) X rest

/-- An unscoped TensorCore reference is among those the thread state holds. -/
theorem memUc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev lastT (c : Dev nD) : sProp 𝕄 := iprop(StableHlo.held (c : Thread nD τ) (Pipeline.ucRefs τ sig) (X9 m c) ∗ ∃ r, prngReg c r)

/-! ## The regions as segments -/

set_option backward.isDefEq.respectTransparency.types false in
/-- Region 0 over the thread state: entered from every unscoped buffer at `X1`, left at `X2`. Its arrays are split
    out of the unscoped buffers at entry and put back, at what the pipeline leaves, at exit; the generator register
    passes through the class invariant; nothing is owed and the kernel has no semaphore of its own. -/
def reg0 : Pipeline.RegionSeg (pcfgs (F := F)) adm (pdats m) () defs₀ vars0 lvls lvOf 0 where
  win := launch0.win.to₀
  block_pos := launch0.block_pos
  stage_whole := launch0.stage_whole
  K := PEmpty
  osem k := k.elim
  ho := Pipeline.OwnSemFacts.none _
  hbody c := (body_obligation0 (Y1 m) c).loose
  hwaits := Pipeline.hwaits_of_owed_zero _ _ _ _ lvls lvOf 0 fun _ _ => rfl
  pre c := iprop(StableHlo.held (c : Thread nD τ) (Pipeline.ucRefs τ sig) (X1 m c) ∗ rest c)
  post c := iprop(StableHlo.held (c : Thread nD τ) (Pipeline.ucRefs τ sig) (X2 m c) ∗ rest c)
  X c := iprop(∃ r, prngReg c r)
  Y c := iprop(∃ r, prngReg c r)
  Z c := Pipeline.unscopedRest (Ix := Unit) (Name := ℕ) (U := UR sig nD τ) (Lvl := ℕ) spec0 c (Y1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Y1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Y1 m c) (Y2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `X3`, left at `X4`. Its arrays are split
    out of the unscoped buffers at entry and put back, at what the pipeline leaves, at exit; the generator register
    passes through the class invariant; nothing is owed and the kernel has no semaphore of its own. -/
def reg1 : Pipeline.RegionSeg (pcfgs (F := F)) adm (pdats m) () defs₀ vars0 lvls lvOf 1 where
  win := launch1.win.to₀
  block_pos := launch1.block_pos
  stage_whole := launch1.stage_whole
  K := PEmpty
  osem k := k.elim
  ho := Pipeline.OwnSemFacts.none _
  hbody c := (body_obligation1 (Y3 m) c).loose
  hwaits := Pipeline.hwaits_of_owed_zero _ _ _ _ lvls lvOf 1 fun _ _ => rfl
  pre c := iprop(StableHlo.held (c : Thread nD τ) (Pipeline.ucRefs τ sig) (X3 m c) ∗ rest c)
  post c := iprop(StableHlo.held (c : Thread nD τ) (Pipeline.ucRefs τ sig) (X4 m c) ∗ rest c)
  X c := iprop(∃ r, prngReg c r)
  Y c := iprop(∃ r, prngReg c r)
  Z c := Pipeline.unscopedRest (Ix := Unit) (Name := ℕ) (U := UR sig nD τ) (Lvl := ℕ) spec1 c (Y3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Y3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Y3 m c) (Y4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `X5`, left at `X6`. Its arrays are split
    out of the unscoped buffers at entry and put back, at what the pipeline leaves, at exit; the generator register
    passes through the class invariant; nothing is owed and the kernel has no semaphore of its own. -/
def reg2 : Pipeline.RegionSeg (pcfgs (F := F)) adm (pdats m) () defs₀ vars0 lvls lvOf 2 where
  win := launch2.win.to₀
  block_pos := launch2.block_pos
  stage_whole := launch2.stage_whole
  K := PEmpty
  osem k := k.elim
  ho := Pipeline.OwnSemFacts.none _
  hbody c := (body_obligation2 (Y5 m) c).loose
  hwaits := Pipeline.hwaits_of_owed_zero _ _ _ _ lvls lvOf 2 fun _ _ => rfl
  pre c := iprop(StableHlo.held (c : Thread nD τ) (Pipeline.ucRefs τ sig) (X5 m c) ∗ rest c)
  post c := iprop(StableHlo.held (c : Thread nD τ) (Pipeline.ucRefs τ sig) (X6 m c) ∗ rest c)
  X c := iprop(∃ r, prngReg c r)
  Y c := iprop(∃ r, prngReg c r)
  Z c := Pipeline.unscopedRest (Ix := Unit) (Name := ℕ) (U := UR sig nD τ) (Lvl := ℕ) spec2 c (Y5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Y5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Y5 m c) (Y6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `X7`, left at `X8`. Its arrays are split
    out of the unscoped buffers at entry and put back, at what the pipeline leaves, at exit; the generator register
    passes through the class invariant; nothing is owed and the kernel has no semaphore of its own. -/
def reg3 : Pipeline.RegionSeg (pcfgs (F := F)) adm (pdats m) () defs₀ vars0 lvls lvOf 3 where
  win := launch3.win.to₀
  block_pos := launch3.block_pos
  stage_whole := launch3.stage_whole
  K := PEmpty
  osem k := k.elim
  ho := Pipeline.OwnSemFacts.none _
  hbody c := (body_obligation3 (Y7 m) c).loose
  hwaits := Pipeline.hwaits_of_owed_zero _ _ _ _ lvls lvOf 3 fun _ _ => rfl
  pre c := iprop(StableHlo.held (c : Thread nD τ) (Pipeline.ucRefs τ sig) (X7 m c) ∗ rest c)
  post c := iprop(StableHlo.held (c : Thread nD τ) (Pipeline.ucRefs τ sig) (X8 m c) ∗ rest c)
  X c := iprop(∃ r, prngReg c r)
  Y c := iprop(∃ r, prngReg c r)
  Z c := Pipeline.unscopedRest (Ix := Unit) (Name := ℕ) (U := UR sig nD τ) (Lvl := ℕ) spec3 c (Y7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Y7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Y7 m c) (Y8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev items : List (Pipeline.Seg (pcfgs (F := F)) adm (pdats m) () defs₀ vars0 lvls lvOf) :=
  [ .host (hostSeg hostOps0 hostOps0_sub hostOps0_fresh (X0 m)),
    .region (reg0 m),
    .host (hostSeg hostOps1 hostOps1_sub hostOps1_fresh (X2 m)),
    .region (reg1 m),
    .host (hostSeg hostOps2 hostOps2_sub hostOps2_fresh (X4 m)),
    .region (reg2 m),
    .host (hostSeg hostOps3 hostOps3_sub hostOps3_fresh (X6 m)),
    .region (reg3 m),
    .host (hostSeg hostOps4 hostOps4_sub hostOps4_fresh (X8 m)) ]

theorem main_run (c : Dev nD) : main (F := F) c = Pipeline.Seg.run (items m) := (main_chain c).trans (by chain_rfl)

set_option backward.isDefEq.respectTransparency.types false in
/-- THE RUN: from any memory with zero counters every weakly fair execution of @main terminates, nothing faulting, and
    every unscoped buffer of every core ends at the last contents of the fold. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = X9 m c b) :=
  Pipeline.θ_run_regions_kit (pcfgs (F := F)) adm (pdats m) () cellOf_inj emb₁ defs₀ vars0 lvls lvOf m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ rest c)) (Tₙ := lastT m)
    (hch := ⟨fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (X9 m c) ∗ rest c)
        ⊢ iprop(lastT m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach lvls lvOf fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X9 m c b)
    (hfin := fun c s' => by
      iintro ⟨⟨Hh, -⟩, HSI⟩
      unfold StableHlo.held
      imodintro
      iapply (pointsTo_read_all (Pipeline.ucRefs τ sig) (fun b => (((c : Thread nD τ)).1, b)) (X9 m c) s')
      isplitl [Hh] <;> iassumption)
    (hQ := fun s h c => h c)

/-- THE FRAME: the twelve argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (memUc main_arg0 (by decide))).trans (X9_main_arg0 m c),
     (h c _ (memUc main_arg1 (by decide))).trans (X9_main_arg1 m c),
     (h c _ (memUc main_arg2 (by decide))).trans (X9_main_arg2 m c),
     (h c _ (memUc main_arg3 (by decide))).trans (X9_main_arg3 m c),
     (h c _ (memUc main_arg4 (by decide))).trans (X9_main_arg4 m c),
     (h c _ (memUc main_arg5 (by decide))).trans (X9_main_arg5 m c),
     (h c _ (memUc main_arg6 (by decide))).trans (X9_main_arg6 m c),
     (h c _ (memUc main_arg7 (by decide))).trans (X9_main_arg7 m c),
     (h c _ (memUc main_arg8 (by decide))).trans (X9_main_arg8 m c),
     (h c _ (memUc main_arg9 (by decide))).trans (X9_main_arg9 m c),
     (h c _ (memUc main_arg10 (by decide))).trans (X9_main_arg10 m c),
     (h c _ (memUc main_arg11 (by decide))).trans (X9_main_arg11 m c)⟩)
    (run_all m ρ)

end Cert.KernelIdeal.Frame

end
-- ==== Proof.ReferenceRun.lean ====
/- The reference program's run: @main's operations as ONE list (the outlined functions' operations inline at
   their calls, over each call's record of buffers), cut at the layers' ends; that @main IS that straight
   line; and that every weakly fair execution of it terminates with every buffer at the fold of the
   operations' results over the launch contents. -/
import proofs.«142689_j30262339568120_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first graph-convolution layer: the gathered rows weighted, summed per destination, the two weight products, the biases, the leaky rectifier (its seven operations inline over the call's record, the select last). (45 operations.) -/
abbrev ops1 : List (HloOp τ sig (Elt F)) :=
  [ StableHlo.unary main_arg3 main_v0 (broadcastInDim S2400000x1 ![0] bcast_S2400000_S2400000x1_0 : (⟨S2400000, .f32⟩ : BufTy).Contents (Elt F) → (⟨S2400000x1, .f32⟩ : BufTy).Contents (Elt F)),
    StableHlo.nullary main_c (constantI S_ 32 0#32),
    StableHlo.unary main_c main_v1 (broadcastInDim S2400000 ![] bcast_S_S2400000 : (⟨S_, .i32⟩ : BufTy).Contents (Elt F) → (⟨S2400000, .i32⟩ : BufTy).Contents (Elt F)),
    StableHlo.binary main_arg2 main_v1 main_v2 (cmpi .slt : (⟨S2400000, .i32⟩ : BufTy).Contents (Elt F) → (⟨S2400000, .i32⟩ : BufTy).Contents (Elt F) → (⟨S2400000, .i1⟩ : BufTy).Contents (Elt F)),
    StableHlo.nullary main_c_0 (constantI S_ 32 150000#32),
    StableHlo.unary main_c_0 main_v3 (broadcastInDim S2400000 ![] bcast_S_S2400000 : (⟨S_, .i32⟩ : BufTy).Contents (Elt F) → (⟨S2400000, .i32⟩ : BufTy).Contents (Elt F)),
    StableHlo.binary main_arg2 main_v3 main_v4 (addi : (⟨S2400000, .i32⟩ : BufTy).Contents (Elt F) → (⟨S2400000, .i32⟩ : BufTy).Contents (Elt F) → (⟨S2400000, .i32⟩ : BufTy).Contents (Elt F)),
    StableHlo.ternary main_v2 main_v4 main_arg2 main_v5 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    StableHlo.unary main_v5 main_v6 (broadcastInDim S2400000x1 ![0] bcast_S2400000_S2400000x1_0 : (⟨S2400000, .i32⟩ : BufTy).Contents (Elt F) → (⟨S2400000x1, .i32⟩ : BufTy).Contents (Elt F)),
    StableHlo.binary main_arg0 main_v6 main_v7 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    StableHlo.unary main_v0 main_v8 (broadcastInDim S2400000x64 ![0, 1] bcast_S2400000x1_S2400000x64_0_1 : (⟨S2400000x1, .f32⟩ : BufTy).Contents (Elt F) → (⟨S2400000x64, .f32⟩ : BufTy).Contents (Elt F)),
    StableHlo.binary main_v8 main_v7 main_v9 (mulf : (⟨S2400000x64, .f32⟩ : BufTy).Contents (Elt F) → (⟨S2400000x64, .f32⟩ : BufTy).Contents (Elt F) → (⟨S2400000x64, .f32⟩ : BufTy).Contents (Elt F)),
    StableHlo.nullary main_cst (constant S_ .f32 0x00000000#32),
    StableHlo.unary main_cst main_v10 (broadcastInDim S150000x64 ![] bcast_S_S150000x64 : (⟨S_, .f32⟩ : BufTy).Contents (Elt F) → (⟨S150000x64, .f32⟩ : BufTy).Contents (Elt F)),
    StableHlo.unary main_arg1 main_v11 (broadcastInDim S2400000x1 ![0] bcast_S2400000_S2400000x1_0 : (⟨S2400000, .i32⟩ : BufTy).Contents (Elt F) → (⟨S2400000x1, .i32⟩ : BufTy).Contents (Elt F)),
    StableHlo.ternary main_v10 main_v11 main_v9 main_v12 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)),
    StableHlo.binary main_v12 main_arg0 main_v13 (addf : (⟨S150000x64, .f32⟩ : BufTy).Contents (Elt F) → (⟨S150000x64, .f32⟩ : BufTy).Contents (Elt F) → (⟨S150000x64, .f32⟩ : BufTy).Contents (Elt F)),
    StableHlo.unary main_arg6 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v14 main_v15 rfl shapeCasts_S1x64x64_S64x64,
    StableHlo.unary main_v15 main_v16 ((transpose S64x64 [1, 0] · transposes_S64x64_S64x64_1_0) : (⟨S64x64, .f32⟩ : BufTy).Contents (Elt F) → (⟨S64x64, .f32⟩ : BufTy).Contents (Elt F)),
    StableHlo.binary main_v13 main_v16 main_v17 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg7 main_v18 ((extractStridedSlice S1x64 ![0, 0] · slices_S3x64_S1x64_0_0) : (⟨S3x64, .f32⟩ : BufTy).Contents (Elt F) → (⟨S1x64, .f32⟩ : BufTy).Contents (Elt F)),
    StableHlo.reshape main_v18 main_v19 rfl shapeCasts_S1x64_S64,
    StableHlo.unary main_v19 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S150000x64 ![0, 1] bcast_S1x64_S150000x64_0_1 : (⟨S1x64, .f32⟩ : BufTy).Contents (Elt F) → (⟨S150000x64, .f32⟩ : BufTy).Contents (Elt F)),
    StableHlo.binary main_v17 main_v21 main_v22 (addf : (⟨S150000x64, .f32⟩ : BufTy).Contents (Elt F) → (⟨S150000x64, .f32⟩ : BufTy).Contents (Elt F) → (⟨S150000x64, .f32⟩ : BufTy).Contents (Elt F)),
    StableHlo.binary main_v12 main_arg0 main_v23 (mulf : (⟨S150000x64, .f32⟩ : BufTy).Contents (Elt F) → (⟨S150000x64, .f32⟩ : BufTy).Contents (Elt F) → (⟨S150000x64, .f32⟩ : BufTy).Contents (Elt F)),
    StableHlo.unary main_arg8 main_v24 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v24 main_v25 rfl shapeCasts_S1x64x64_S64x64,
    StableHlo.unary main_v25 main_v26 ((transpose S64x64 [1, 0] · transposes_S64x64_S64x64_1_0) : (⟨S64x64, .f32⟩ : BufTy).Contents (Elt F) → (⟨S64x64, .f32⟩ : BufTy).Contents (Elt F)),
    StableHlo.binary main_v23 main_v26 main_v27 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg9 main_v28 ((extractStridedSlice S1x64 ![0, 0] · slices_S3x64_S1x64_0_0) : (⟨S3x64, .f32⟩ : BufTy).Contents (Elt F) → (⟨S1x64, .f32⟩ : BufTy).Contents (Elt F)),
    StableHlo.reshape main_v28 main_v29 rfl shapeCasts_S1x64_S64,
    StableHlo.unary main_v29 main_v30 (broadcastInDim S1x64 ![1] bcast_S64_S1x64_1 : (⟨S64, .f32⟩ : BufTy).Contents (Elt F) → (⟨S1x64, .f32⟩ : BufTy).Contents (Elt F)),
    StableHlo.unary main_v30 main_v31 (broadcastInDim S150000x64 ![0, 1] bcast_S1x64_S150000x64_0_1 : (⟨S1x64, .f32⟩ : BufTy).Contents (Elt F) → (⟨S150000x64, .f32⟩ : BufTy).Contents (Elt F)),
    StableHlo.binary main_v27 main_v31 main_v32 (addf : (⟨S150000x64, .f32⟩ : BufTy).Contents (Elt F) → (⟨S150000x64, .f32⟩ : BufTy).Contents (Elt F) → (⟨S150000x64, .f32⟩ : BufTy).Contents (Elt F)),
    StableHlo.binary main_v22 main_v32 main_v33 (addf : (⟨S150000x64, .f32⟩ : BufTy).Contents (Elt F) → (⟨S150000x64, .f32⟩ : BufTy).Contents (Elt F) → (⟨S150000x64, .f32⟩ : BufTy).Contents (Elt F)),
    StableHlo.nullary main_cst_1 (constant S_ .f32 0x3C23D70A#32),
    TRef.nullary main_call0.cst (constant S_ .f32 0x00000000#32),
    TRef.unary main_call0.cst main_call0.v0 (broadcastInDim S150000x64 ![] bcast_S_S150000x64),
    TRef.binary (.of main_v33 : TRef sig ⟨S150000x64, .f32⟩) main_call0.v0 main_call0.v1 (cmpf .oge),
    TRef.unary (.of main_cst_1 : TRef sig ⟨S_, .f32⟩) main_call0.v2 id,
    TRef.unary main_call0.v2 main_call0.v3 (broadcastInDim S150000x64 ![] bcast_S_S150000x64),
    TRef.binary main_call0.v3 (.of main_v33 : TRef sig ⟨S150000x64, .f32⟩) main_call0.v4 mulf,
    TRef.ternary main_call0.v1 (.of main_v33 : TRef sig ⟨S150000x64, .f32⟩) main_call0.v4 main_call0.call0.v0 select ]

/-- The second graph-convolution layer, on the first layer's result. (45 operations.) -/
abbrev ops2 : List (HloOp τ sig (Elt F)) :=
  [ StableHlo.unary main_arg3 main_v35 (broadcastInDim S2400000x1 ![0] bcast_S2400000_S2400000x1_0 : (⟨S2400000, .f32⟩ : BufTy).Contents (Elt F) → (⟨S2400000x1, .f32⟩ : BufTy).Contents (Elt F)),
    StableHlo.nullary main_c_2 (constantI S_ 32 0#32),
    StableHlo.unary main_c_2 main_v36 (broadcastInDim S2400000 ![] bcast_S_S2400000 : (⟨S_, .i32⟩ : BufTy).Contents (Elt F) → (⟨S2400000, .i32⟩ : BufTy).Contents (Elt F)),
    StableHlo.binary main_arg2 main_v36 main_v37 (cmpi .slt : (⟨S2400000, .i32⟩ : BufTy).Contents (Elt F) → (⟨S2400000, .i32⟩ : BufTy).Contents (Elt F) → (⟨S2400000, .i1⟩ : BufTy).Contents (Elt F)),
    StableHlo.nullary main_c_3 (constantI S_ 32 150000#32),
    StableHlo.unary main_c_3 main_v38 (broadcastInDim S2400000 ![] bcast_S_S2400000 : (⟨S_, .i32⟩ : BufTy).Contents (Elt F) → (⟨S2400000, .i32⟩ : BufTy).Contents (Elt F)),
    StableHlo.binary main_arg2 main_v38 main_v39 (addi : (⟨S2400000, .i32⟩ : BufTy).Contents (Elt F) → (⟨S2400000, .i32⟩ : BufTy).Contents (Elt F) → (⟨S2400000, .i32⟩ : BufTy).Contents (Elt F)),
    StableHlo.ternary main_v37 main_v39 main_arg2 main_v40 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    StableHlo.unary main_v40 main_v41 (broadcastInDim S2400000x1 ![0] bcast_S2400000_S2400000x1_0 : (⟨S2400000, .i32⟩ : BufTy).Contents (Elt F) → (⟨S2400000x1, .i32⟩ : BufTy).Contents (Elt F)),
    StableHlo.binary main_v34 main_v41 main_v42 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    StableHlo.unary main_v35 main_v43 (broadcastInDim S2400000x64 ![0, 1] bcast_S2400000x1_S2400000x64_0_1 : (⟨S2400000x1, .f32⟩ : BufTy).Contents (Elt F) → (⟨S2400000x64, .f32⟩ : BufTy).Contents (Elt F)),
    StableHlo.binary main_v43 main_v42 main_v44 (mulf : (⟨S2400000x64, .f32⟩ : BufTy).Contents (Elt F) → (⟨S2400000x64, .f32⟩ : BufTy).Contents (Elt F) → (⟨S2400000x64, .f32⟩ : BufTy).Contents (Elt F)),
    StableHlo.nullary main_cst_4 (constant S_ .f32 0x00000000#32),
    StableHlo.unary main_cst_4 main_v45 (broadcastInDim S150000x64 ![] bcast_S_S150000x64 : (⟨S_, .f32⟩ : BufTy).Contents (Elt F) → (⟨S150000x64, .f32⟩ : BufTy).Contents (Elt F)),
    StableHlo.unary main_arg1 main_v46 (broadcastInDim S2400000x1 ![0] bcast_S2400000_S2400000x1_0 : (⟨S2400000, .i32⟩ : BufTy).Contents (Elt F) → (⟨S2400000x1, .i32⟩ : BufTy).Contents (Elt F)),
    StableHlo.ternary main_v45 main_v46 main_v44 main_v47 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)),
    StableHlo.binary main_v47 main_v34 main_v48 (addf : (⟨S150000x64, .f32⟩ : BufTy).Contents (Elt F) → (⟨S150000x64, .f32⟩ : BufTy).Contents (Elt F) → (⟨S150000x64, .f32⟩ : BufTy).Contents (Elt F)),
    StableHlo.unary main_arg6 main_v49 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v49 main_v50 rfl shapeCasts_S1x64x64_S64x64,
    StableHlo.unary main_v50 main_v51 ((transpose S64x64 [1, 0] · transposes_S64x64_S64x64_1_0) : (⟨S64x64, .f32⟩ : BufTy).Contents (Elt F) → (⟨S64x64, .f32⟩ : BufTy).Contents (Elt F)),
    StableHlo.binary main_v48 main_v51 main_v52 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg7 main_v53 ((extractStridedSlice S1x64 ![1, 0] · slices_S3x64_S1x64_1_0) : (⟨S3x64, .f32⟩ : BufTy).Contents (Elt F) → (⟨S1x64, .f32⟩ : BufTy).Contents (Elt F)),
    StableHlo.reshape main_v53 main_v54 rfl shapeCasts_S1x64_S64,
    StableHlo.unary main_v54 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S150000x64 ![0, 1] bcast_S1x64_S150000x64_0_1 : (⟨S1x64, .f32⟩ : BufTy).Contents (Elt F) → (⟨S150000x64, .f32⟩ : BufTy).Contents (Elt F)),
    StableHlo.binary main_v52 main_v56 main_v57 (addf : (⟨S150000x64, .f32⟩ : BufTy).Contents (Elt F) → (⟨S150000x64, .f32⟩ : BufTy).Contents (Elt F) → (⟨S150000x64, .f32⟩ : BufTy).Contents (Elt F)),
    StableHlo.binary main_v47 main_v34 main_v58 (mulf : (⟨S150000x64, .f32⟩ : BufTy).Contents (Elt F) → (⟨S150000x64, .f32⟩ : BufTy).Contents (Elt F) → (⟨S150000x64, .f32⟩ : BufTy).Contents (Elt F)),
    StableHlo.unary main_arg8 main_v59 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v59 main_v60 rfl shapeCasts_S1x64x64_S64x64,
    StableHlo.unary main_v60 main_v61 ((transpose S64x64 [1, 0] · transposes_S64x64_S64x64_1_0) : (⟨S64x64, .f32⟩ : BufTy).Contents (Elt F) → (⟨S64x64, .f32⟩ : BufTy).Contents (Elt F)),
    StableHlo.binary main_v58 main_v61 main_v62 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg9 main_v63 ((extractStridedSlice S1x64 ![1, 0] · slices_S3x64_S1x64_1_0) : (⟨S3x64, .f32⟩ : BufTy).Contents (Elt F) → (⟨S1x64, .f32⟩ : BufTy).Contents (Elt F)),
    StableHlo.reshape main_v63 main_v64 rfl shapeCasts_S1x64_S64,
    StableHlo.unary main_v64 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S150000x64 ![0, 1] bcast_S1x64_S150000x64_0_1 : (⟨S1x64, .f32⟩ : BufTy).Contents (Elt F) → (⟨S150000x64, .f32⟩ : BufTy).Contents (Elt F)),
    StableHlo.binary main_v62 main_v66 main_v67 (addf : (⟨S150000x64, .f32⟩ : BufTy).Contents (Elt F) → (⟨S150000x64, .f32⟩ : BufTy).Contents (Elt F) → (⟨S150000x64, .f32⟩ : BufTy).Contents (Elt F)),
    StableHlo.binary main_v57 main_v67 main_v68 (addf : (⟨S150000x64, .f32⟩ : BufTy).Contents (Elt F) → (⟨S150000x64, .f32⟩ : BufTy).Contents (Elt F) → (⟨S150000x64, .f32⟩ : BufTy).Contents (Elt F)),
    StableHlo.nullary main_cst_5 (constant S_ .f32 0x3C23D70A#32),
    TRef.nullary main_call1.cst (constant S_ .f32 0x00000000#32),
    TRef.unary main_call1.cst main_call1.v0 (broadcastInDim S150000x64 ![] bcast_S_S150000x64),
    TRef.binary (.of main_v68 : TRef sig ⟨S150000x64, .f32⟩) main_call1.v0 main_call1.v1 (cmpf .oge),
    TRef.unary (.of main_cst_5 : TRef sig ⟨S_, .f32⟩) main_call1.v2 id,
    TRef.unary main_call1.v2 main_call1.v3 (broadcastInDim S150000x64 ![] bcast_S_S150000x64),
    TRef.binary main_call1.v3 (.of main_v68 : TRef sig ⟨S150000x64, .f32⟩) main_call1.v4 mulf,
    TRef.ternary main_call1.v1 (.of main_v68 : TRef sig ⟨S150000x64, .f32⟩) main_call1.v4 main_call1.call0.v0 select ]

/-- The third graph-convolution layer, on the second layer's result. (45 operations.) -/
abbrev ops3 : List (HloOp τ sig (Elt F)) :=
  [ StableHlo.unary main_arg3 main_v70 (broadcastInDim S2400000x1 ![0] bcast_S2400000_S2400000x1_0 : (⟨S2400000, .f32⟩ : BufTy).Contents (Elt F) → (⟨S2400000x1, .f32⟩ : BufTy).Contents (Elt F)),
    StableHlo.nullary main_c_6 (constantI S_ 32 0#32),
    StableHlo.unary main_c_6 main_v71 (broadcastInDim S2400000 ![] bcast_S_S2400000 : (⟨S_, .i32⟩ : BufTy).Contents (Elt F) → (⟨S2400000, .i32⟩ : BufTy).Contents (Elt F)),
    StableHlo.binary main_arg2 main_v71 main_v72 (cmpi .slt : (⟨S2400000, .i32⟩ : BufTy).Contents (Elt F) → (⟨S2400000, .i32⟩ : BufTy).Contents (Elt F) → (⟨S2400000, .i1⟩ : BufTy).Contents (Elt F)),
    StableHlo.nullary main_c_7 (constantI S_ 32 150000#32),
    StableHlo.unary main_c_7 main_v73 (broadcastInDim S2400000 ![] bcast_S_S2400000 : (⟨S_, .i32⟩ : BufTy).Contents (Elt F) → (⟨S2400000, .i32⟩ : BufTy).Contents (Elt F)),
    StableHlo.binary main_arg2 main_v73 main_v74 (addi : (⟨S2400000, .i32⟩ : BufTy).Contents (Elt F) → (⟨S2400000, .i32⟩ : BufTy).Contents (Elt F) → (⟨S2400000, .i32⟩ : BufTy).Contents (Elt F)),
    StableHlo.ternary main_v72 main_v74 main_arg2 main_v75 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    StableHlo.unary main_v75 main_v76 (broadcastInDim S2400000x1 ![0] bcast_S2400000_S2400000x1_0 : (⟨S2400000, .i32⟩ : BufTy).Contents (Elt F) → (⟨S2400000x1, .i32⟩ : BufTy).Contents (Elt F)),
    StableHlo.binary main_v69 main_v76 main_v77 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    StableHlo.unary main_v70 main_v78 (broadcastInDim S2400000x64 ![0, 1] bcast_S2400000x1_S2400000x64_0_1 : (⟨S2400000x1, .f32⟩ : BufTy).Contents (Elt F) → (⟨S2400000x64, .f32⟩ : BufTy).Contents (Elt F)),
    StableHlo.binary main_v78 main_v77 main_v79 (mulf : (⟨S2400000x64, .f32⟩ : BufTy).Contents (Elt F) → (⟨S2400000x64, .f32⟩ : BufTy).Contents (Elt F) → (⟨S2400000x64, .f32⟩ : BufTy).Contents (Elt F)),
    StableHlo.nullary main_cst_8 (constant S_ .f32 0x00000000#32),
    StableHlo.unary main_cst_8 main_v80 (broadcastInDim S150000x64 ![] bcast_S_S150000x64 : (⟨S_, .f32⟩ : BufTy).Contents (Elt F) → (⟨S150000x64, .f32⟩ : BufTy).Contents (Elt F)),
    StableHlo.unary main_arg1 main_v81 (broadcastInDim S2400000x1 ![0] bcast_S2400000_S2400000x1_0 : (⟨S2400000, .i32⟩ : BufTy).Contents (Elt F) → (⟨S2400000x1, .i32⟩ : BufTy).Contents (Elt F)),
    StableHlo.ternary main_v80 main_v81 main_v79 main_v82 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)),
    StableHlo.binary main_v82 main_v69 main_v83 (addf : (⟨S150000x64, .f32⟩ : BufTy).Contents (Elt F) → (⟨S150000x64, .f32⟩ : BufTy).Contents (Elt F) → (⟨S150000x64, .f32⟩ : BufTy).Contents (Elt F)),
    StableHlo.unary main_arg6 main_v84 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v84 main_v85 rfl shapeCasts_S1x64x64_S64x64,
    StableHlo.unary main_v85 main_v86 ((transpose S64x64 [1, 0] · transposes_S64x64_S64x64_1_0) : (⟨S64x64, .f32⟩ : BufTy).Contents (Elt F) → (⟨S64x64, .f32⟩ : BufTy).Contents (Elt F)),
    StableHlo.binary main_v83 main_v86 main_v87 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg7 main_v88 ((extractStridedSlice S1x64 ![2, 0] · slices_S3x64_S1x64_2_0) : (⟨S3x64, .f32⟩ : BufTy).Contents (Elt F) → (⟨S1x64, .f32⟩ : BufTy).Contents (Elt F)),
    StableHlo.reshape main_v88 main_v89 rfl shapeCasts_S1x64_S64,
    StableHlo.unary main_v89 main_v90 (broadcastInDim S1x64 ![1] bcast_S64_S1x64_1 : (⟨S64, .f32⟩ : BufTy).Contents (Elt F) → (⟨S1x64, .f32⟩ : BufTy).Contents (Elt F)),
    StableHlo.unary main_v90 main_v91 (broadcastInDim S150000x64 ![0, 1] bcast_S1x64_S150000x64_0_1 : (⟨S1x64, .f32⟩ : BufTy).Contents (Elt F) → (⟨S150000x64, .f32⟩ : BufTy).Contents (Elt F)),
    StableHlo.binary main_v87 main_v91 main_v92 (addf : (⟨S150000x64, .f32⟩ : BufTy).Contents (Elt F) → (⟨S150000x64, .f32⟩ : BufTy).Contents (Elt F) → (⟨S150000x64, .f32⟩ : BufTy).Contents (Elt F)),
    StableHlo.binary main_v82 main_v69 main_v93 (mulf : (⟨S150000x64, .f32⟩ : BufTy).Contents (Elt F) → (⟨S150000x64, .f32⟩ : BufTy).Contents (Elt F) → (⟨S150000x64, .f32⟩ : BufTy).Contents (Elt F)),
    StableHlo.unary main_arg8 main_v94 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v94 main_v95 rfl shapeCasts_S1x64x64_S64x64,
    StableHlo.unary main_v95 main_v96 ((transpose S64x64 [1, 0] · transposes_S64x64_S64x64_1_0) : (⟨S64x64, .f32⟩ : BufTy).Contents (Elt F) → (⟨S64x64, .f32⟩ : BufTy).Contents (Elt F)),
    StableHlo.binary main_v93 main_v96 main_v97 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg9 main_v98 ((extractStridedSlice S1x64 ![2, 0] · slices_S3x64_S1x64_2_0) : (⟨S3x64, .f32⟩ : BufTy).Contents (Elt F) → (⟨S1x64, .f32⟩ : BufTy).Contents (Elt F)),
    StableHlo.reshape main_v98 main_v99 rfl shapeCasts_S1x64_S64,
    StableHlo.unary main_v99 main_v100 (broadcastInDim S1x64 ![1] bcast_S64_S1x64_1 : (⟨S64, .f32⟩ : BufTy).Contents (Elt F) → (⟨S1x64, .f32⟩ : BufTy).Contents (Elt F)),
    StableHlo.unary main_v100 main_v101 (broadcastInDim S150000x64 ![0, 1] bcast_S1x64_S150000x64_0_1 : (⟨S1x64, .f32⟩ : BufTy).Contents (Elt F) → (⟨S150000x64, .f32⟩ : BufTy).Contents (Elt F)),
    StableHlo.binary main_v97 main_v101 main_v102 (addf : (⟨S150000x64, .f32⟩ : BufTy).Contents (Elt F) → (⟨S150000x64, .f32⟩ : BufTy).Contents (Elt F) → (⟨S150000x64, .f32⟩ : BufTy).Contents (Elt F)),
    StableHlo.binary main_v92 main_v102 main_v103 (addf : (⟨S150000x64, .f32⟩ : BufTy).Contents (Elt F) → (⟨S150000x64, .f32⟩ : BufTy).Contents (Elt F) → (⟨S150000x64, .f32⟩ : BufTy).Contents (Elt F)),
    StableHlo.nullary main_cst_9 (constant S_ .f32 0x3C23D70A#32),
    TRef.nullary main_call2.cst (constant S_ .f32 0x00000000#32),
    TRef.unary main_call2.cst main_call2.v0 (broadcastInDim S150000x64 ![] bcast_S_S150000x64),
    TRef.binary (.of main_v103 : TRef sig ⟨S150000x64, .f32⟩) main_call2.v0 main_call2.v1 (cmpf .oge),
    TRef.unary (.of main_cst_9 : TRef sig ⟨S_, .f32⟩) main_call2.v2 id,
    TRef.unary main_call2.v2 main_call2.v3 (broadcastInDim S150000x64 ![] bcast_S_S150000x64),
    TRef.binary main_call2.v3 (.of main_v103 : TRef sig ⟨S150000x64, .f32⟩) main_call2.v4 mulf,
    TRef.ternary main_call2.v1 (.of main_v103 : TRef sig ⟨S150000x64, .f32⟩) main_call2.v4 main_call2.call0.v0 select ]

/-- The read-out: the four feature blocks side by side, the rows gathered at the two index lists, each through the output weights and bias, their product summed along the feature axis. (35 operations.) -/
abbrev ops4 : List (HloOp τ sig (Elt F)) :=
  [ StableHlo.nary ![main_arg0, main_v34, main_v69, main_v104] main_v105 (fun u => concatenate S150000x256 1 [⟨S150000x64, u 0⟩, ⟨S150000x64, u 1⟩, ⟨S150000x64, u 2⟩, ⟨S150000x64, u 3⟩] concatenates_S150000x64_S150000x64_S150000x64_S150000x64_S150000x256_d1),
    StableHlo.nullary main_c_10 (constantI S_ 32 0#32),
    StableHlo.unary main_c_10 main_v106 (broadcastInDim S4096 ![] bcast_S_S4096 : (⟨S_, .i32⟩ : BufTy).Contents (Elt F) → (⟨S4096, .i32⟩ : BufTy).Contents (Elt F)),
    StableHlo.binary main_arg4 main_v106 main_v107 (cmpi .slt : (⟨S4096, .i32⟩ : BufTy).Contents (Elt F) → (⟨S4096, .i32⟩ : BufTy).Contents (Elt F) → (⟨S4096, .i1⟩ : BufTy).Contents (Elt F)),
    StableHlo.nullary main_c_11 (constantI S_ 32 150000#32),
    StableHlo.unary main_c_11 main_v108 (broadcastInDim S4096 ![] bcast_S_S4096 : (⟨S_, .i32⟩ : BufTy).Contents (Elt F) → (⟨S4096, .i32⟩ : BufTy).Contents (Elt F)),
    StableHlo.binary main_arg4 main_v108 main_v109 (addi : (⟨S4096, .i32⟩ : BufTy).Contents (Elt F) → (⟨S4096, .i32⟩ : BufTy).Contents (Elt F) → (⟨S4096, .i32⟩ : BufTy).Contents (Elt F)),
    StableHlo.ternary main_v107 main_v109 main_arg4 main_v110 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v110 main_v111 (broadcastInDim S4096x1 ![0] bcast_S4096_S4096x1_0 : (⟨S4096, .i32⟩ : BufTy).Contents (Elt F) → (⟨S4096x1, .i32⟩ : BufTy).Contents (Elt F)),
    StableHlo.binary main_v105 main_v111 main_v112 ((fun x i => Host.gather gather_S150000x256_S4096x1_S4096x256_1_0_n_n_0_1_1256 x i) : (⟨S150000x256, .f32⟩ : BufTy).Contents (Elt F) → (⟨S4096x1, .i32⟩ : BufTy).Contents (Elt F) → (⟨S4096x256, .f32⟩ : BufTy).Contents (Elt F)),
    StableHlo.unary main_arg10 main_v113 ((transpose S256x64 [1, 0] · transposes_S64x256_S256x64_1_0) : (⟨S64x256, .f32⟩ : BufTy).Contents (Elt F) → (⟨S256x64, .f32⟩ : BufTy).Contents (Elt F)),
    StableHlo.binary main_v112 main_v113 main_v114 ((fun l r => Host.dotGeneral dot_S4096x256_S256x64_S4096x64_1_0_0_1_n_n none l r) : (⟨S4096x256, .f32⟩ : BufTy).Contents (Elt F) → (⟨S256x64, .f32⟩ : BufTy).Contents (Elt F) → (⟨S4096x64, .f32⟩ : BufTy).Contents (Elt F)),
    StableHlo.unary main_arg11 main_v115 (broadcastInDim S1x64 ![1] bcast_S64_S1x64_1 : (⟨S64, .f32⟩ : BufTy).Contents (Elt F) → (⟨S1x64, .f32⟩ : BufTy).Contents (Elt F)),
    StableHlo.unary main_v115 main_v116 (broadcastInDim S4096x64 ![0, 1] bcast_S1x64_S4096x64_0_1 : (⟨S1x64, .f32⟩ : BufTy).Contents (Elt F) → (⟨S4096x64, .f32⟩ : BufTy).Contents (Elt F)),
    StableHlo.binary main_v114 main_v116 main_v117 (addf : (⟨S4096x64, .f32⟩ : BufTy).Contents (Elt F) → (⟨S4096x64, .f32⟩ : BufTy).Contents (Elt F) → (⟨S4096x64, .f32⟩ : BufTy).Contents (Elt F)),
    StableHlo.nullary main_c_12 (constantI S_ 32 100000#32),
    StableHlo.unary main_c_12 main_v118 (broadcastInDim S4096 ![] bcast_S_S4096 : (⟨S_, .i32⟩ : BufTy).Contents (Elt F) → (⟨S4096, .i32⟩ : BufTy).Contents (Elt F)),
    StableHlo.binary main_v118 main_arg5 main_v119 (addi : (⟨S4096, .i32⟩ : BufTy).Contents (Elt F) → (⟨S4096, .i32⟩ : BufTy).Contents (Elt F) → (⟨S4096, .i32⟩ : BufTy).Contents (Elt F)),
    StableHlo.nullary main_c_13 (constantI S_ 32 0#32),
    StableHlo.unary main_c_13 main_v120 (broadcastInDim S4096 ![] bcast_S_S4096 : (⟨S_, .i32⟩ : BufTy).Contents (Elt F) → (⟨S4096, .i32⟩ : BufTy).Contents (Elt F)),
    StableHlo.binary main_v119 main_v120 main_v121 (cmpi .slt : (⟨S4096, .i32⟩ : BufTy).Contents (Elt F) → (⟨S4096, .i32⟩ : BufTy).Contents (Elt F) → (⟨S4096, .i1⟩ : BufTy).Contents (Elt F)),
    StableHlo.nullary main_c_14 (constantI S_ 32 150000#32),
    StableHlo.unary main_c_14 main_v122 (broadcastInDim S4096 ![] bcast_S_S4096 : (⟨S_, .i32⟩ : BufTy).Contents (Elt F) → (⟨S4096, .i32⟩ : BufTy).Contents (Elt F)),
    StableHlo.binary main_v119 main_v122 main_v123 (addi : (⟨S4096, .i32⟩ : BufTy).Contents (Elt F) → (⟨S4096, .i32⟩ : BufTy).Contents (Elt F) → (⟨S4096, .i32⟩ : BufTy).Contents (Elt F)),
    StableHlo.ternary main_v121 main_v123 main_v119 main_v124 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v124 main_v125 (broadcastInDim S4096x1 ![0] bcast_S4096_S4096x1_0 : (⟨S4096, .i32⟩ : BufTy).Contents (Elt F) → (⟨S4096x1, .i32⟩ : BufTy).Contents (Elt F)),
    StableHlo.binary main_v105 main_v125 main_v126 ((fun x i => Host.gather gather_S150000x256_S4096x1_S4096x256_1_0_n_n_0_1_1256 x i) : (⟨S150000x256, .f32⟩ : BufTy).Contents (Elt F) → (⟨S4096x1, .i32⟩ : BufTy).Contents (Elt F) → (⟨S4096x256, .f32⟩ : BufTy).Contents (Elt F)),
    StableHlo.unary main_arg10 main_v127 ((transpose S256x64 [1, 0] · transposes_S64x256_S256x64_1_0) : (⟨S64x256, .f32⟩ : BufTy).Contents (Elt F) → (⟨S256x64, .f32⟩ : BufTy).Contents (Elt F)),
    StableHlo.binary main_v126 main_v127 main_v128 ((fun l r => Host.dotGeneral dot_S4096x256_S256x64_S4096x64_1_0_0_1_n_n none l r) : (⟨S4096x256, .f32⟩ : BufTy).Contents (Elt F) → (⟨S256x64, .f32⟩ : BufTy).Contents (Elt F) → (⟨S4096x64, .f32⟩ : BufTy).Contents (Elt F)),
    StableHlo.unary main_arg11 main_v129 (broadcastInDim S1x64 ![1] bcast_S64_S1x64_1 : (⟨S64, .f32⟩ : BufTy).Contents (Elt F) → (⟨S1x64, .f32⟩ : BufTy).Contents (Elt F)),
    StableHlo.unary main_v129 main_v130 (broadcastInDim S4096x64 ![0, 1] bcast_S1x64_S4096x64_0_1 : (⟨S1x64, .f32⟩ : BufTy).Contents (Elt F) → (⟨S4096x64, .f32⟩ : BufTy).Contents (Elt F)),
    StableHlo.binary main_v128 main_v130 main_v131 (addf : (⟨S4096x64, .f32⟩ : BufTy).Contents (Elt F) → (⟨S4096x64, .f32⟩ : BufTy).Contents (Elt F) → (⟨S4096x64, .f32⟩ : BufTy).Contents (Elt F)),
    StableHlo.binary main_v117 main_v131 main_v132 (mulf : (⟨S4096x64, .f32⟩ : BufTy).Contents (Elt F) → (⟨S4096x64, .f32⟩ : BufTy).Contents (Elt F) → (⟨S4096x64, .f32⟩ : BufTy).Contents (Elt F)),
    StableHlo.nullary main_cst_15 (constant S_ .f32 0x00000000#32),
    StableHlo.binary main_v132 main_cst_15 main_v133 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)) ]

/-- @main's 170 operations, in order: the three layers, then the read-out. -/
abbrev ops : List (HloOp τ sig (Elt F)) := ops1 ++ (ops2 ++ (ops3 ++ ops4))

set_option maxRecDepth 16384 in
set_option maxHeartbeats 4000000 in
/-- @main is that straight line: its three windows, the functions' bodies at their calls and the records at
    their fields unfold to one chain of operation steps, which is the list's. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops1_sub : (ops1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., reshape_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., binary_bufs_sub .., unary_bufs_sub .., reshape_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩

theorem ops2_sub : (ops2 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., reshape_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., binary_bufs_sub .., unary_bufs_sub .., reshape_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩

theorem ops3_sub : (ops3 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., reshape_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., binary_bufs_sub .., unary_bufs_sub .., reshape_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩

theorem ops4_sub : (ops4 : List (HloOp τ sig (Elt F))).Forall fun op => op.bufs ⊆ tcRefs τ sig :=
  ⟨nary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., unary_bufs_sub .., binary_bufs_sub .., binary_bufs_sub .., nullary_bufs_sub .., binary_bufs_sub ..⟩

/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops1_sub op h, List.forall_iff_forall_mem.mp ops2_sub op h,
      List.forall_iff_forall_mem.mp ops3_sub op h, List.forall_iff_forall_mem.mp ops4_sub op h]

/-- The fold over two lines run one after the other is the second's over the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The fold over @main's operations, layer by layer. -/
theorem after_ops (V : Valuation τ sig (Elt F)) :
    after (ops : List (HloOp τ sig (Elt F))) V = after ops4 (after ops3 (after ops2 (after ops1 V))) := by
  simp only [ops, after_app]

/-- On every device, for any float values, from any memory with zero counters: every weakly fair execution of
    @main terminates, and every final state has each TensorCore buffer at the fold of the operations' results
    over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.ReferenceFrame.lean ====
/- The reference program's frame: no operation of @main writes an argument's buffer, so under the run
   every argument ends at its launch contents. Per layer: the references its operations write, and that any
   other reference keeps its contents through the layer (also what carries a layer's result through the
   later layers). -/
import proofs.«142689_j30262339568120_1_alg».proof.Proof.ReferenceRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- One operation writes one reference, a member of the list: the builder's `writes` is the singleton of its result. -/
local macro "writes_mem" : tactic =>
  `(tactic| (simp only [nullary_writes, unary_writes, binary_writes, ternary_writes, quaternary_writes, reshape_writes, binaryIndexed_writes, unaryIndexed_writes, nary_writes, Finset.singleton_subset_iff, List.mem_toFinset]
             exact List.mem_map_of_mem (by decide)))

/-- The references `ops1`'s operations write, in order. -/
abbrev ops1_W : List (Ref sig .tc) := [main_v0, main_c, main_v1, main_v2, main_c_0, main_v3, main_v4, main_v5, main_v6, main_v7, main_v8, main_v9, main_cst, main_v10, main_v11, main_v12, main_v13, main_v14, main_v15, main_v16, main_v17, main_v18, main_v19, main_v20, main_v21, main_v22, main_v23, main_v24, main_v25, main_v26, main_v27, main_v28, main_v29, main_v30, main_v31, main_v32, main_v33, main_cst_1, main_call0_cst, main_call0_v0, main_call0_v1, main_call0_v2, main_call0_v3, main_call0_v4, main_v34]
set_option maxRecDepth 16384 in
theorem ops1_writes : (ops1 : List (HloOp τ sig (Elt F))).Forall fun op => op.writes ⊆ (ops1_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
/-- A reference `ops1` does not write keeps its contents through it. -/
theorem ops1_keep (V : Valuation τ sig (Elt F)) (r : Ref sig .tc) (h : r ∉ ops1_W) :
    after ops1 V (Proc.devRef .tc r) = V (Proc.devRef .tc r) :=
  after_of_writes_sub ops1 V ops1_writes h

/-- The references `ops2`'s operations write, in order. -/
abbrev ops2_W : List (Ref sig .tc) := [main_v35, main_c_2, main_v36, main_v37, main_c_3, main_v38, main_v39, main_v40, main_v41, main_v42, main_v43, main_v44, main_cst_4, main_v45, main_v46, main_v47, main_v48, main_v49, main_v50, main_v51, main_v52, main_v53, main_v54, main_v55, main_v56, main_v57, main_v58, main_v59, main_v60, main_v61, main_v62, main_v63, main_v64, main_v65, main_v66, main_v67, main_v68, main_cst_5, main_call1_cst, main_call1_v0, main_call1_v1, main_call1_v2, main_call1_v3, main_call1_v4, main_v69]
set_option maxRecDepth 16384 in
theorem ops2_writes : (ops2 : List (HloOp τ sig (Elt F))).Forall fun op => op.writes ⊆ (ops2_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
/-- A reference `ops2` does not write keeps its contents through it. -/
theorem ops2_keep (V : Valuation τ sig (Elt F)) (r : Ref sig .tc) (h : r ∉ ops2_W) :
    after ops2 V (Proc.devRef .tc r) = V (Proc.devRef .tc r) :=
  after_of_writes_sub ops2 V ops2_writes h

/-- The references `ops3`'s operations write, in order. -/
abbrev ops3_W : List (Ref sig .tc) := [main_v70, main_c_6, main_v71, main_v72, main_c_7, main_v73, main_v74, main_v75, main_v76, main_v77, main_v78, main_v79, main_cst_8, main_v80, main_v81, main_v82, main_v83, main_v84, main_v85, main_v86, main_v87, main_v88, main_v89, main_v90, main_v91, main_v92, main_v93, main_v94, main_v95, main_v96, main_v97, main_v98, main_v99, main_v100, main_v101, main_v102, main_v103, main_cst_9, main_call2_cst, main_call2_v0, main_call2_v1, main_call2_v2, main_call2_v3, main_call2_v4, main_v104]
set_option maxRecDepth 16384 in
theorem ops3_writes : (ops3 : List (HloOp τ sig (Elt F))).Forall fun op => op.writes ⊆ (ops3_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
/-- A reference `ops3` does not write keeps its contents through it. -/
theorem ops3_keep (V : Valuation τ sig (Elt F)) (r : Ref sig .tc) (h : r ∉ ops3_W) :
    after ops3 V (Proc.devRef .tc r) = V (Proc.devRef .tc r) :=
  after_of_writes_sub ops3 V ops3_writes h

/-- The references `ops4`'s operations write, in order. -/
abbrev ops4_W : List (Ref sig .tc) := [main_v105, main_c_10, main_v106, main_v107, main_c_11, main_v108, main_v109, main_v110, main_v111, main_v112, main_v113, main_v114, main_v115, main_v116, main_v117, main_c_12, main_v118, main_v119, main_c_13, main_v120, main_v121, main_c_14, main_v122, main_v123, main_v124, main_v125, main_v126, main_v127, main_v128, main_v129, main_v130, main_v131, main_v132, main_cst_15, main_v133]
set_option maxRecDepth 16384 in
theorem ops4_writes : (ops4 : List (HloOp τ sig (Elt F))).Forall fun op => op.writes ⊆ (ops4_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
/-- A reference `ops4` does not write keeps its contents through it. -/
theorem ops4_keep (V : Valuation τ sig (Elt F)) (r : Ref sig .tc) (h : r ∉ ops4_W) :
    after ops4 V (Proc.devRef .tc r) = V (Proc.devRef .tc r) :=
  after_of_writes_sub ops4 V ops4_writes h

/-- A reference no layer writes keeps its contents through @main. -/
theorem ops_keep (V : Valuation τ sig (Elt F)) (r : Ref sig .tc)
    (h1 : r ∉ ops1_W) (h2 : r ∉ ops2_W) (h3 : r ∉ ops3_W) (h4 : r ∉ ops4_W) :
    after (ops : List (HloOp τ sig (Elt F))) V (Proc.devRef .tc r) = V (Proc.devRef .tc r) := by
  rw [after_ops, ops4_keep _ r h4, ops3_keep _ r h3, ops2_keep _ r h2, ops1_keep _ r h1]

/-- No operation writes an argument: each of the twelve keeps its contents through @main. -/
theorem args_kept (V : Valuation τ sig (Elt F)) :
    after (ops : List (HloOp τ sig (Elt F))) V (Proc.devRef .tc main_arg0) = V (Proc.devRef .tc main_arg0)
    ∧ after (ops : List (HloOp τ sig (Elt F))) V (Proc.devRef .tc main_arg1) = V (Proc.devRef .tc main_arg1)
    ∧ after (ops : List (HloOp τ sig (Elt F))) V (Proc.devRef .tc main_arg2) = V (Proc.devRef .tc main_arg2)
    ∧ after (ops : List (HloOp τ sig (Elt F))) V (Proc.devRef .tc main_arg3) = V (Proc.devRef .tc main_arg3)
    ∧ after (ops : List (HloOp τ sig (Elt F))) V (Proc.devRef .tc main_arg4) = V (Proc.devRef .tc main_arg4)
    ∧ after (ops : List (HloOp τ sig (Elt F))) V (Proc.devRef .tc main_arg5) = V (Proc.devRef .tc main_arg5)
    ∧ after (ops : List (HloOp τ sig (Elt F))) V (Proc.devRef .tc main_arg6) = V (Proc.devRef .tc main_arg6)
    ∧ after (ops : List (HloOp τ sig (Elt F))) V (Proc.devRef .tc main_arg7) = V (Proc.devRef .tc main_arg7)
    ∧ after (ops : List (HloOp τ sig (Elt F))) V (Proc.devRef .tc main_arg8) = V (Proc.devRef .tc main_arg8)
    ∧ after (ops : List (HloOp τ sig (Elt F))) V (Proc.devRef .tc main_arg9) = V (Proc.devRef .tc main_arg9)
    ∧ after (ops : List (HloOp τ sig (Elt F))) V (Proc.devRef .tc main_arg10) = V (Proc.devRef .tc main_arg10)
    ∧ after (ops : List (HloOp τ sig (Elt F))) V (Proc.devRef .tc main_arg11) = V (Proc.devRef .tc main_arg11) :=
  ⟨ops_keep V main_arg0 (by decide) (by decide) (by decide) (by decide),
   ops_keep V main_arg1 (by decide) (by decide) (by decide) (by decide),
   ops_keep V main_arg2 (by decide) (by decide) (by decide) (by decide),
   ops_keep V main_arg3 (by decide) (by decide) (by decide) (by decide),
   ops_keep V main_arg4 (by decide) (by decide) (by decide) (by decide),
   ops_keep V main_arg5 (by decide) (by decide) (by decide) (by decide),
   ops_keep V main_arg6 (by decide) (by decide) (by decide) (by decide),
   ops_keep V main_arg7 (by decide) (by decide) (by decide) (by decide),
   ops_keep V main_arg8 (by decide) (by decide) (by decide) (by decide),
   ops_keep V main_arg9 (by decide) (by decide) (by decide) (by decide),
   ops_keep V main_arg10 (by decide) (by decide) (by decide) (by decide),
   ops_keep V main_arg11 (by decide) (by decide) (by decide) (by decide)⟩

/-- On every device, for any float values, from any memory with zero counters: every weakly fair execution of
    @main terminates with each argument at its launch contents. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    have k := args_kept (F := F) (launchContents m c)
    ⟨(h c main_arg0).trans k.1,
     (h c main_arg1).trans k.2.1,
     (h c main_arg2).trans k.2.2.1,
     (h c main_arg3).trans k.2.2.2.1,
     (h c main_arg4).trans k.2.2.2.2.1,
     (h c main_arg5).trans k.2.2.2.2.2.1,
     (h c main_arg6).trans k.2.2.2.2.2.2.1,
     (h c main_arg7).trans k.2.2.2.2.2.2.2.1,
     (h c main_arg8).trans k.2.2.2.2.2.2.2.2.1,
     (h c main_arg9).trans k.2.2.2.2.2.2.2.2.2.1,
     (h c main_arg10).trans k.2.2.2.2.2.2.2.2.2.2.1,
     (h c main_arg11).trans k.2.2.2.2.2.2.2.2.2.2.2⟩)
    (run_all m ρ)

end Cert.ReferenceIdeal.RefRun

end
-- ==== Proof.Assemble.lean ====
/-
  The algebraic conjunct from the value equation. Both programs run to the end (the kernel item by item, the reference
  operation by operation) with every buffer at a known function of the launch memory; the kernel's result buffer is
  taken as the witness, each program's arguments end as launched, and what remains is that the reference's result
  buffer, from a memory agreeing with the kernel's on the twelve arguments, holds the same array.
-/
import proofs.«142689_j30262339568120_1_alg».proof.Defs
import proofs.«142689_j30262339568120_1_alg».proof.Proof.KernelIdealRun
import proofs.«142689_j30262339568120_1_alg».proof.Proof.ReferenceFrame
import proofs.«142689_j30262339568120_1_alg».proof.Proof.Gen.Pre_finite_inputs

noncomputable section

namespace Cert.Proof

open Idealize.ShloMosaic Idealize.ShloMosaic.TcCoe Idealize.SL.Sem

/-- The two launch memories agree on the twelve arguments on core `c`. -/
def Agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

theorem algebraic_of_value
    (hval : ∀ (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
      (c : Dev Cert.KernelIdeal.nD), Agree m m' c →
      StableHlo.after (Cert.ReferenceIdeal.RefRun.ops (F := Ideal)) (StableHlo.launchContents m' c) (Proc.devRef .tc Cert.ReferenceIdeal.main_v133)
        = Cert.KernelIdeal.Frame.X9 m c (Proc.devRef .tc Cert.KernelIdeal.main_v91)) :
    Cert.algebraic_KernelIdeal_ReferenceIdeal := by
  intro m ρ m' ρ' _ hagree
  refine ⟨fun c => Cert.KernelIdeal.Frame.X9 m c (Proc.devRef .tc Cert.KernelIdeal.main_v91), ?_, ?_⟩
  · refine (θ_run (Cert.KernelIdeal.defs (F := Ideal)) _ _).mono (fun r h c => ?_) (Cert.KernelIdeal.Frame.run_all m ρ)
    exact ⟨h c _ (Cert.KernelIdeal.Frame.memUc Cert.KernelIdeal.main_v91 (by decide)),
      (h c _ (Cert.KernelIdeal.Frame.memUc Cert.KernelIdeal.main_arg0 (by decide))).trans (Cert.KernelIdeal.Frame.X9_main_arg0 m c),
      (h c _ (Cert.KernelIdeal.Frame.memUc Cert.KernelIdeal.main_arg1 (by decide))).trans (Cert.KernelIdeal.Frame.X9_main_arg1 m c),
      (h c _ (Cert.KernelIdeal.Frame.memUc Cert.KernelIdeal.main_arg2 (by decide))).trans (Cert.KernelIdeal.Frame.X9_main_arg2 m c),
      (h c _ (Cert.KernelIdeal.Frame.memUc Cert.KernelIdeal.main_arg3 (by decide))).trans (Cert.KernelIdeal.Frame.X9_main_arg3 m c),
      (h c _ (Cert.KernelIdeal.Frame.memUc Cert.KernelIdeal.main_arg4 (by decide))).trans (Cert.KernelIdeal.Frame.X9_main_arg4 m c),
      (h c _ (Cert.KernelIdeal.Frame.memUc Cert.KernelIdeal.main_arg5 (by decide))).trans (Cert.KernelIdeal.Frame.X9_main_arg5 m c),
      (h c _ (Cert.KernelIdeal.Frame.memUc Cert.KernelIdeal.main_arg6 (by decide))).trans (Cert.KernelIdeal.Frame.X9_main_arg6 m c),
      (h c _ (Cert.KernelIdeal.Frame.memUc Cert.KernelIdeal.main_arg7 (by decide))).trans (Cert.KernelIdeal.Frame.X9_main_arg7 m c),
      (h c _ (Cert.KernelIdeal.Frame.memUc Cert.KernelIdeal.main_arg8 (by decide))).trans (Cert.KernelIdeal.Frame.X9_main_arg8 m c),
      (h c _ (Cert.KernelIdeal.Frame.memUc Cert.KernelIdeal.main_arg9 (by decide))).trans (Cert.KernelIdeal.Frame.X9_main_arg9 m c),
      (h c _ (Cert.KernelIdeal.Frame.memUc Cert.KernelIdeal.main_arg10 (by decide))).trans (Cert.KernelIdeal.Frame.X9_main_arg10 m c),
      (h c _ (Cert.KernelIdeal.Frame.memUc Cert.KernelIdeal.main_arg11 (by decide))).trans (Cert.KernelIdeal.Frame.X9_main_arg11 m c)⟩
  · refine (θ_run (Cert.ReferenceIdeal.defs (F := Ideal)) _ _).mono (fun r h c => ?_) (Cert.ReferenceIdeal.RefRun.run_all m' ρ')
    have hk := Cert.ReferenceIdeal.RefRun.args_kept (F := Ideal) (StableHlo.launchContents m' c)
    exact ⟨(h c Cert.ReferenceIdeal.main_v133).trans (hval m m' c (hagree c)),
      (h c Cert.ReferenceIdeal.main_arg0).trans hk.1,
      (h c Cert.ReferenceIdeal.main_arg1).trans hk.2.1,
      (h c Cert.ReferenceIdeal.main_arg2).trans hk.2.2.1,
      (h c Cert.ReferenceIdeal.main_arg3).trans hk.2.2.2.1,
      (h c Cert.ReferenceIdeal.main_arg4).trans hk.2.2.2.2.1,
      (h c Cert.ReferenceIdeal.main_arg5).trans hk.2.2.2.2.2.1,
      (h c Cert.ReferenceIdeal.main_arg6).trans hk.2.2.2.2.2.2.1,
      (h c Cert.ReferenceIdeal.main_arg7).trans hk.2.2.2.2.2.2.2.1,
      (h c Cert.ReferenceIdeal.main_arg8).trans hk.2.2.2.2.2.2.2.2.1,
      (h c Cert.ReferenceIdeal.main_arg9).trans hk.2.2.2.2.2.2.2.2.2.1,
      (h c Cert.ReferenceIdeal.main_arg10).trans hk.2.2.2.2.2.2.2.2.2.2.1,
      (h c Cert.ReferenceIdeal.main_arg11).trans hk.2.2.2.2.2.2.2.2.2.2.2⟩

end Cert.Proof

end
-- ==== Proof.KernelIdealKept.lean ====
/-
  Buffers carried unchanged between the items of the kernel's @main: an argument array, or an earlier layer's output,
  followed from the boundary where a later item reads it back to the boundary where it was produced. A host stretch
  leaves alone every buffer it does not write; a region leaves alone every buffer that is not one of its arrays, and an
  array it only reads through an input window ends as it was entered.
-/
import proofs.«142689_j30262339568120_1_alg».proof.Proof.KernelIdealRun

set_option maxRecDepth 16384

noncomputable section

namespace Cert.KernelIdeal.Frame

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem keep1_main_arg0 (c : Dev nD) : X1 m c (Proc.devRef .tc main_arg0) = m ((c : Thread nD τ).loc main_arg0) :=
  calc X1 m c (Proc.devRef .tc main_arg0)
    _ = X0 m c (Proc.devRef .tc main_arg0) := StableHlo.after_of_writes_sub hostOps0 _ hostOps0_writes (by decide : main_arg0 ∉ hostOps0_W)
    _ = m ((c : Thread nD τ).loc main_arg0) := rfl

theorem keep2_main_arg1 (c : Dev nD) : X2 m c (Proc.devRef .tc main_arg1) = m ((c : Thread nD τ).loc main_arg1) :=
  calc X2 m c (Proc.devRef .tc main_arg1)
    _ = X1 m c (Proc.devRef .tc main_arg1) := X2_of_ne m c main_arg1 (by decide)
    _ = X0 m c (Proc.devRef .tc main_arg1) := StableHlo.after_of_writes_sub hostOps0 _ hostOps0_writes (by decide : main_arg1 ∉ hostOps0_W)
    _ = m ((c : Thread nD τ).loc main_arg1) := rfl

theorem keep2_main_arg2 (c : Dev nD) : X2 m c (Proc.devRef .tc main_arg2) = m ((c : Thread nD τ).loc main_arg2) :=
  calc X2 m c (Proc.devRef .tc main_arg2)
    _ = X1 m c (Proc.devRef .tc main_arg2) := X2_of_ne m c main_arg2 (by decide)
    _ = X0 m c (Proc.devRef .tc main_arg2) := StableHlo.after_of_writes_sub hostOps0 _ hostOps0_writes (by decide : main_arg2 ∉ hostOps0_W)
    _ = m ((c : Thread nD τ).loc main_arg2) := rfl

theorem keep2_main_arg3 (c : Dev nD) : X2 m c (Proc.devRef .tc main_arg3) = m ((c : Thread nD τ).loc main_arg3) :=
  calc X2 m c (Proc.devRef .tc main_arg3)
    _ = X1 m c (Proc.devRef .tc main_arg3) := X2_of_ne m c main_arg3 (by decide)
    _ = X0 m c (Proc.devRef .tc main_arg3) := StableHlo.after_of_writes_sub hostOps0 _ hostOps0_writes (by decide : main_arg3 ∉ hostOps0_W)
    _ = m ((c : Thread nD τ).loc main_arg3) := rfl

theorem keep2_main_arg6 (c : Dev nD) : X2 m c (Proc.devRef .tc main_arg6) = m ((c : Thread nD τ).loc main_arg6) :=
  calc X2 m c (Proc.devRef .tc main_arg6)
    _ = X1 m c (Proc.devRef .tc main_arg6) := X2_of_ne m c main_arg6 (by decide)
    _ = X0 m c (Proc.devRef .tc main_arg6) := StableHlo.after_of_writes_sub hostOps0 _ hostOps0_writes (by decide : main_arg6 ∉ hostOps0_W)
    _ = m ((c : Thread nD τ).loc main_arg6) := rfl

theorem keep2_main_arg7 (c : Dev nD) : X2 m c (Proc.devRef .tc main_arg7) = m ((c : Thread nD τ).loc main_arg7) :=
  calc X2 m c (Proc.devRef .tc main_arg7)
    _ = X1 m c (Proc.devRef .tc main_arg7) := X2_of_ne m c main_arg7 (by decide)
    _ = X0 m c (Proc.devRef .tc main_arg7) := StableHlo.after_of_writes_sub hostOps0 _ hostOps0_writes (by decide : main_arg7 ∉ hostOps0_W)
    _ = m ((c : Thread nD τ).loc main_arg7) := rfl

theorem keep2_main_arg8 (c : Dev nD) : X2 m c (Proc.devRef .tc main_arg8) = m ((c : Thread nD τ).loc main_arg8) :=
  calc X2 m c (Proc.devRef .tc main_arg8)
    _ = X1 m c (Proc.devRef .tc main_arg8) := X2_of_ne m c main_arg8 (by decide)
    _ = X0 m c (Proc.devRef .tc main_arg8) := StableHlo.after_of_writes_sub hostOps0 _ hostOps0_writes (by decide : main_arg8 ∉ hostOps0_W)
    _ = m ((c : Thread nD τ).loc main_arg8) := rfl

theorem keep2_main_arg9 (c : Dev nD) : X2 m c (Proc.devRef .tc main_arg9) = m ((c : Thread nD τ).loc main_arg9) :=
  calc X2 m c (Proc.devRef .tc main_arg9)
    _ = X1 m c (Proc.devRef .tc main_arg9) := X2_of_ne m c main_arg9 (by decide)
    _ = X0 m c (Proc.devRef .tc main_arg9) := StableHlo.after_of_writes_sub hostOps0 _ hostOps0_writes (by decide : main_arg9 ∉ hostOps0_W)
    _ = m ((c : Thread nD τ).loc main_arg9) := rfl

theorem keep4_main_arg1 (c : Dev nD) : X4 m c (Proc.devRef .tc main_arg1) = m ((c : Thread nD τ).loc main_arg1) :=
  calc X4 m c (Proc.devRef .tc main_arg1)
    _ = X3 m c (Proc.devRef .tc main_arg1) := X4_of_ne m c main_arg1 (by decide)
    _ = X2 m c (Proc.devRef .tc main_arg1) := StableHlo.after_of_writes_sub hostOps1 _ hostOps1_writes (by decide : main_arg1 ∉ hostOps1_W)
    _ = X1 m c (Proc.devRef .tc main_arg1) := X2_of_ne m c main_arg1 (by decide)
    _ = X0 m c (Proc.devRef .tc main_arg1) := StableHlo.after_of_writes_sub hostOps0 _ hostOps0_writes (by decide : main_arg1 ∉ hostOps0_W)
    _ = m ((c : Thread nD τ).loc main_arg1) := rfl

theorem keep4_main_arg2 (c : Dev nD) : X4 m c (Proc.devRef .tc main_arg2) = m ((c : Thread nD τ).loc main_arg2) :=
  calc X4 m c (Proc.devRef .tc main_arg2)
    _ = X3 m c (Proc.devRef .tc main_arg2) := X4_of_ne m c main_arg2 (by decide)
    _ = X2 m c (Proc.devRef .tc main_arg2) := StableHlo.after_of_writes_sub hostOps1 _ hostOps1_writes (by decide : main_arg2 ∉ hostOps1_W)
    _ = X1 m c (Proc.devRef .tc main_arg2) := X2_of_ne m c main_arg2 (by decide)
    _ = X0 m c (Proc.devRef .tc main_arg2) := StableHlo.after_of_writes_sub hostOps0 _ hostOps0_writes (by decide : main_arg2 ∉ hostOps0_W)
    _ = m ((c : Thread nD τ).loc main_arg2) := rfl

theorem keep4_main_arg3 (c : Dev nD) : X4 m c (Proc.devRef .tc main_arg3) = m ((c : Thread nD τ).loc main_arg3) :=
  calc X4 m c (Proc.devRef .tc main_arg3)
    _ = X3 m c (Proc.devRef .tc main_arg3) := X4_of_ne m c main_arg3 (by decide)
    _ = X2 m c (Proc.devRef .tc main_arg3) := StableHlo.after_of_writes_sub hostOps1 _ hostOps1_writes (by decide : main_arg3 ∉ hostOps1_W)
    _ = X1 m c (Proc.devRef .tc main_arg3) := X2_of_ne m c main_arg3 (by decide)
    _ = X0 m c (Proc.devRef .tc main_arg3) := StableHlo.after_of_writes_sub hostOps0 _ hostOps0_writes (by decide : main_arg3 ∉ hostOps0_W)
    _ = m ((c : Thread nD τ).loc main_arg3) := rfl

theorem keep4_main_arg6 (c : Dev nD) : X4 m c (Proc.devRef .tc main_arg6) = m ((c : Thread nD τ).loc main_arg6) :=
  calc X4 m c (Proc.devRef .tc main_arg6)
    _ = X3 m c (Proc.devRef .tc main_arg6) := X4_of_ne m c main_arg6 (by decide)
    _ = X2 m c (Proc.devRef .tc main_arg6) := StableHlo.after_of_writes_sub hostOps1 _ hostOps1_writes (by decide : main_arg6 ∉ hostOps1_W)
    _ = X1 m c (Proc.devRef .tc main_arg6) := X2_of_ne m c main_arg6 (by decide)
    _ = X0 m c (Proc.devRef .tc main_arg6) := StableHlo.after_of_writes_sub hostOps0 _ hostOps0_writes (by decide : main_arg6 ∉ hostOps0_W)
    _ = m ((c : Thread nD τ).loc main_arg6) := rfl

theorem keep4_main_arg7 (c : Dev nD) : X4 m c (Proc.devRef .tc main_arg7) = m ((c : Thread nD τ).loc main_arg7) :=
  calc X4 m c (Proc.devRef .tc main_arg7)
    _ = X3 m c (Proc.devRef .tc main_arg7) := X4_of_ne m c main_arg7 (by decide)
    _ = X2 m c (Proc.devRef .tc main_arg7) := StableHlo.after_of_writes_sub hostOps1 _ hostOps1_writes (by decide : main_arg7 ∉ hostOps1_W)
    _ = X1 m c (Proc.devRef .tc main_arg7) := X2_of_ne m c main_arg7 (by decide)
    _ = X0 m c (Proc.devRef .tc main_arg7) := StableHlo.after_of_writes_sub hostOps0 _ hostOps0_writes (by decide : main_arg7 ∉ hostOps0_W)
    _ = m ((c : Thread nD τ).loc main_arg7) := rfl

theorem keep4_main_arg8 (c : Dev nD) : X4 m c (Proc.devRef .tc main_arg8) = m ((c : Thread nD τ).loc main_arg8) :=
  calc X4 m c (Proc.devRef .tc main_arg8)
    _ = X3 m c (Proc.devRef .tc main_arg8) := X4_of_ne m c main_arg8 (by decide)
    _ = X2 m c (Proc.devRef .tc main_arg8) := StableHlo.after_of_writes_sub hostOps1 _ hostOps1_writes (by decide : main_arg8 ∉ hostOps1_W)
    _ = X1 m c (Proc.devRef .tc main_arg8) := X2_of_ne m c main_arg8 (by decide)
    _ = X0 m c (Proc.devRef .tc main_arg8) := StableHlo.after_of_writes_sub hostOps0 _ hostOps0_writes (by decide : main_arg8 ∉ hostOps0_W)
    _ = m ((c : Thread nD τ).loc main_arg8) := rfl

theorem keep4_main_arg9 (c : Dev nD) : X4 m c (Proc.devRef .tc main_arg9) = m ((c : Thread nD τ).loc main_arg9) :=
  calc X4 m c (Proc.devRef .tc main_arg9)
    _ = X3 m c (Proc.devRef .tc main_arg9) := X4_of_ne m c main_arg9 (by decide)
    _ = X2 m c (Proc.devRef .tc main_arg9) := StableHlo.after_of_writes_sub hostOps1 _ hostOps1_writes (by decide : main_arg9 ∉ hostOps1_W)
    _ = X1 m c (Proc.devRef .tc main_arg9) := X2_of_ne m c main_arg9 (by decide)
    _ = X0 m c (Proc.devRef .tc main_arg9) := StableHlo.after_of_writes_sub hostOps0 _ hostOps0_writes (by decide : main_arg9 ∉ hostOps0_W)
    _ = m ((c : Thread nD τ).loc main_arg9) := rfl

theorem keep3_main_v23 (c : Dev nD) : X3 m c (Proc.devRef .tc main_v23) = X2 m c (Proc.devRef .tc main_v23) :=
  calc X3 m c (Proc.devRef .tc main_v23)
    _ = X2 m c (Proc.devRef .tc main_v23) := StableHlo.after_of_writes_sub hostOps1 _ hostOps1_writes (by decide : main_v23 ∉ hostOps1_W)

theorem keep5_main_v47 (c : Dev nD) : X5 m c (Proc.devRef .tc main_v47) = X4 m c (Proc.devRef .tc main_v47) :=
  calc X5 m c (Proc.devRef .tc main_v47)
    _ = X4 m c (Proc.devRef .tc main_v47) := StableHlo.after_of_writes_sub hostOps2 _ hostOps2_writes (by decide : main_v47 ∉ hostOps2_W)

theorem keep6_main_arg0 (c : Dev nD) : X6 m c (Proc.devRef .tc main_arg0) = m ((c : Thread nD τ).loc main_arg0) :=
  calc X6 m c (Proc.devRef .tc main_arg0)
    _ = X5 m c (Proc.devRef .tc main_arg0) := X6_of_ne m c main_arg0 (by decide)
    _ = X4 m c (Proc.devRef .tc main_arg0) := StableHlo.after_of_writes_sub hostOps2 _ hostOps2_writes (by decide : main_arg0 ∉ hostOps2_W)
    _ = X3 m c (Proc.devRef .tc main_arg0) := X4_of_ne m c main_arg0 (by decide)
    _ = X2 m c (Proc.devRef .tc main_arg0) := StableHlo.after_of_writes_sub hostOps1 _ hostOps1_writes (by decide : main_arg0 ∉ hostOps1_W)
    _ = X1 m c (Proc.devRef .tc main_arg0) := (X2_arr m c 1).trans (((dat0 (Y1 m) c).arrAt_in 1 rfl _).trans (A_eq0 (Y1 m) c 1))
    _ = X0 m c (Proc.devRef .tc main_arg0) := StableHlo.after_of_writes_sub hostOps0 _ hostOps0_writes (by decide : main_arg0 ∉ hostOps0_W)
    _ = m ((c : Thread nD τ).loc main_arg0) := rfl

theorem keep6_main_arg4 (c : Dev nD) : X6 m c (Proc.devRef .tc main_arg4) = m ((c : Thread nD τ).loc main_arg4) :=
  calc X6 m c (Proc.devRef .tc main_arg4)
    _ = X5 m c (Proc.devRef .tc main_arg4) := X6_of_ne m c main_arg4 (by decide)
    _ = X4 m c (Proc.devRef .tc main_arg4) := StableHlo.after_of_writes_sub hostOps2 _ hostOps2_writes (by decide : main_arg4 ∉ hostOps2_W)
    _ = X3 m c (Proc.devRef .tc main_arg4) := X4_of_ne m c main_arg4 (by decide)
    _ = X2 m c (Proc.devRef .tc main_arg4) := StableHlo.after_of_writes_sub hostOps1 _ hostOps1_writes (by decide : main_arg4 ∉ hostOps1_W)
    _ = X1 m c (Proc.devRef .tc main_arg4) := X2_of_ne m c main_arg4 (by decide)
    _ = X0 m c (Proc.devRef .tc main_arg4) := StableHlo.after_of_writes_sub hostOps0 _ hostOps0_writes (by decide : main_arg4 ∉ hostOps0_W)
    _ = m ((c : Thread nD τ).loc main_arg4) := rfl

theorem keep6_main_arg5 (c : Dev nD) : X6 m c (Proc.devRef .tc main_arg5) = m ((c : Thread nD τ).loc main_arg5) :=
  calc X6 m c (Proc.devRef .tc main_arg5)
    _ = X5 m c (Proc.devRef .tc main_arg5) := X6_of_ne m c main_arg5 (by decide)
    _ = X4 m c (Proc.devRef .tc main_arg5) := StableHlo.after_of_writes_sub hostOps2 _ hostOps2_writes (by decide : main_arg5 ∉ hostOps2_W)
    _ = X3 m c (Proc.devRef .tc main_arg5) := X4_of_ne m c main_arg5 (by decide)
    _ = X2 m c (Proc.devRef .tc main_arg5) := StableHlo.after_of_writes_sub hostOps1 _ hostOps1_writes (by decide : main_arg5 ∉ hostOps1_W)
    _ = X1 m c (Proc.devRef .tc main_arg5) := X2_of_ne m c main_arg5 (by decide)
    _ = X0 m c (Proc.devRef .tc main_arg5) := StableHlo.after_of_writes_sub hostOps0 _ hostOps0_writes (by decide : main_arg5 ∉ hostOps0_W)
    _ = m ((c : Thread nD τ).loc main_arg5) := rfl

theorem keep6_main_arg10 (c : Dev nD) : X6 m c (Proc.devRef .tc main_arg10) = m ((c : Thread nD τ).loc main_arg10) :=
  calc X6 m c (Proc.devRef .tc main_arg10)
    _ = X5 m c (Proc.devRef .tc main_arg10) := X6_of_ne m c main_arg10 (by decide)
    _ = X4 m c (Proc.devRef .tc main_arg10) := StableHlo.after_of_writes_sub hostOps2 _ hostOps2_writes (by decide : main_arg10 ∉ hostOps2_W)
    _ = X3 m c (Proc.devRef .tc main_arg10) := X4_of_ne m c main_arg10 (by decide)
    _ = X2 m c (Proc.devRef .tc main_arg10) := StableHlo.after_of_writes_sub hostOps1 _ hostOps1_writes (by decide : main_arg10 ∉ hostOps1_W)
    _ = X1 m c (Proc.devRef .tc main_arg10) := X2_of_ne m c main_arg10 (by decide)
    _ = X0 m c (Proc.devRef .tc main_arg10) := StableHlo.after_of_writes_sub hostOps0 _ hostOps0_writes (by decide : main_arg10 ∉ hostOps0_W)
    _ = m ((c : Thread nD τ).loc main_arg10) := rfl

theorem keep6_main_arg11 (c : Dev nD) : X6 m c (Proc.devRef .tc main_arg11) = m ((c : Thread nD τ).loc main_arg11) :=
  calc X6 m c (Proc.devRef .tc main_arg11)
    _ = X5 m c (Proc.devRef .tc main_arg11) := X6_of_ne m c main_arg11 (by decide)
    _ = X4 m c (Proc.devRef .tc main_arg11) := StableHlo.after_of_writes_sub hostOps2 _ hostOps2_writes (by decide : main_arg11 ∉ hostOps2_W)
    _ = X3 m c (Proc.devRef .tc main_arg11) := X4_of_ne m c main_arg11 (by decide)
    _ = X2 m c (Proc.devRef .tc main_arg11) := StableHlo.after_of_writes_sub hostOps1 _ hostOps1_writes (by decide : main_arg11 ∉ hostOps1_W)
    _ = X1 m c (Proc.devRef .tc main_arg11) := X2_of_ne m c main_arg11 (by decide)
    _ = X0 m c (Proc.devRef .tc main_arg11) := StableHlo.after_of_writes_sub hostOps0 _ hostOps0_writes (by decide : main_arg11 ∉ hostOps0_W)
    _ = m ((c : Thread nD τ).loc main_arg11) := rfl

theorem keep6_main_v23 (c : Dev nD) : X6 m c (Proc.devRef .tc main_v23) = X2 m c (Proc.devRef .tc main_v23) :=
  calc X6 m c (Proc.devRef .tc main_v23)
    _ = X5 m c (Proc.devRef .tc main_v23) := X6_of_ne m c main_v23 (by decide)
    _ = X4 m c (Proc.devRef .tc main_v23) := StableHlo.after_of_writes_sub hostOps2 _ hostOps2_writes (by decide : main_v23 ∉ hostOps2_W)
    _ = X3 m c (Proc.devRef .tc main_v23) := (X4_arr m c 1).trans (((dat1 (Y3 m) c).arrAt_in 1 rfl _).trans (A_eq1 (Y3 m) c 1))
    _ = X2 m c (Proc.devRef .tc main_v23) := StableHlo.after_of_writes_sub hostOps1 _ hostOps1_writes (by decide : main_v23 ∉ hostOps1_W)

theorem keep6_main_v47 (c : Dev nD) : X6 m c (Proc.devRef .tc main_v47) = X4 m c (Proc.devRef .tc main_v47) :=
  calc X6 m c (Proc.devRef .tc main_v47)
    _ = X5 m c (Proc.devRef .tc main_v47) := (X6_arr m c 1).trans (((dat2 (Y5 m) c).arrAt_in 1 rfl _).trans (A_eq2 (Y5 m) c 1))
    _ = X4 m c (Proc.devRef .tc main_v47) := StableHlo.after_of_writes_sub hostOps2 _ hostOps2_writes (by decide : main_v47 ∉ hostOps2_W)

theorem keep7_main_arg10 (c : Dev nD) : X7 m c (Proc.devRef .tc main_arg10) = m ((c : Thread nD τ).loc main_arg10) :=
  calc X7 m c (Proc.devRef .tc main_arg10)
    _ = X6 m c (Proc.devRef .tc main_arg10) := StableHlo.after_of_writes_sub hostOps3 _ hostOps3_writes (by decide : main_arg10 ∉ hostOps3_W)
    _ = X5 m c (Proc.devRef .tc main_arg10) := X6_of_ne m c main_arg10 (by decide)
    _ = X4 m c (Proc.devRef .tc main_arg10) := StableHlo.after_of_writes_sub hostOps2 _ hostOps2_writes (by decide : main_arg10 ∉ hostOps2_W)
    _ = X3 m c (Proc.devRef .tc main_arg10) := X4_of_ne m c main_arg10 (by decide)
    _ = X2 m c (Proc.devRef .tc main_arg10) := StableHlo.after_of_writes_sub hostOps1 _ hostOps1_writes (by decide : main_arg10 ∉ hostOps1_W)
    _ = X1 m c (Proc.devRef .tc main_arg10) := X2_of_ne m c main_arg10 (by decide)
    _ = X0 m c (Proc.devRef .tc main_arg10) := StableHlo.after_of_writes_sub hostOps0 _ hostOps0_writes (by decide : main_arg10 ∉ hostOps0_W)
    _ = m ((c : Thread nD τ).loc main_arg10) := rfl

end Cert.KernelIdeal.Frame

end
-- ==== Proof.KernelIdealHost.lean ====
/-
  What the kernel's host stretches leave in the buffers the regions then take, read off the stretches' operations.
  Before layer l the host computes the sparse aggregation of the previous features (gather the rows `cols`, scale by
  `vals`, scatter-add at `rows`: one composed term, `spmm`) and cuts layer l's weights and biases out of the stacked
  arguments: the 64×64 weight read at (q, k) is the stacked weight at (l, q, k), the bias row read at (0, q) is the
  stacked bias at (l, q). Before the scoring region the host concatenates the four feature arrays along the columns,
  gathers the rows `users` and `100000 + items` (a negative row number wrapped by 150000), and lays the projection's
  bias out as a row; after it, the 4096×1 result is cast to a vector.
-/
import proofs.«142689_j30262339568120_1_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.HostValue

open Cert.KernelIdeal Cert.KernelIdeal.Gen
open Idealize.ShloMosaic Idealize.ShloMosaic.TcCoe Idealize.SL.Sem Idealize.ShloMosaic.StableHlo Idealize.ShloMosaic.ValueIdx

/-! ## Layout: a slab of a stacked array, cast down -/

section Layout
variable {α : Type}

/-- Slab `l` of a stacked [3, 64, 64] array, cast to [64, 64], read at (q, k), is the stacked array at (l, q, k). -/
theorem slabMat_apply (off : Fin 3 → ℕ) (l : Fin 3) (h0 : off 0 = l.val) (h1 : off 1 = 0) (h2 : off 2 = 0)
    (W : (⟨3, ![3, 64, 64]⟩ : Shape).Idx → α) (hs : (⟨3, ![3, 64, 64]⟩ : Shape).Slices off ⟨3, ![1, 64, 64]⟩)
    (hc : (⟨3, ![1, 64, 64]⟩ : Shape).ShapeCasts ⟨2, ![64, 64]⟩) (q k : Fin 64) :
    shapeCast ⟨2, ![64, 64]⟩ (extractStridedSlice ⟨3, ![1, 64, 64]⟩ off W hs) hc (ix2 q k) = W (ix3 l q k) := by
  rw [shapeCast_1ab_ab_apply]
  exact extractStridedSlice_apply off W hs (ix3 (0 : Fin 1) q k) (ix3 l q k) (fun a => by
    match a with
    | ⟨0, _⟩ => show l.val = off 0 + 0; rw [h0, Nat.add_zero]
    | ⟨1, _⟩ => show q.val = off 1 + q.val; rw [h1, Nat.zero_add]
    | ⟨2, _⟩ => show k.val = off 2 + k.val; rw [h2, Nat.zero_add])

/-- Row `l` of a stacked [3, 64] array, cast to a vector and back to a row, read at (u, q), is the stacked array at (l, q). -/
theorem slabRow_apply (off : Fin 2 → ℕ) (l : Fin 3) (h0 : off 0 = l.val) (h1 : off 1 = 0)
    (b : (⟨2, ![3, 64]⟩ : Shape).Idx → α) (hs : (⟨2, ![3, 64]⟩ : Shape).Slices off ⟨2, ![1, 64]⟩)
    (hc1 : (⟨2, ![1, 64]⟩ : Shape).ShapeCasts ⟨1, ![64]⟩) (hc2 : (⟨1, ![64]⟩ : Shape).ShapeCasts ⟨2, ![1, 64]⟩) (u : Fin 1) (q : Fin 64) :
    shapeCast ⟨2, ![1, 64]⟩ (shapeCast ⟨1, ![64]⟩ (extractStridedSlice ⟨2, ![1, 64]⟩ off b hs) hc1) hc2 (ix2 u q) = b (ix2 l q) := by
  rw [shapeCast_a_1a_apply, shapeCast_1a_a_apply]
  exact extractStridedSlice_apply off b hs (ix2 (0 : Fin 1) q) (ix2 l q) (fun a => by
    match a with
    | ⟨0, _⟩ => show l.val = off 0 + 0; rw [h0, Nat.add_zero]
    | ⟨1, _⟩ => show q.val = off 1 + q.val; rw [h1, Nat.zero_add])

/-- A column [n, 1] cast to a vector [n], read at i, is the column at (i, 0). -/
theorem column_vec_apply {n : ℕ} (x : (⟨2, ![n, 1]⟩ : Shape).Idx → α) (h : (⟨2, ![n, 1]⟩ : Shape).ShapeCasts ⟨1, ![n]⟩) (i : Fin n) :
    shapeCast ⟨1, ![n]⟩ x h (ix1 i) = x (ix2 i (0 : Fin 1)) :=
  shapeCast_apply x h _ _ (by
    rw [Shape.rowMajor_val_two, Shape.rowMajor_val_one]
    show i.val * 1 + 0 = i.val
    omega)

end Layout

variable {F : FTy → Type} [FloatOps F]

/-! ## The host terms -/

/-- The sparse aggregation of `x`: rows `cols` of `x` (a negative row number wrapped by 150000) scaled by `vals`,
    scatter-added at `rows` into the zero array. -/
def spmm (x : (⟨S150000x64, .f32⟩ : BufTy).Contents (Elt F)) (rows cols : (⟨S2400000, .i32⟩ : BufTy).Contents (Elt F))
    (vals : (⟨S2400000, .f32⟩ : BufTy).Contents (Elt F)) : (⟨S150000x64, .f32⟩ : BufTy).Contents (Elt F) :=
  Host.scatterAdd scatter_S150000x64_S2400000x1_S2400000x64_1_0_0_1
    (broadcastInDim S150000x64 ![] bcast_S_S150000x64 (constant (F := F) S_ .f32 0x00000000#32))
    (broadcastInDim S2400000x1 ![0] bcast_S2400000_S2400000x1_0 rows)
    (mulf (broadcastInDim S2400000x64 ![0, 1] bcast_S2400000x1_S2400000x64_0_1 (broadcastInDim S2400000x1 ![0] bcast_S2400000_S2400000x1_0 vals))
      (Host.gather gather_S150000x64_S2400000x1_S2400000x64_1_0_n_n_0_1_164 x
        (broadcastInDim S2400000x1 ![0] bcast_S2400000_S2400000x1_0
          (select (cmpi .slt cols (broadcastInDim S2400000 ![] bcast_S_S2400000 (constantI S_ 32 0#32)))
            (addi cols (broadcastInDim S2400000 ![] bcast_S_S2400000 (constantI S_ 32 150000#32))) cols))))

/-- The four feature arrays side by side. -/
def concat4 (x0 x1 x2 x3 : (⟨S150000x64, .f32⟩ : BufTy).Contents (Elt F)) : (⟨S150000x256, .f32⟩ : BufTy).Contents (Elt F) :=
  concatenate S150000x256 1 [⟨S150000x64, x0⟩, ⟨S150000x64, x1⟩, ⟨S150000x64, x2⟩, ⟨S150000x64, x3⟩]
    concatenates_S150000x64_S150000x64_S150000x64_S150000x64_S150000x256_d1

/-- The rows of `final` at the row numbers `u`, a negative one wrapped by 150000. -/
def gatherRows (final : (⟨S150000x256, .f32⟩ : BufTy).Contents (Elt F)) (u : (⟨S4096, .i32⟩ : BufTy).Contents (Elt F)) :
    (⟨S4096x256, .f32⟩ : BufTy).Contents (Elt F) :=
  Host.gather gather_S150000x256_S4096x1_S4096x256_1_0_n_n_0_1_1256 final
    (broadcastInDim S4096x1 ![0] bcast_S4096_S4096x1_0
      (select (cmpi .slt u (broadcastInDim S4096 ![] bcast_S_S4096 (constantI S_ 32 0#32)))
        (addi u (broadcastInDim S4096 ![] bcast_S_S4096 (constantI S_ 32 150000#32))) u))

/-- The item row numbers: 100000 + items. -/
def shiftItems (items : (⟨S4096, .i32⟩ : BufTy).Contents (Elt F)) : (⟨S4096, .i32⟩ : BufTy).Contents (Elt F) :=
  addi (broadcastInDim S4096 ![] bcast_S_S4096 (constantI S_ 32 100000#32)) items

/-! ## The stretches before the three layers -/

set_option maxHeartbeats 1600000 in
/-- Stretch 0 leaves in `main_v12` the sparse aggregation of `main_arg0`. -/
theorem agg0 (V : Valuation τ sig (Elt F)) :
    after hostOps0 V (Proc.devRef .tc main_v12) = spmm (V (Proc.devRef .tc main_arg0)) (V (Proc.devRef .tc main_arg1)) (V (Proc.devRef .tc main_arg2)) (V (Proc.devRef .tc main_arg3)) := by
  after_results_simp; rfl

set_option maxHeartbeats 1600000 in
/-- and layer 1's first weight, read at (q, k), is the stacked one at (0, q, k); -/
theorem w1_0 (V : Valuation τ sig (Elt F)) (q k : Fin 64) :
    (after hostOps0 V (Proc.devRef .tc main_v14) : S64x64.Idx → Elt F .f32) (ix2 q k) = (V (Proc.devRef .tc main_arg6) : S3x64x64.Idx → Elt F .f32) (ix3 (0 : Fin 3) q k) := by
  have e : (after hostOps0 V (Proc.devRef .tc main_v14) : S64x64.Idx → Elt F .f32)
      = shapeCast S64x64 (extractStridedSlice S1x64x64 ![0, 0, 0] (V (Proc.devRef .tc main_arg6)) slices_S3x64x64_S1x64x64_0_0_0) shapeCasts_S1x64x64_S64x64 := by
    after_results_simp; rfl
  rw [e]; exact slabMat_apply ![0, 0, 0] (0 : Fin 3) rfl rfl rfl _ _ _ q k

set_option maxHeartbeats 1600000 in
/-- its second weight likewise; -/
theorem w2_0 (V : Valuation τ sig (Elt F)) (q k : Fin 64) :
    (after hostOps0 V (Proc.devRef .tc main_v18) : S64x64.Idx → Elt F .f32) (ix2 q k) = (V (Proc.devRef .tc main_arg8) : S3x64x64.Idx → Elt F .f32) (ix3 (0 : Fin 3) q k) := by
  have e : (after hostOps0 V (Proc.devRef .tc main_v18) : S64x64.Idx → Elt F .f32)
      = shapeCast S64x64 (extractStridedSlice S1x64x64 ![0, 0, 0] (V (Proc.devRef .tc main_arg8)) slices_S3x64x64_S1x64x64_0_0_0) shapeCasts_S1x64x64_S64x64 := by
    after_results_simp; rfl
  rw [e]; exact slabMat_apply ![0, 0, 0] (0 : Fin 3) rfl rfl rfl _ _ _ q k

set_option maxHeartbeats 1600000 in
/-- its first bias row, read at (u, q), is the stacked bias at (0, q); -/
theorem b1_0 (V : Valuation τ sig (Elt F)) (u : Fin 1) (q : Fin 64) :
    (after hostOps0 V (Proc.devRef .tc main_v21) : S1x64.Idx → Elt F .f32) (ix2 u q) = (V (Proc.devRef .tc main_arg7) : S3x64.Idx → Elt F .f32) (ix2 (0 : Fin 3) q) := by
  have e : (after hostOps0 V (Proc.devRef .tc main_v21) : S1x64.Idx → Elt F .f32)
      = shapeCast S1x64 (shapeCast S64 (extractStridedSlice S1x64 ![0, 0] (V (Proc.devRef .tc main_arg7)) slices_S3x64_S1x64_0_0) shapeCasts_S1x64_S64) shapeCasts_S64_S1x64 := by
    after_results_simp; rfl
  rw [e]; exact slabRow_apply ![0, 0] (0 : Fin 3) rfl rfl _ _ _ _ u q

set_option maxHeartbeats 1600000 in
/-- its second bias row likewise. -/
theorem b2_0 (V : Valuation τ sig (Elt F)) (u : Fin 1) (q : Fin 64) :
    (after hostOps0 V (Proc.devRef .tc main_v22) : S1x64.Idx → Elt F .f32) (ix2 u q) = (V (Proc.devRef .tc main_arg9) : S3x64.Idx → Elt F .f32) (ix2 (0 : Fin 3) q) := by
  have e : (after hostOps0 V (Proc.devRef .tc main_v22) : S1x64.Idx → Elt F .f32)
      = shapeCast S1x64 (shapeCast S64 (extractStridedSlice S1x64 ![0, 0] (V (Proc.devRef .tc main_arg9)) slices_S3x64_S1x64_0_0) shapeCasts_S1x64_S64) shapeCasts_S64_S1x64 := by
    after_results_simp; rfl
  rw [e]; exact slabRow_apply ![0, 0] (0 : Fin 3) rfl rfl _ _ _ _ u q

set_option maxHeartbeats 1600000 in
/-- Stretch 1 leaves in `main_v36` the sparse aggregation of `main_v23`. -/
theorem agg1 (V : Valuation τ sig (Elt F)) :
    after hostOps1 V (Proc.devRef .tc main_v36) = spmm (V (Proc.devRef .tc main_v23)) (V (Proc.devRef .tc main_arg1)) (V (Proc.devRef .tc main_arg2)) (V (Proc.devRef .tc main_arg3)) := by
  after_results_simp; rfl

set_option maxHeartbeats 1600000 in
/-- and layer 2's first weight, read at (q, k), is the stacked one at (1, q, k); -/
theorem w1_1 (V : Valuation τ sig (Elt F)) (q k : Fin 64) :
    (after hostOps1 V (Proc.devRef .tc main_v38) : S64x64.Idx → Elt F .f32) (ix2 q k) = (V (Proc.devRef .tc main_arg6) : S3x64x64.Idx → Elt F .f32) (ix3 (1 : Fin 3) q k) := by
  have e : (after hostOps1 V (Proc.devRef .tc main_v38) : S64x64.Idx → Elt F .f32)
      = shapeCast S64x64 (extractStridedSlice S1x64x64 ![1, 0, 0] (V (Proc.devRef .tc main_arg6)) slices_S3x64x64_S1x64x64_1_0_0) shapeCasts_S1x64x64_S64x64 := by
    after_results_simp; rfl
  rw [e]; exact slabMat_apply ![1, 0, 0] (1 : Fin 3) rfl rfl rfl _ _ _ q k

set_option maxHeartbeats 1600000 in
/-- its second weight likewise; -/
theorem w2_1 (V : Valuation τ sig (Elt F)) (q k : Fin 64) :
    (after hostOps1 V (Proc.devRef .tc main_v42) : S64x64.Idx → Elt F .f32) (ix2 q k) = (V (Proc.devRef .tc main_arg8) : S3x64x64.Idx → Elt F .f32) (ix3 (1 : Fin 3) q k) := by
  have e : (after hostOps1 V (Proc.devRef .tc main_v42) : S64x64.Idx → Elt F .f32)
      = shapeCast S64x64 (extractStridedSlice S1x64x64 ![1, 0, 0] (V (Proc.devRef .tc main_arg8)) slices_S3x64x64_S1x64x64_1_0_0) shapeCasts_S1x64x64_S64x64 := by
    after_results_simp; rfl
  rw [e]; exact slabMat_apply ![1, 0, 0] (1 : Fin 3) rfl rfl rfl _ _ _ q k

set_option maxHeartbeats 1600000 in
/-- its first bias row, read at (u, q), is the stacked bias at (1, q); -/
theorem b1_1 (V : Valuation τ sig (Elt F)) (u : Fin 1) (q : Fin 64) :
    (after hostOps1 V (Proc.devRef .tc main_v45) : S1x64.Idx → Elt F .f32) (ix2 u q) = (V (Proc.devRef .tc main_arg7) : S3x64.Idx → Elt F .f32) (ix2 (1 : Fin 3) q) := by
  have e : (after hostOps1 V (Proc.devRef .tc main_v45) : S1x64.Idx → Elt F .f32)
      = shapeCast S1x64 (shapeCast S64 (extractStridedSlice S1x64 ![1, 0] (V (Proc.devRef .tc main_arg7)) slices_S3x64_S1x64_1_0) shapeCasts_S1x64_S64) shapeCasts_S64_S1x64 := by
    after_results_simp; rfl
  rw [e]; exact slabRow_apply ![1, 0] (1 : Fin 3) rfl rfl _ _ _ _ u q

set_option maxHeartbeats 1600000 in
/-- its second bias row likewise. -/
theorem b2_1 (V : Valuation τ sig (Elt F)) (u : Fin 1) (q : Fin 64) :
    (after hostOps1 V (Proc.devRef .tc main_v46) : S1x64.Idx → Elt F .f32) (ix2 u q) = (V (Proc.devRef .tc main_arg9) : S3x64.Idx → Elt F .f32) (ix2 (1 : Fin 3) q) := by
  have e : (after hostOps1 V (Proc.devRef .tc main_v46) : S1x64.Idx → Elt F .f32)
      = shapeCast S1x64 (shapeCast S64 (extractStridedSlice S1x64 ![1, 0] (V (Proc.devRef .tc main_arg9)) slices_S3x64_S1x64_1_0) shapeCasts_S1x64_S64) shapeCasts_S64_S1x64 := by
    after_results_simp; rfl
  rw [e]; exact slabRow_apply ![1, 0] (1 : Fin 3) rfl rfl _ _ _ _ u q

set_option maxHeartbeats 1600000 in
/-- Stretch 2 leaves in `main_v60` the sparse aggregation of `main_v47`. -/
theorem agg2 (V : Valuation τ sig (Elt F)) :
    after hostOps2 V (Proc.devRef .tc main_v60) = spmm (V (Proc.devRef .tc main_v47)) (V (Proc.devRef .tc main_arg1)) (V (Proc.devRef .tc main_arg2)) (V (Proc.devRef .tc main_arg3)) := by
  after_results_simp; rfl

set_option maxHeartbeats 1600000 in
/-- and layer 3's first weight, read at (q, k), is the stacked one at (2, q, k); -/
theorem w1_2 (V : Valuation τ sig (Elt F)) (q k : Fin 64) :
    (after hostOps2 V (Proc.devRef .tc main_v62) : S64x64.Idx → Elt F .f32) (ix2 q k) = (V (Proc.devRef .tc main_arg6) : S3x64x64.Idx → Elt F .f32) (ix3 (2 : Fin 3) q k) := by
  have e : (after hostOps2 V (Proc.devRef .tc main_v62) : S64x64.Idx → Elt F .f32)
      = shapeCast S64x64 (extractStridedSlice S1x64x64 ![2, 0, 0] (V (Proc.devRef .tc main_arg6)) slices_S3x64x64_S1x64x64_2_0_0) shapeCasts_S1x64x64_S64x64 := by
    after_results_simp; rfl
  rw [e]; exact slabMat_apply ![2, 0, 0] (2 : Fin 3) rfl rfl rfl _ _ _ q k

set_option maxHeartbeats 1600000 in
/-- its second weight likewise; -/
theorem w2_2 (V : Valuation τ sig (Elt F)) (q k : Fin 64) :
    (after hostOps2 V (Proc.devRef .tc main_v66) : S64x64.Idx → Elt F .f32) (ix2 q k) = (V (Proc.devRef .tc main_arg8) : S3x64x64.Idx → Elt F .f32) (ix3 (2 : Fin 3) q k) := by
  have e : (after hostOps2 V (Proc.devRef .tc main_v66) : S64x64.Idx → Elt F .f32)
      = shapeCast S64x64 (extractStridedSlice S1x64x64 ![2, 0, 0] (V (Proc.devRef .tc main_arg8)) slices_S3x64x64_S1x64x64_2_0_0) shapeCasts_S1x64x64_S64x64 := by
    after_results_simp; rfl
  rw [e]; exact slabMat_apply ![2, 0, 0] (2 : Fin 3) rfl rfl rfl _ _ _ q k

set_option maxHeartbeats 1600000 in
/-- its first bias row, read at (u, q), is the stacked bias at (2, q); -/
theorem b1_2 (V : Valuation τ sig (Elt F)) (u : Fin 1) (q : Fin 64) :
    (after hostOps2 V (Proc.devRef .tc main_v69) : S1x64.Idx → Elt F .f32) (ix2 u q) = (V (Proc.devRef .tc main_arg7) : S3x64.Idx → Elt F .f32) (ix2 (2 : Fin 3) q) := by
  have e : (after hostOps2 V (Proc.devRef .tc main_v69) : S1x64.Idx → Elt F .f32)
      = shapeCast S1x64 (shapeCast S64 (extractStridedSlice S1x64 ![2, 0] (V (Proc.devRef .tc main_arg7)) slices_S3x64_S1x64_2_0) shapeCasts_S1x64_S64) shapeCasts_S64_S1x64 := by
    after_results_simp; rfl
  rw [e]; exact slabRow_apply ![2, 0] (2 : Fin 3) rfl rfl _ _ _ _ u q

set_option maxHeartbeats 1600000 in
/-- its second bias row likewise. -/
theorem b2_2 (V : Valuation τ sig (Elt F)) (u : Fin 1) (q : Fin 64) :
    (after hostOps2 V (Proc.devRef .tc main_v70) : S1x64.Idx → Elt F .f32) (ix2 u q) = (V (Proc.devRef .tc main_arg9) : S3x64.Idx → Elt F .f32) (ix2 (2 : Fin 3) q) := by
  have e : (after hostOps2 V (Proc.devRef .tc main_v70) : S1x64.Idx → Elt F .f32)
      = shapeCast S1x64 (shapeCast S64 (extractStridedSlice S1x64 ![2, 0] (V (Proc.devRef .tc main_arg9)) slices_S3x64_S1x64_2_0) shapeCasts_S1x64_S64) shapeCasts_S64_S1x64 := by
    after_results_simp; rfl
  rw [e]; exact slabRow_apply ![2, 0] (2 : Fin 3) rfl rfl _ _ _ _ u q

/-! ## The stretch before the scoring region, and the last one -/

set_option maxHeartbeats 1600000 in
/-- The gathered user rows. -/
theorem users3 (V : Valuation τ sig (Elt F)) :
    after hostOps3 V (Proc.devRef .tc main_v79) = gatherRows (concat4 (V (Proc.devRef .tc main_arg0)) (V (Proc.devRef .tc main_v23)) (V (Proc.devRef .tc main_v47)) (V (Proc.devRef .tc main_v71))) (V (Proc.devRef .tc main_arg4)) := by
  after_results_simp; rfl

set_option maxHeartbeats 1600000 in
/-- The gathered item rows. -/
theorem items3 (V : Valuation τ sig (Elt F)) :
    after hostOps3 V (Proc.devRef .tc main_v88) = gatherRows (concat4 (V (Proc.devRef .tc main_arg0)) (V (Proc.devRef .tc main_v23)) (V (Proc.devRef .tc main_v47)) (V (Proc.devRef .tc main_v71))) (shiftItems (V (Proc.devRef .tc main_arg5))) := by
  after_results_simp; rfl

set_option maxHeartbeats 1600000 in
/-- The projection's bias as a row: at (u, j) the bias at j. -/
theorem bt3 (V : Valuation τ sig (Elt F)) (u : Fin 1) (j : Fin 64) :
    (after hostOps3 V (Proc.devRef .tc main_v89) : S1x64.Idx → Elt F .f32) (ix2 u j) = (V (Proc.devRef .tc main_arg11) : S64.Idx → Elt F .f32) (ix1 j) := by
  have e : (after hostOps3 V (Proc.devRef .tc main_v89) : S1x64.Idx → Elt F .f32) = shapeCast S1x64 (V (Proc.devRef .tc main_arg11)) shapeCasts_S64_S1x64 := by
    after_results_simp; rfl
  rw [e]; exact shapeCast_a_1a_apply _ _ u j

/-- The result vector at i is the scoring region's column at (i, 0). -/
theorem out4 (V : Valuation τ sig (Elt F)) (i : Fin 4096) :
    (after hostOps4 V (Proc.devRef .tc main_v91) : S4096.Idx → Elt F .f32) (ix1 i) = (V (Proc.devRef .tc main_v90) : S4096x1.Idx → Elt F .f32) (ix2 i (0 : Fin 1)) := by
  have e : (after hostOps4 V (Proc.devRef .tc main_v91) : S4096.Idx → Elt F .f32) = shapeCast S4096 (V (Proc.devRef .tc main_v90)) shapeCasts_S4096x1_S4096 := by
    after_results_simp; rfl
  rw [e]; exact column_vec_apply _ _ i

end Cert.KernelIdeal.HostValue

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.LayerPayload.lean ====
/-
  One graph-convolution layer's stored block, read at an entry, over the extended reals.

  The layer takes the aggregated neighbour features `a` and the node's own features `f` (both [15000, 64]), two weight
  matrices `W1`, `W2` ([64, 64]) and two bias rows `b1`, `b2` ([1, 64]). Entry (p, q) of what it stores is
      leaky (((∑ k, (a(p,k) + f(p,k)) · W1(q,k)) + b1(0,q)) + ((∑ k, (a(p,k) · f(p,k)) · W2(q,k)) + b2(0,q)))
  with  leaky x = x  for 0 ≤ x  and  c · x  otherwise, `c` the float word 0x3C23D70A (only the word matters, not its numeric value). Each linear map
  is a matrix product into a zero accumulator of the [15000, 64] block by the TRANSPOSE of the weight, so the contracted
  index runs over the weight's second axis, W(q,k); each bias row is broadcast over the 15000 rows.

  `layerAt` is that entry as a function of the six arrays and the coordinates; `k0_pay1_apply`, `k1_pay1_apply`,
  `k2_pay1_apply` say that the three layers' stored values, read at (p, q), are `layerAt` of their six loads, in the order
  (a, f, W1, W2, b1, b2).
-/
import proofs.«142689_j30262339568120_1_alg».proof.Proof.Gen.KernelIdeal.Skeleton
import proofs.«142689_j30262339568120_1_alg».proof.Proof.LibDenseLayer
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.LayerValue

open Idealize.ShloMosaic Idealize.ShloMosaic.ValueIdx Cert.KernelIdeal

/-- The leaky rectifier: the identity on the non-negative extended reals, multiplication by the float word
    0x3C23D70A (about 0.01) on the negative ones. -/
def leaky (x : EReal) : EReal := if 0 ≤ x then x else Ideal.ofBits .f32 0x3C23D70A#32 * x

/-- The layer's value before the rectifier at (p, q): the two linear maps with their biases, added. -/
def preAt (a f : (⟨2, ![15000, 64]⟩ : Shape).Idx → EReal) (W1 W2 : (⟨2, ![64, 64]⟩ : Shape).Idx → EReal)
    (b1 b2 : (⟨2, ![1, 64]⟩ : Shape).Idx → EReal) (p : Fin 15000) (q : Fin 64) : EReal :=
  ((∑ k : Fin 64, (a (ix2 p k) + f (ix2 p k)) * W1 (ix2 q k)) + b1 (ix2 (0 : Fin 1) q))
    + ((∑ k : Fin 64, (a (ix2 p k) * f (ix2 p k)) * W2 (ix2 q k)) + b2 (ix2 (0 : Fin 1) q))

/-- Entry (p, q) of the layer's stored block. -/
def layerAt (a f : (⟨2, ![15000, 64]⟩ : Shape).Idx → EReal) (W1 W2 : (⟨2, ![64, 64]⟩ : Shape).Idx → EReal)
    (b1 b2 : (⟨2, ![1, 64]⟩ : Shape).Idx → EReal) (p : Fin 15000) (q : Fin 64) : EReal :=
  leaky (preAt a f W1 W2 b1 b2 p q)

/-- The select-on-compare spelling of the rectifier: compare with the zero word, keep `x` where `x ≥ 0`, else the
    word 0x3C23D70A times `x`. -/
theorem select_cmp_eq_leaky (x : EReal) :
    Scalar.select (FloatOps.cmpf (F := Ideal) (φ := .f32) .oge x (Scalar.ofBits .f32 0x00000000#32)) x
        (FloatOps.mulf (F := Ideal) (φ := .f32) (Scalar.ofBits .f32 0x3C23D70A#32) x) = leaky x := by
  show Scalar.select (Ideal.cmp .oge x (Ideal.ofBits .f32 0x00000000#32)) x (Ideal.ofBits .f32 0x3C23D70A#32 * x) = leaky x
  rw [Ideal.ofBits_zero_f32]
  unfold leaky Ideal.cmp Scalar.select
  by_cases h : (0 : EReal) ≤ x
  · simp [h]
  · simp [h]

/-- A matrix product of a [15000, 64] block by a [64, 64] matrix into the zero accumulator, read at (p, q). -/
theorem matmul_at (L : FVec Ideal S15000x64 .f32) (R : FVec Ideal S64x64 .f32) (p : Fin 15000) (q : Fin 64) :
    matmul dot_S15000x64_S64x64_S15000x64_1_0_0_1_n_n none L R (constant (F := Ideal) S15000x64 .f32 0x00000000#32) (ix2 p q)
      = ∑ k : Fin 64, L (ix2 p k) * R (ix2 k q) :=
  Cert.DenseLayer.matmul_rows_cols dot_S15000x64_S64x64_S15000x64_1_0_0_1_n_n rfl rfl
    (fun _ _ => rfl) (fun _ _ => rfl) (fun _ _ => rfl) (fun _ _ => rfl) none L R p q

/-- One linear map of the layer at (p, q): the product by the transposed weight plus the broadcast bias row. -/
theorem linear_at (X : FVec Ideal S15000x64 .f32) (W : FVec Ideal S64x64 .f32) (b : FVec Ideal S1x64 .f32)
    (hT : S64x64.Transposes [1, 0] S64x64) (hB : S1x64.Broadcasts S15000x64) (p : Fin 15000) (q : Fin 64) :
    addf (matmul dot_S15000x64_S64x64_S15000x64_1_0_0_1_n_n none X (transpose S64x64 [1, 0] W hT)
        (constant (F := Ideal) S15000x64 .f32 0x00000000#32)) (broadcastTo S15000x64 b hB) (ix2 p q)
      = (∑ k : Fin 64, X (ix2 p k) * W (ix2 q k)) + b (ix2 (0 : Fin 1) q) := by
  rw [addf_apply, matmul_at, broadcastTo_1b_ab_apply]
  refine congrArg (· + b (ix2 (0 : Fin 1) q)) (Finset.sum_congr rfl fun k _ => ?_)
  rw [transpose_ix2_apply]

/-- The layer's whole arithmetic at (p, q), from its operands as the body has them. -/
theorem body_at (a f : FVec Ideal S15000x64 .f32) (W1 W2 : FVec Ideal S64x64 .f32) (b1 b2 : FVec Ideal S1x64 .f32)
    (hT : S64x64.Transposes [1, 0] S64x64) (hB : S1x64.Broadcasts S15000x64) (p : Fin 15000) (q : Fin 64) :
    select
        (cmpf .oge
          (addf
            (addf (matmul dot_S15000x64_S64x64_S15000x64_1_0_0_1_n_n none (addf a f) (transpose S64x64 [1, 0] W1 hT)
              (constant (F := Ideal) S15000x64 .f32 0x00000000#32)) (broadcastTo S15000x64 b1 hB))
            (addf (matmul dot_S15000x64_S64x64_S15000x64_1_0_0_1_n_n none (mulf a f) (transpose S64x64 [1, 0] W2 hT)
              (constant (F := Ideal) S15000x64 .f32 0x00000000#32)) (broadcastTo S15000x64 b2 hB)))
          (broadcast S15000x64 (Scalar.ofBits (F := Ideal) .f32 0x00000000#32)))
        (addf
            (addf (matmul dot_S15000x64_S64x64_S15000x64_1_0_0_1_n_n none (addf a f) (transpose S64x64 [1, 0] W1 hT)
              (constant (F := Ideal) S15000x64 .f32 0x00000000#32)) (broadcastTo S15000x64 b1 hB))
            (addf (matmul dot_S15000x64_S64x64_S15000x64_1_0_0_1_n_n none (mulf a f) (transpose S64x64 [1, 0] W2 hT)
              (constant (F := Ideal) S15000x64 .f32 0x00000000#32)) (broadcastTo S15000x64 b2 hB)))
        (mulf (broadcast S15000x64 (Scalar.ofBits (F := Ideal) .f32 0x3C23D70A#32))
          (addf
            (addf (matmul dot_S15000x64_S64x64_S15000x64_1_0_0_1_n_n none (addf a f) (transpose S64x64 [1, 0] W1 hT)
              (constant (F := Ideal) S15000x64 .f32 0x00000000#32)) (broadcastTo S15000x64 b1 hB))
            (addf (matmul dot_S15000x64_S64x64_S15000x64_1_0_0_1_n_n none (mulf a f) (transpose S64x64 [1, 0] W2 hT)
              (constant (F := Ideal) S15000x64 .f32 0x00000000#32)) (broadcastTo S15000x64 b2 hB))))
        (ix2 p q)
      = layerAt a f W1 W2 b1 b2 p q := by
  have hpre : addf
            (addf (matmul dot_S15000x64_S64x64_S15000x64_1_0_0_1_n_n none (addf a f) (transpose S64x64 [1, 0] W1 hT)
              (constant (F := Ideal) S15000x64 .f32 0x00000000#32)) (broadcastTo S15000x64 b1 hB))
            (addf (matmul dot_S15000x64_S64x64_S15000x64_1_0_0_1_n_n none (mulf a f) (transpose S64x64 [1, 0] W2 hT)
              (constant (F := Ideal) S15000x64 .f32 0x00000000#32)) (broadcastTo S15000x64 b2 hB)) (ix2 p q)
      = preAt a f W1 W2 b1 b2 p q := by
    rw [addf_apply, linear_at, linear_at]
    rfl
  rw [select_apply, cmpf_apply, mulf_apply, hpre, broadcast_apply, broadcast_apply]
  exact select_cmp_eq_leaky _

theorem k0_pay1_apply (x0 x1 : Vec Ideal S15000x64 .f32) (w1 w2 : Vec Ideal S64x64 .f32) (b1 b2 : Vec Ideal S1x64 .f32)
    (p : Fin 15000) (q : Fin 64) :
    Gen.k0_pay1 (F := Ideal) x0 x1 w1 w2 b1 b2 (ix2 p q) = layerAt x0 x1 w1 w2 b1 b2 p q := by
  unfold Gen.k0_pay1
  simp only [shapeCast_self]
  exact body_at x0 x1 w1 w2 b1 b2 _ _ p q

theorem k1_pay1_apply (x0 x1 : Vec Ideal S15000x64 .f32) (w1 w2 : Vec Ideal S64x64 .f32) (b1 b2 : Vec Ideal S1x64 .f32)
    (p : Fin 15000) (q : Fin 64) :
    Gen.k1_pay1 (F := Ideal) x0 x1 w1 w2 b1 b2 (ix2 p q) = layerAt x0 x1 w1 w2 b1 b2 p q := by
  unfold Gen.k1_pay1
  simp only [shapeCast_self]
  exact body_at x0 x1 w1 w2 b1 b2 _ _ p q

theorem k2_pay1_apply (x0 x1 : Vec Ideal S15000x64 .f32) (w1 w2 : Vec Ideal S64x64 .f32) (b1 b2 : Vec Ideal S1x64 .f32)
    (p : Fin 15000) (q : Fin 64) :
    Gen.k2_pay1 (F := Ideal) x0 x1 w1 w2 b1 b2 (ix2 p q) = layerAt x0 x1 w1 w2 b1 b2 p q := by
  unfold Gen.k2_pay1
  simp only [shapeCast_self]
  exact body_at x0 x1 w1 w2 b1 b2 _ _ p q

end Cert.KernelIdeal.LayerValue

end
-- ==== Proof.LayerArray.lean ====
/-
  From blocks to the array, for the three graph-convolution layers.

  Each layer runs over ten grid points; point t reads rows 15000·t … 15000·t + 14999 of the aggregated array and of the
  features array (windows 0 and 1), the whole of the two weight matrices and the two bias rows (windows 2, 4 and 3, 5:
  their block index never moves), and overwrites the same rows of the output array (window 6). A row of the output
  depends only on the same row of the two row-blocked inputs, so what every point writes back is ITS BLOCK of one
  whole-array function, `layerWhole`: entry (r, q) is
      leaky (((∑ k, (a(r,k) + f(r,k)) · W1(q,k)) + b1(0,q)) + ((∑ k, (a(r,k) · f(r,k)) · W2(q,k)) + b2(0,q))).
  The ten blocks tile the 150000 rows (row r lies in the block of point r / 15000), so after the region the output array
  IS that function of the arrays as the region found them (`final0`, `final1`, `final2`).
-/
import proofs.«142689_j30262339568120_1_alg».proof.Proof.KernelIdealRegion0
import proofs.«142689_j30262339568120_1_alg».proof.Proof.KernelIdealRegion1
import proofs.«142689_j30262339568120_1_alg».proof.Proof.KernelIdealRegion2
import proofs.«142689_j30262339568120_1_alg».proof.Proof.LayerPayload
import Idealize.ShloMosaic.Lib.Pipeline.Value

noncomputable section

namespace Cert.KernelIdeal.LayerValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Entry (r, q) of a layer's whole output, from the whole aggregated and features arrays, the weights and the biases. -/
def layerWhole (a f : (⟨2, ![150000, 64]⟩ : Shape).Idx → EReal) (W1 W2 : (⟨2, ![64, 64]⟩ : Shape).Idx → EReal)
    (b1 b2 : (⟨2, ![1, 64]⟩ : Shape).Idx → EReal) (r : Fin 150000) (q : Fin 64) : EReal :=
  leaky (((∑ k : Fin 64, (a (ix2 r k) + f (ix2 r k)) * W1 (ix2 q k)) + b1 (ix2 (0 : Fin 1) q))
    + ((∑ k : Fin 64, (a (ix2 r k) * f (ix2 r k)) * W2 (ix2 q k)) + b2 (ix2 (0 : Fin 1) q)))

/-- A block's entry is the whole array's: if row p of the two row blocks is row r of the two arrays and the weights and
    biases are the arrays', entry (p, q) of the block's layer value is entry (r, q) of the whole one. -/
theorem layer_point (a f : (⟨2, ![150000, 64]⟩ : Shape).Idx → EReal) (W1 W2 : (⟨2, ![64, 64]⟩ : Shape).Idx → EReal)
    (b1 b2 : (⟨2, ![1, 64]⟩ : Shape).Idx → EReal)
    (x0 x1 : (⟨2, ![15000, 64]⟩ : Shape).Idx → EReal) (x2 x4 : (⟨2, ![64, 64]⟩ : Shape).Idx → EReal)
    (x3 x5 : (⟨2, ![1, 64]⟩ : Shape).Idx → EReal) (p : Fin 15000) (q q' : Fin 64) (r : Fin 150000)
    (hq : q = q')
    (h0 : ∀ k : Fin 64, x0 (ix2 p k) = a (ix2 r k)) (h1 : ∀ k : Fin 64, x1 (ix2 p k) = f (ix2 r k))
    (h2 : x2 = W1) (h4 : x4 = W2) (h3 : x3 = b1) (h5 : x5 = b2) :
    layerAt x0 x1 x2 x4 x3 x5 p q = layerWhole a f W1 W2 b1 b2 r q' := by
  subst hq h2 h4 h3 h5
  unfold layerAt preAt layerWhole
  simp only [h0, h1]

/-! ## Layer 1 (region 0) -/

/-- The index maps of the layer's seven windows at each of the ten grid points: the two row-blocked inputs and the
    output are at block (t, 0); the weights and biases stay at block (0, 0). -/
theorem idx_facts0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A block of the aggregated rows (window 0) at point t, read at x: the array at row 15000·t + x₀. -/
theorem iblk0_0_apply (c : Dev nD) (t : Fin cfg0.N) (x : S15000x64.Idx) (k : S150000x64.Idx)
    (hk0 : (k 0).val = t.val * 15000 + (x 0).val) (hk1 : (k 1).val = (x 1).val) :
    (Frame.iblk0 V c 0 t : Vec Ideal S15000x64 .f32) x = (V c (Pipeline.arrRef spec0 0) : S150000x64.Idx → EReal) k := by
  obtain ⟨e0, e1, -, -, -, -, -, -, -, -, -, -, e6, -⟩ := idx_facts0 t
  unfold Frame.iblk0
  rw [View.read_apply]
  show V c (Pipeline.arrRef spec0 0) _ = V c (Pipeline.arrRef spec0 0) _
  congr 1
  funext a; apply Fin.ext
  match a with
  | ⟨0, _⟩ => show win0_0.index t (0 : Fin 2) * 15000 + 1 * (x 0).val = (k 0).val; rw [e0, e6, hk0]; omega
  | ⟨1, _⟩ => show win0_0.index t (1 : Fin 2) * 64 + 1 * (x 1).val = (k 1).val; rw [e1, hk1]; omega

/-- A block of the feature rows (window 1) likewise. -/
theorem iblk0_1_apply (c : Dev nD) (t : Fin cfg0.N) (x : S15000x64.Idx) (k : S150000x64.Idx)
    (hk0 : (k 0).val = t.val * 15000 + (x 0).val) (hk1 : (k 1).val = (x 1).val) :
    (Frame.iblk0 V c 1 t : Vec Ideal S15000x64 .f32) x = (V c (Pipeline.arrRef spec0 1) : S150000x64.Idx → EReal) k := by
  obtain ⟨-, -, e0, e1, -, -, -, -, -, -, -, -, e6, -⟩ := idx_facts0 t
  unfold Frame.iblk0
  rw [View.read_apply]
  show V c (Pipeline.arrRef spec0 1) _ = V c (Pipeline.arrRef spec0 1) _
  congr 1
  funext a; apply Fin.ext
  match a with
  | ⟨0, _⟩ => show win0_1.index t (0 : Fin 2) * 15000 + 1 * (x 0).val = (k 0).val; rw [e0, e6, hk0]; omega
  | ⟨1, _⟩ => show win0_1.index t (1 : Fin 2) * 64 + 1 * (x 1).val = (k 1).val; rw [e1, hk1]; omega

/-- The weights' and the biases' windows do not move: their one block is the whole array. -/
theorem iblk0_2_eq (c : Dev nD) (t : Fin cfg0.N) :
    (Frame.iblk0 V c 2 t : Vec Ideal S64x64 .f32) = (V c (Pipeline.arrRef spec0 2) : S64x64.Idx → EReal) := by
  obtain ⟨-, -, -, -, e0, e1, -⟩ := idx_facts0 t
  funext x
  unfold Frame.iblk0
  rw [View.read_apply]
  show V c (Pipeline.arrRef spec0 2) _ = V c (Pipeline.arrRef spec0 2) x
  congr 1
  funext a; apply Fin.ext
  match a with
  | ⟨0, _⟩ => show win0_2.index t (0 : Fin 2) * 64 + 1 * (x 0).val = (x 0).val; rw [e0]; omega
  | ⟨1, _⟩ => show win0_2.index t (1 : Fin 2) * 64 + 1 * (x 1).val = (x 1).val; rw [e1]; omega

theorem iblk0_3_eq (c : Dev nD) (t : Fin cfg0.N) :
    (Frame.iblk0 V c 3 t : Vec Ideal S1x64 .f32) = (V c (Pipeline.arrRef spec0 3) : S1x64.Idx → EReal) := by
  obtain ⟨-, -, -, -, -, -, e0, e1, -⟩ := idx_facts0 t
  funext x
  unfold Frame.iblk0
  rw [View.read_apply]
  show V c (Pipeline.arrRef spec0 3) _ = V c (Pipeline.arrRef spec0 3) x
  congr 1
  funext a; apply Fin.ext
  match a with
  | ⟨0, _⟩ => show win0_3.index t (0 : Fin 2) * 1 + 1 * (x 0).val = (x 0).val; rw [e0]; omega
  | ⟨1, _⟩ => show win0_3.index t (1 : Fin 2) * 64 + 1 * (x 1).val = (x 1).val; rw [e1]; omega

theorem iblk0_4_eq (c : Dev nD) (t : Fin cfg0.N) :
    (Frame.iblk0 V c 4 t : Vec Ideal S64x64 .f32) = (V c (Pipeline.arrRef spec0 4) : S64x64.Idx → EReal) := by
  obtain ⟨-, -, -, -, -, -, -, -, e0, e1, -⟩ := idx_facts0 t
  funext x
  unfold Frame.iblk0
  rw [View.read_apply]
  show V c (Pipeline.arrRef spec0 4) _ = V c (Pipeline.arrRef spec0 4) x
  congr 1
  funext a; apply Fin.ext
  match a with
  | ⟨0, _⟩ => show win0_4.index t (0 : Fin 2) * 64 + 1 * (x 0).val = (x 0).val; rw [e0]; omega
  | ⟨1, _⟩ => show win0_4.index t (1 : Fin 2) * 64 + 1 * (x 1).val = (x 1).val; rw [e1]; omega

theorem iblk0_5_eq (c : Dev nD) (t : Fin cfg0.N) :
    (Frame.iblk0 V c 5 t : Vec Ideal S1x64 .f32) = (V c (Pipeline.arrRef spec0 5) : S1x64.Idx → EReal) := by
  obtain ⟨-, -, -, -, -, -, -, -, -, -, e0, e1, -⟩ := idx_facts0 t
  funext x
  unfold Frame.iblk0
  rw [View.read_apply]
  show V c (Pipeline.arrRef spec0 5) _ = V c (Pipeline.arrRef spec0 5) x
  congr 1
  funext a; apply Fin.ext
  match a with
  | ⟨0, _⟩ => show win0_5.index t (0 : Fin 2) * 1 + 1 * (x 0).val = (x 0).val; rw [e0]; omega
  | ⟨1, _⟩ => show win0_5.index t (1 : Fin 2) * 64 + 1 * (x 1).val = (x 1).val; rw [e1]; omega

/-- The layer body's stored value read at any index of its block. -/
theorem k0_pay1_at (x0 x1 : Vec Ideal S15000x64 .f32) (w1 w2 : Vec Ideal S64x64 .f32) (b1 b2 : Vec Ideal S1x64 .f32)
    (y : S15000x64.Idx) :
    Gen.k0_pay1 (F := Ideal) x0 x1 w1 w2 b1 b2 y = layerAt x0 x1 w1 w2 b1 b2 (y 0) (y 1) := by
  obtain ⟨p, q, rfl⟩ : ∃ (p : Fin 15000) (q : Fin 64), y = ix2 p q := ⟨y 0, y 1, eq_ix2 y⟩
  exact k0_pay1_apply x0 x1 w1 w2 b1 b2 p q

set_option maxHeartbeats 1000000 in
/-- What point t writes back is block t of the layer's whole-array function of the arrays as the region finds them. -/
theorem flushed0_eq (c : Dev nD) (t : Fin cfg0.N) :
    (Frame.dat0 (F := Ideal) V c).flushed 6 t = ((cfg0.win 6).blk t).view.read (Elt Ideal)
      (fun i : S150000x64.Idx => layerWhole (V c (Pipeline.arrRef spec0 0)) (V c (Pipeline.arrRef spec0 1))
        (V c (Pipeline.arrRef spec0 2)) (V c (Pipeline.arrRef spec0 4)) (V c (Pipeline.arrRef spec0 3))
        (V c (Pipeline.arrRef spec0 5)) (i 0) (i 1)) := by
  show (cfg0.win 6).cut (grid0.coords t) ((Frame.dat0 V c).after 6 t) = _
  rw [Frame.after0_6]
  unfold Frame.out0_6
  rw [View.canon_unit_zero hz]
  simp only [View.ld_unit_zero (S := S15000x64) hz, View.ld_unit_zero (S := S64x64) hz, View.ld_unit_zero (S := S1x64) hz]
  funext j
  rw [View.read_apply]
  show Gen.k0_pay1 (F := Ideal) (Frame.iblk0 V c 0 t) (Frame.iblk0 V c 1 t) (Frame.iblk0 V c 2 t) (Frame.iblk0 V c 4 t)
        (Frame.iblk0 V c 3 t) (Frame.iblk0 V c 5 t) ((win0 6).xinj (grid0.coords t) j)
      = layerWhole (V c (Pipeline.arrRef spec0 0)) (V c (Pipeline.arrRef spec0 1)) (V c (Pipeline.arrRef spec0 2))
        (V c (Pipeline.arrRef spec0 4)) (V c (Pipeline.arrRef spec0 3)) (V c (Pipeline.arrRef spec0 5))
        (((View.whole main_v23).slice ((win0 6).rect t)).emb j 0)
        (((View.whole main_v23).slice ((win0 6).rect t)).emb j 1)
  refine (k0_pay1_at (Frame.iblk0 V c 0 t) (Frame.iblk0 V c 1 t) (Frame.iblk0 V c 2 t) (Frame.iblk0 V c 4 t)
        (Frame.iblk0 V c 3 t) (Frame.iblk0 V c 5 t) ((win0 6).xinj (grid0.coords t) j)).trans ?_
  obtain ⟨-, -, -, -, -, -, -, -, -, -, -, -, e6, e7⟩ := idx_facts0 t
  refine layer_point (V c (Pipeline.arrRef spec0 0)) (V c (Pipeline.arrRef spec0 1)) (V c (Pipeline.arrRef spec0 2))
    (V c (Pipeline.arrRef spec0 4)) (V c (Pipeline.arrRef spec0 3)) (V c (Pipeline.arrRef spec0 5))
    (Frame.iblk0 V c 0 t) (Frame.iblk0 V c 1 t) (Frame.iblk0 V c 2 t) (Frame.iblk0 V c 4 t)
    (Frame.iblk0 V c 3 t) (Frame.iblk0 V c 5 t)
    ((win0 6).xinj (grid0.coords t) j 0) ((win0 6).xinj (grid0.coords t) j 1)
    (((View.whole main_v23).slice ((win0 6).rect t)).emb j 1)
    (((View.whole main_v23).slice ((win0 6).rect t)).emb j 0) ?_ ?_ ?_
    (iblk0_2_eq V c t) (iblk0_4_eq V c t) (iblk0_3_eq V c t) (iblk0_5_eq V c t)
  · apply Fin.ext
    show (j 1).val = win0_6.index t (1 : Fin 2) * 64 + 1 * (j 1).val
    rw [e7]; omega
  · intro k
    refine iblk0_0_apply V c t _ _ ?_ rfl
    show win0_6.index t (0 : Fin 2) * 15000 + 1 * (j 0).val = t.val * 15000 + (j 0).val
    rw [e6]; omega
  · intro k
    refine iblk0_1_apply V c t _ _ ?_ rfl
    show win0_6.index t (0 : Fin 2) * 15000 + 1 * (j 0).val = t.val * 15000 + (j 0).val
    rw [e6]; omega

/-- An index of the output array is in point t's block iff each coordinate is in the block's range on its axis. -/
theorem mem_blk0 (t : Fin cfg0.N) (i : S150000x64.Idx) :
    i ∈ ((cfg0.win 6).blk t).view.set ↔ ∀ a : Fin 2, win0_6.index t a * S15000x64.size a ≤ (i a).val
      ∧ (i a).val < win0_6.index t a * S15000x64.size a + S15000x64.size a := by
  show i ∈ ((View.whole main_v23).slice (win0_6.rect t)).set ↔ _
  rw [View.set_slice_whole, Rect.mem_set_unit]
  exact Iff.rfl

/-- The ten row blocks tile the 150000 rows: row r is in the block of point r / 15000. -/
theorem cover0 (i : S150000x64.Idx) :
    ∃ t : Fin cfg0.N, (cfg0.win 6).flush t = true ∧ i ∈ ((cfg0.win 6).blk t).view.set := by
  have hi0 : (i 0).val < 150000 := (i 0).isLt
  have hi1 : (i 1).val < 64 := (i 1).isLt
  have hN : cfg0.N = 10 := Gen.N_0
  have ht : (i 0).val / 15000 < cfg0.N := by rw [hN]; omega
  obtain ⟨-, -, -, -, -, -, -, -, -, -, -, -, e6, e7⟩ := idx_facts0 ⟨(i 0).val / 15000, ht⟩
  refine ⟨⟨(i 0).val / 15000, ht⟩, flush0_6 _, ?_⟩
  rw [mem_blk0]
  intro a
  match a with
  | ⟨0, _⟩ =>
    show win0_6.index ⟨(i 0).val / 15000, ht⟩ (0 : Fin 2) * 15000 ≤ (i 0).val
      ∧ (i 0).val < win0_6.index ⟨(i 0).val / 15000, ht⟩ (0 : Fin 2) * 15000 + 15000
    rw [e6]
    show (i 0).val / 15000 * 15000 ≤ (i 0).val ∧ (i 0).val < (i 0).val / 15000 * 15000 + 15000
    omega
  | ⟨1, _⟩ =>
    show win0_6.index ⟨(i 0).val / 15000, ht⟩ (1 : Fin 2) * 64 ≤ (i 1).val
      ∧ (i 1).val < win0_6.index ⟨(i 0).val / 15000, ht⟩ (1 : Fin 2) * 64 + 64
    rw [e7]
    omega

/-- The layer's output array after the region: the layer's whole-array function of the arrays as the region finds them. -/
theorem final0 (c : Dev nD) :
    (Frame.dat0 (F := Ideal) V c).arrAt 6 cfg0.N
      = fun i : S150000x64.Idx => layerWhole (V c (Pipeline.arrRef spec0 0)) (V c (Pipeline.arrRef spec0 1))
        (V c (Pipeline.arrRef spec0 2)) (V c (Pipeline.arrRef spec0 4)) (V c (Pipeline.arrRef spec0 3))
        (V c (Pipeline.arrRef spec0 5)) (i 0) (i 1) :=
  (Frame.dat0 (F := Ideal) V c).arrAt_eq_of_cover 6 _ (fun t _ => flushed0_eq V c t) cover0

/-! ## Layer 2 (region 1) -/

/-- The index maps of the layer's seven windows at each of the ten grid points: the two row-blocked inputs and the
    output are at block (t, 0); the weights and biases stay at block (0, 0). -/
theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A block of the aggregated rows (window 0) at point t, read at x: the array at row 15000·t + x₀. -/
theorem iblk1_0_apply (c : Dev nD) (t : Fin cfg1.N) (x : S15000x64.Idx) (k : S150000x64.Idx)
    (hk0 : (k 0).val = t.val * 15000 + (x 0).val) (hk1 : (k 1).val = (x 1).val) :
    (Frame.iblk1 V c 0 t : Vec Ideal S15000x64 .f32) x = (V c (Pipeline.arrRef spec1 0) : S150000x64.Idx → EReal) k := by
  obtain ⟨e0, e1, -, -, -, -, -, -, -, -, -, -, e6, -⟩ := idx_facts1 t
  unfold Frame.iblk1
  rw [View.read_apply]
  show V c (Pipeline.arrRef spec1 0) _ = V c (Pipeline.arrRef spec1 0) _
  congr 1
  funext a; apply Fin.ext
  match a with
  | ⟨0, _⟩ => show win1_0.index t (0 : Fin 2) * 15000 + 1 * (x 0).val = (k 0).val; rw [e0, e6, hk0]; omega
  | ⟨1, _⟩ => show win1_0.index t (1 : Fin 2) * 64 + 1 * (x 1).val = (k 1).val; rw [e1, hk1]; omega

/-- A block of the feature rows (window 1) likewise. -/
theorem iblk1_1_apply (c : Dev nD) (t : Fin cfg1.N) (x : S15000x64.Idx) (k : S150000x64.Idx)
    (hk0 : (k 0).val = t.val * 15000 + (x 0).val) (hk1 : (k 1).val = (x 1).val) :
    (Frame.iblk1 V c 1 t : Vec Ideal S15000x64 .f32) x = (V c (Pipeline.arrRef spec1 1) : S150000x64.Idx → EReal) k := by
  obtain ⟨-, -, e0, e1, -, -, -, -, -, -, -, -, e6, -⟩ := idx_facts1 t
  unfold Frame.iblk1
  rw [View.read_apply]
  show V c (Pipeline.arrRef spec1 1) _ = V c (Pipeline.arrRef spec1 1) _
  congr 1
  funext a; apply Fin.ext
  match a with
  | ⟨0, _⟩ => show win1_1.index t (0 : Fin 2) * 15000 + 1 * (x 0).val = (k 0).val; rw [e0, e6, hk0]; omega
  | ⟨1, _⟩ => show win1_1.index t (1 : Fin 2) * 64 + 1 * (x 1).val = (k 1).val; rw [e1, hk1]; omega

/-- The weights' and the biases' windows do not move: their one block is the whole array. -/
theorem iblk1_2_eq (c : Dev nD) (t : Fin cfg1.N) :
    (Frame.iblk1 V c 2 t : Vec Ideal S64x64 .f32) = (V c (Pipeline.arrRef spec1 2) : S64x64.Idx → EReal) := by
  obtain ⟨-, -, -, -, e0, e1, -⟩ := idx_facts1 t
  funext x
  unfold Frame.iblk1
  rw [View.read_apply]
  show V c (Pipeline.arrRef spec1 2) _ = V c (Pipeline.arrRef spec1 2) x
  congr 1
  funext a; apply Fin.ext
  match a with
  | ⟨0, _⟩ => show win1_2.index t (0 : Fin 2) * 64 + 1 * (x 0).val = (x 0).val; rw [e0]; omega
  | ⟨1, _⟩ => show win1_2.index t (1 : Fin 2) * 64 + 1 * (x 1).val = (x 1).val; rw [e1]; omega

theorem iblk1_3_eq (c : Dev nD) (t : Fin cfg1.N) :
    (Frame.iblk1 V c 3 t : Vec Ideal S1x64 .f32) = (V c (Pipeline.arrRef spec1 3) : S1x64.Idx → EReal) := by
  obtain ⟨-, -, -, -, -, -, e0, e1, -⟩ := idx_facts1 t
  funext x
  unfold Frame.iblk1
  rw [View.read_apply]
  show V c (Pipeline.arrRef spec1 3) _ = V c (Pipeline.arrRef spec1 3) x
  congr 1
  funext a; apply Fin.ext
  match a with
  | ⟨0, _⟩ => show win1_3.index t (0 : Fin 2) * 1 + 1 * (x 0).val = (x 0).val; rw [e0]; omega
  | ⟨1, _⟩ => show win1_3.index t (1 : Fin 2) * 64 + 1 * (x 1).val = (x 1).val; rw [e1]; omega

theorem iblk1_4_eq (c : Dev nD) (t : Fin cfg1.N) :
    (Frame.iblk1 V c 4 t : Vec Ideal S64x64 .f32) = (V c (Pipeline.arrRef spec1 4) : S64x64.Idx → EReal) := by
  obtain ⟨-, -, -, -, -, -, -, -, e0, e1, -⟩ := idx_facts1 t
  funext x
  unfold Frame.iblk1
  rw [View.read_apply]
  show V c (Pipeline.arrRef spec1 4) _ = V c (Pipeline.arrRef spec1 4) x
  congr 1
  funext a; apply Fin.ext
  match a with
  | ⟨0, _⟩ => show win1_4.index t (0 : Fin 2) * 64 + 1 * (x 0).val = (x 0).val; rw [e0]; omega
  | ⟨1, _⟩ => show win1_4.index t (1 : Fin 2) * 64 + 1 * (x 1).val = (x 1).val; rw [e1]; omega

theorem iblk1_5_eq (c : Dev nD) (t : Fin cfg1.N) :
    (Frame.iblk1 V c 5 t : Vec Ideal S1x64 .f32) = (V c (Pipeline.arrRef spec1 5) : S1x64.Idx → EReal) := by
  obtain ⟨-, -, -, -, -, -, -, -, -, -, e0, e1, -⟩ := idx_facts1 t
  funext x
  unfold Frame.iblk1
  rw [View.read_apply]
  show V c (Pipeline.arrRef spec1 5) _ = V c (Pipeline.arrRef spec1 5) x
  congr 1
  funext a; apply Fin.ext
  match a with
  | ⟨0, _⟩ => show win1_5.index t (0 : Fin 2) * 1 + 1 * (x 0).val = (x 0).val; rw [e0]; omega
  | ⟨1, _⟩ => show win1_5.index t (1 : Fin 2) * 64 + 1 * (x 1).val = (x 1).val; rw [e1]; omega

/-- The layer body's stored value read at any index of its block. -/
theorem k1_pay1_at (x0 x1 : Vec Ideal S15000x64 .f32) (w1 w2 : Vec Ideal S64x64 .f32) (b1 b2 : Vec Ideal S1x64 .f32)
    (y : S15000x64.Idx) :
    Gen.k1_pay1 (F := Ideal) x0 x1 w1 w2 b1 b2 y = layerAt x0 x1 w1 w2 b1 b2 (y 0) (y 1) := by
  obtain ⟨p, q, rfl⟩ : ∃ (p : Fin 15000) (q : Fin 64), y = ix2 p q := ⟨y 0, y 1, eq_ix2 y⟩
  exact k1_pay1_apply x0 x1 w1 w2 b1 b2 p q

set_option maxHeartbeats 1000000 in
/-- What point t writes back is block t of the layer's whole-array function of the arrays as the region finds them. -/
theorem flushed1_eq (c : Dev nD) (t : Fin cfg1.N) :
    (Frame.dat1 (F := Ideal) V c).flushed 6 t = ((cfg1.win 6).blk t).view.read (Elt Ideal)
      (fun i : S150000x64.Idx => layerWhole (V c (Pipeline.arrRef spec1 0)) (V c (Pipeline.arrRef spec1 1))
        (V c (Pipeline.arrRef spec1 2)) (V c (Pipeline.arrRef spec1 4)) (V c (Pipeline.arrRef spec1 3))
        (V c (Pipeline.arrRef spec1 5)) (i 0) (i 1)) := by
  show (cfg1.win 6).cut (grid1.coords t) ((Frame.dat1 V c).after 6 t) = _
  rw [Frame.after1_6]
  unfold Frame.out1_6
  rw [View.canon_unit_zero hz]
  simp only [View.ld_unit_zero (S := S15000x64) hz, View.ld_unit_zero (S := S64x64) hz, View.ld_unit_zero (S := S1x64) hz]
  funext j
  rw [View.read_apply]
  show Gen.k1_pay1 (F := Ideal) (Frame.iblk1 V c 0 t) (Frame.iblk1 V c 1 t) (Frame.iblk1 V c 2 t) (Frame.iblk1 V c 4 t)
        (Frame.iblk1 V c 3 t) (Frame.iblk1 V c 5 t) ((win1 6).xinj (grid1.coords t) j)
      = layerWhole (V c (Pipeline.arrRef spec1 0)) (V c (Pipeline.arrRef spec1 1)) (V c (Pipeline.arrRef spec1 2))
        (V c (Pipeline.arrRef spec1 4)) (V c (Pipeline.arrRef spec1 3)) (V c (Pipeline.arrRef spec1 5))
        (((View.whole main_v47).slice ((win1 6).rect t)).emb j 0)
        (((View.whole main_v47).slice ((win1 6).rect t)).emb j 1)
  refine (k1_pay1_at (Frame.iblk1 V c 0 t) (Frame.iblk1 V c 1 t) (Frame.iblk1 V c 2 t) (Frame.iblk1 V c 4 t)
        (Frame.iblk1 V c 3 t) (Frame.iblk1 V c 5 t) ((win1 6).xinj (grid1.coords t) j)).trans ?_
  obtain ⟨-, -, -, -, -, -, -, -, -, -, -, -, e6, e7⟩ := idx_facts1 t
  refine layer_point (V c (Pipeline.arrRef spec1 0)) (V c (Pipeline.arrRef spec1 1)) (V c (Pipeline.arrRef spec1 2))
    (V c (Pipeline.arrRef spec1 4)) (V c (Pipeline.arrRef spec1 3)) (V c (Pipeline.arrRef spec1 5))
    (Frame.iblk1 V c 0 t) (Frame.iblk1 V c 1 t) (Frame.iblk1 V c 2 t) (Frame.iblk1 V c 4 t)
    (Frame.iblk1 V c 3 t) (Frame.iblk1 V c 5 t)
    ((win1 6).xinj (grid1.coords t) j 0) ((win1 6).xinj (grid1.coords t) j 1)
    (((View.whole main_v47).slice ((win1 6).rect t)).emb j 1)
    (((View.whole main_v47).slice ((win1 6).rect t)).emb j 0) ?_ ?_ ?_
    (iblk1_2_eq V c t) (iblk1_4_eq V c t) (iblk1_3_eq V c t) (iblk1_5_eq V c t)
  · apply Fin.ext
    show (j 1).val = win1_6.index t (1 : Fin 2) * 64 + 1 * (j 1).val
    rw [e7]; omega
  · intro k
    refine iblk1_0_apply V c t _ _ ?_ rfl
    show win1_6.index t (0 : Fin 2) * 15000 + 1 * (j 0).val = t.val * 15000 + (j 0).val
    rw [e6]; omega
  · intro k
    refine iblk1_1_apply V c t _ _ ?_ rfl
    show win1_6.index t (0 : Fin 2) * 15000 + 1 * (j 0).val = t.val * 15000 + (j 0).val
    rw [e6]; omega

/-- An index of the output array is in point t's block iff each coordinate is in the block's range on its axis. -/
theorem mem_blk1 (t : Fin cfg1.N) (i : S150000x64.Idx) :
    i ∈ ((cfg1.win 6).blk t).view.set ↔ ∀ a : Fin 2, win1_6.index t a * S15000x64.size a ≤ (i a).val
      ∧ (i a).val < win1_6.index t a * S15000x64.size a + S15000x64.size a := by
  show i ∈ ((View.whole main_v47).slice (win1_6.rect t)).set ↔ _
  rw [View.set_slice_whole, Rect.mem_set_unit]
  exact Iff.rfl

/-- The ten row blocks tile the 150000 rows: row r is in the block of point r / 15000. -/
theorem cover1 (i : S150000x64.Idx) :
    ∃ t : Fin cfg1.N, (cfg1.win 6).flush t = true ∧ i ∈ ((cfg1.win 6).blk t).view.set := by
  have hi0 : (i 0).val < 150000 := (i 0).isLt
  have hi1 : (i 1).val < 64 := (i 1).isLt
  have hN : cfg1.N = 10 := Gen.N_1
  have ht : (i 0).val / 15000 < cfg1.N := by rw [hN]; omega
  obtain ⟨-, -, -, -, -, -, -, -, -, -, -, -, e6, e7⟩ := idx_facts1 ⟨(i 0).val / 15000, ht⟩
  refine ⟨⟨(i 0).val / 15000, ht⟩, flush1_6 _, ?_⟩
  rw [mem_blk1]
  intro a
  match a with
  | ⟨0, _⟩ =>
    show win1_6.index ⟨(i 0).val / 15000, ht⟩ (0 : Fin 2) * 15000 ≤ (i 0).val
      ∧ (i 0).val < win1_6.index ⟨(i 0).val / 15000, ht⟩ (0 : Fin 2) * 15000 + 15000
    rw [e6]
    show (i 0).val / 15000 * 15000 ≤ (i 0).val ∧ (i 0).val < (i 0).val / 15000 * 15000 + 15000
    omega
  | ⟨1, _⟩ =>
    show win1_6.index ⟨(i 0).val / 15000, ht⟩ (1 : Fin 2) * 64 ≤ (i 1).val
      ∧ (i 1).val < win1_6.index ⟨(i 0).val / 15000, ht⟩ (1 : Fin 2) * 64 + 64
    rw [e7]
    omega

/-- The layer's output array after the region: the layer's whole-array function of the arrays as the region finds them. -/
theorem final1 (c : Dev nD) :
    (Frame.dat1 (F := Ideal) V c).arrAt 6 cfg1.N
      = fun i : S150000x64.Idx => layerWhole (V c (Pipeline.arrRef spec1 0)) (V c (Pipeline.arrRef spec1 1))
        (V c (Pipeline.arrRef spec1 2)) (V c (Pipeline.arrRef spec1 4)) (V c (Pipeline.arrRef spec1 3))
        (V c (Pipeline.arrRef spec1 5)) (i 0) (i 1) :=
  (Frame.dat1 (F := Ideal) V c).arrAt_eq_of_cover 6 _ (fun t _ => flushed1_eq V c t) cover1

/-! ## Layer 3 (region 2) -/

/-- The index maps of the layer's seven windows at each of the ten grid points: the two row-blocked inputs and the
    output are at block (t, 0); the weights and biases stay at block (0, 0). -/
theorem idx_facts2 : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- A block of the aggregated rows (window 0) at point t, read at x: the array at row 15000·t + x₀. -/
theorem iblk2_0_apply (c : Dev nD) (t : Fin cfg2.N) (x : S15000x64.Idx) (k : S150000x64.Idx)
    (hk0 : (k 0).val = t.val * 15000 + (x 0).val) (hk1 : (k 1).val = (x 1).val) :
    (Frame.iblk2 V c 0 t : Vec Ideal S15000x64 .f32) x = (V c (Pipeline.arrRef spec2 0) : S150000x64.Idx → EReal) k := by
  obtain ⟨e0, e1, -, -, -, -, -, -, -, -, -, -, e6, -⟩ := idx_facts2 t
  unfold Frame.iblk2
  rw [View.read_apply]
  show V c (Pipeline.arrRef spec2 0) _ = V c (Pipeline.arrRef spec2 0) _
  congr 1
  funext a; apply Fin.ext
  match a with
  | ⟨0, _⟩ => show win2_0.index t (0 : Fin 2) * 15000 + 1 * (x 0).val = (k 0).val; rw [e0, e6, hk0]; omega
  | ⟨1, _⟩ => show win2_0.index t (1 : Fin 2) * 64 + 1 * (x 1).val = (k 1).val; rw [e1, hk1]; omega

/-- A block of the feature rows (window 1) likewise. -/
theorem iblk2_1_apply (c : Dev nD) (t : Fin cfg2.N) (x : S15000x64.Idx) (k : S150000x64.Idx)
    (hk0 : (k 0).val = t.val * 15000 + (x 0).val) (hk1 : (k 1).val = (x 1).val) :
    (Frame.iblk2 V c 1 t : Vec Ideal S15000x64 .f32) x = (V c (Pipeline.arrRef spec2 1) : S150000x64.Idx → EReal) k := by
  obtain ⟨-, -, e0, e1, -, -, -, -, -, -, -, -, e6, -⟩ := idx_facts2 t
  unfold Frame.iblk2
  rw [View.read_apply]
  show V c (Pipeline.arrRef spec2 1) _ = V c (Pipeline.arrRef spec2 1) _
  congr 1
  funext a; apply Fin.ext
  match a with
  | ⟨0, _⟩ => show win2_1.index t (0 : Fin 2) * 15000 + 1 * (x 0).val = (k 0).val; rw [e0, e6, hk0]; omega
  | ⟨1, _⟩ => show win2_1.index t (1 : Fin 2) * 64 + 1 * (x 1).val = (k 1).val; rw [e1, hk1]; omega

/-- The weights' and the biases' windows do not move: their one block is the whole array. -/
theorem iblk2_2_eq (c : Dev nD) (t : Fin cfg2.N) :
    (Frame.iblk2 V c 2 t : Vec Ideal S64x64 .f32) = (V c (Pipeline.arrRef spec2 2) : S64x64.Idx → EReal) := by
  obtain ⟨-, -, -, -, e0, e1, -⟩ := idx_facts2 t
  funext x
  unfold Frame.iblk2
  rw [View.read_apply]
  show V c (Pipeline.arrRef spec2 2) _ = V c (Pipeline.arrRef spec2 2) x
  congr 1
  funext a; apply Fin.ext
  match a with
  | ⟨0, _⟩ => show win2_2.index t (0 : Fin 2) * 64 + 1 * (x 0).val = (x 0).val; rw [e0]; omega
  | ⟨1, _⟩ => show win2_2.index t (1 : Fin 2) * 64 + 1 * (x 1).val = (x 1).val; rw [e1]; omega

theorem iblk2_3_eq (c : Dev nD) (t : Fin cfg2.N) :
    (Frame.iblk2 V c 3 t : Vec Ideal S1x64 .f32) = (V c (Pipeline.arrRef spec2 3) : S1x64.Idx → EReal) := by
  obtain ⟨-, -, -, -, -, -, e0, e1, -⟩ := idx_facts2 t
  funext x
  unfold Frame.iblk2
  rw [View.read_apply]
  show V c (Pipeline.arrRef spec2 3) _ = V c (Pipeline.arrRef spec2 3) x
  congr 1
  funext a; apply Fin.ext
  match a with
  | ⟨0, _⟩ => show win2_3.index t (0 : Fin 2) * 1 + 1 * (x 0).val = (x 0).val; rw [e0]; omega
  | ⟨1, _⟩ => show win2_3.index t (1 : Fin 2) * 64 + 1 * (x 1).val = (x 1).val; rw [e1]; omega

theorem iblk2_4_eq (c : Dev nD) (t : Fin cfg2.N) :
    (Frame.iblk2 V c 4 t : Vec Ideal S64x64 .f32) = (V c (Pipeline.arrRef spec2 4) : S64x64.Idx → EReal) := by
  obtain ⟨-, -, -, -, -, -, -, -, e0, e1, -⟩ := idx_facts2 t
  funext x
  unfold Frame.iblk2
  rw [View.read_apply]
  show V c (Pipeline.arrRef spec2 4) _ = V c (Pipeline.arrRef spec2 4) x
  congr 1
  funext a; apply Fin.ext
  match a with
  | ⟨0, _⟩ => show win2_4.index t (0 : Fin 2) * 64 + 1 * (x 0).val = (x 0).val; rw [e0]; omega
  | ⟨1, _⟩ => show win2_4.index t (1 : Fin 2) * 64 + 1 * (x 1).val = (x 1).val; rw [e1]; omega

theorem iblk2_5_eq (c : Dev nD) (t : Fin cfg2.N) :
    (Frame.iblk2 V c 5 t : Vec Ideal S1x64 .f32) = (V c (Pipeline.arrRef spec2 5) : S1x64.Idx → EReal) := by
  obtain ⟨-, -, -, -, -, -, -, -, -, -, e0, e1, -⟩ := idx_facts2 t
  funext x
  unfold Frame.iblk2
  rw [View.read_apply]
  show V c (Pipeline.arrRef spec2 5) _ = V c (Pipeline.arrRef spec2 5) x
  congr 1
  funext a; apply Fin.ext
  match a with
  | ⟨0, _⟩ => show win2_5.index t (0 : Fin 2) * 1 + 1 * (x 0).val = (x 0).val; rw [e0]; omega
  | ⟨1, _⟩ => show win2_5.index t (1 : Fin 2) * 64 + 1 * (x 1).val = (x 1).val; rw [e1]; omega

/-- The layer body's stored value read at any index of its block. -/
theorem k2_pay1_at (x0 x1 : Vec Ideal S15000x64 .f32) (w1 w2 : Vec Ideal S64x64 .f32) (b1 b2 : Vec Ideal S1x64 .f32)
    (y : S15000x64.Idx) :
    Gen.k2_pay1 (F := Ideal) x0 x1 w1 w2 b1 b2 y = layerAt x0 x1 w1 w2 b1 b2 (y 0) (y 1) := by
  obtain ⟨p, q, rfl⟩ : ∃ (p : Fin 15000) (q : Fin 64), y = ix2 p q := ⟨y 0, y 1, eq_ix2 y⟩
  exact k2_pay1_apply x0 x1 w1 w2 b1 b2 p q

set_option maxHeartbeats 1000000 in
/-- What point t writes back is block t of the layer's whole-array function of the arrays as the region finds them. -/
theorem flushed2_eq (c : Dev nD) (t : Fin cfg2.N) :
    (Frame.dat2 (F := Ideal) V c).flushed 6 t = ((cfg2.win 6).blk t).view.read (Elt Ideal)
      (fun i : S150000x64.Idx => layerWhole (V c (Pipeline.arrRef spec2 0)) (V c (Pipeline.arrRef spec2 1))
        (V c (Pipeline.arrRef spec2 2)) (V c (Pipeline.arrRef spec2 4)) (V c (Pipeline.arrRef spec2 3))
        (V c (Pipeline.arrRef spec2 5)) (i 0) (i 1)) := by
  show (cfg2.win 6).cut (grid2.coords t) ((Frame.dat2 V c).after 6 t) = _
  rw [Frame.after2_6]
  unfold Frame.out2_6
  rw [View.canon_unit_zero hz]
  simp only [View.ld_unit_zero (S := S15000x64) hz, View.ld_unit_zero (S := S64x64) hz, View.ld_unit_zero (S := S1x64) hz]
  funext j
  rw [View.read_apply]
  show Gen.k2_pay1 (F := Ideal) (Frame.iblk2 V c 0 t) (Frame.iblk2 V c 1 t) (Frame.iblk2 V c 2 t) (Frame.iblk2 V c 4 t)
        (Frame.iblk2 V c 3 t) (Frame.iblk2 V c 5 t) ((win2 6).xinj (grid2.coords t) j)
      = layerWhole (V c (Pipeline.arrRef spec2 0)) (V c (Pipeline.arrRef spec2 1)) (V c (Pipeline.arrRef spec2 2))
        (V c (Pipeline.arrRef spec2 4)) (V c (Pipeline.arrRef spec2 3)) (V c (Pipeline.arrRef spec2 5))
        (((View.whole main_v71).slice ((win2 6).rect t)).emb j 0)
        (((View.whole main_v71).slice ((win2 6).rect t)).emb j 1)
  refine (k2_pay1_at (Frame.iblk2 V c 0 t) (Frame.iblk2 V c 1 t) (Frame.iblk2 V c 2 t) (Frame.iblk2 V c 4 t)
        (Frame.iblk2 V c 3 t) (Frame.iblk2 V c 5 t) ((win2 6).xinj (grid2.coords t) j)).trans ?_
  obtain ⟨-, -, -, -, -, -, -, -, -, -, -, -, e6, e7⟩ := idx_facts2 t
  refine layer_point (V c (Pipeline.arrRef spec2 0)) (V c (Pipeline.arrRef spec2 1)) (V c (Pipeline.arrRef spec2 2))
    (V c (Pipeline.arrRef spec2 4)) (V c (Pipeline.arrRef spec2 3)) (V c (Pipeline.arrRef spec2 5))
    (Frame.iblk2 V c 0 t) (Frame.iblk2 V c 1 t) (Frame.iblk2 V c 2 t) (Frame.iblk2 V c 4 t)
    (Frame.iblk2 V c 3 t) (Frame.iblk2 V c 5 t)
    ((win2 6).xinj (grid2.coords t) j 0) ((win2 6).xinj (grid2.coords t) j 1)
    (((View.whole main_v71).slice ((win2 6).rect t)).emb j 1)
    (((View.whole main_v71).slice ((win2 6).rect t)).emb j 0) ?_ ?_ ?_
    (iblk2_2_eq V c t) (iblk2_4_eq V c t) (iblk2_3_eq V c t) (iblk2_5_eq V c t)
  · apply Fin.ext
    show (j 1).val = win2_6.index t (1 : Fin 2) * 64 + 1 * (j 1).val
    rw [e7]; omega
  · intro k
    refine iblk2_0_apply V c t _ _ ?_ rfl
    show win2_6.index t (0 : Fin 2) * 15000 + 1 * (j 0).val = t.val * 15000 + (j 0).val
    rw [e6]; omega
  · intro k
    refine iblk2_1_apply V c t _ _ ?_ rfl
    show win2_6.index t (0 : Fin 2) * 15000 + 1 * (j 0).val = t.val * 15000 + (j 0).val
    rw [e6]; omega

/-- An index of the output array is in point t's block iff each coordinate is in the block's range on its axis. -/
theorem mem_blk2 (t : Fin cfg2.N) (i : S150000x64.Idx) :
    i ∈ ((cfg2.win 6).blk t).view.set ↔ ∀ a : Fin 2, win2_6.index t a * S15000x64.size a ≤ (i a).val
      ∧ (i a).val < win2_6.index t a * S15000x64.size a + S15000x64.size a := by
  show i ∈ ((View.whole main_v71).slice (win2_6.rect t)).set ↔ _
  rw [View.set_slice_whole, Rect.mem_set_unit]
  exact Iff.rfl

/-- The ten row blocks tile the 150000 rows: row r is in the block of point r / 15000. -/
theorem cover2 (i : S150000x64.Idx) :
    ∃ t : Fin cfg2.N, (cfg2.win 6).flush t = true ∧ i ∈ ((cfg2.win 6).blk t).view.set := by
  have hi0 : (i 0).val < 150000 := (i 0).isLt
  have hi1 : (i 1).val < 64 := (i 1).isLt
  have hN : cfg2.N = 10 := Gen.N_2
  have ht : (i 0).val / 15000 < cfg2.N := by rw [hN]; omega
  obtain ⟨-, -, -, -, -, -, -, -, -, -, -, -, e6, e7⟩ := idx_facts2 ⟨(i 0).val / 15000, ht⟩
  refine ⟨⟨(i 0).val / 15000, ht⟩, flush2_6 _, ?_⟩
  rw [mem_blk2]
  intro a
  match a with
  | ⟨0, _⟩ =>
    show win2_6.index ⟨(i 0).val / 15000, ht⟩ (0 : Fin 2) * 15000 ≤ (i 0).val
      ∧ (i 0).val < win2_6.index ⟨(i 0).val / 15000, ht⟩ (0 : Fin 2) * 15000 + 15000
    rw [e6]
    show (i 0).val / 15000 * 15000 ≤ (i 0).val ∧ (i 0).val < (i 0).val / 15000 * 15000 + 15000
    omega
  | ⟨1, _⟩ =>
    show win2_6.index ⟨(i 0).val / 15000, ht⟩ (1 : Fin 2) * 64 ≤ (i 1).val
      ∧ (i 1).val < win2_6.index ⟨(i 0).val / 15000, ht⟩ (1 : Fin 2) * 64 + 64
    rw [e7]
    omega

/-- The layer's output array after the region: the layer's whole-array function of the arrays as the region finds them. -/
theorem final2 (c : Dev nD) :
    (Frame.dat2 (F := Ideal) V c).arrAt 6 cfg2.N
      = fun i : S150000x64.Idx => layerWhole (V c (Pipeline.arrRef spec2 0)) (V c (Pipeline.arrRef spec2 1))
        (V c (Pipeline.arrRef spec2 2)) (V c (Pipeline.arrRef spec2 4)) (V c (Pipeline.arrRef spec2 3))
        (V c (Pipeline.arrRef spec2 5)) (i 0) (i 1) :=
  (Frame.dat2 (F := Ideal) V c).arrAt_eq_of_cover 6 _ (fun t _ => flushed2_eq V c t) cover2

end Cert.KernelIdeal.LayerValue

end
-- ==== Proof.ScorePayload.lean ====
/-
  The scoring body's stored column, read at an entry, over the extended reals.

  The body takes two blocks of gathered node embeddings `u`, `v` (both [512, 256]), a weight matrix `Wt` ([64, 256]) and
  a bias row `bt` ([1, 64]). Each block is mapped linearly, row p to the 64 numbers
      proj x (p, j) = (∑ k, x(p,k) · Wt(j,k)) + bt(0,j)
  (a matrix product into a zero accumulator by the TRANSPOSE of `Wt`, so the contracted index runs over the weight's
  second axis, and the bias row broadcast over the 512 rows), and the stored column's entry (p, 0) is the inner product
  of the two images of row p:
      ∑ j, proj u (p, j) · proj v (p, j)
  — a sum over the 64 lanes, then the vector of 512 sums viewed as a [512, 1] column.

  `scoreAt` is that entry as a function of the four arrays and the row; `k3_pay1_apply` says the body's stored value,
  read at (p, 0), is `scoreAt` of its four loads, in the order (u, v, Wt, bt).
-/
import proofs.«142689_j30262339568120_1_alg».proof.Proof.Gen.KernelIdeal.Skeleton
import proofs.«142689_j30262339568120_1_alg».proof.Proof.LibDenseLayer
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.ScoreValue

open Idealize.ShloMosaic Idealize.ShloMosaic.ValueIdx Cert.KernelIdeal

/-- The linear image of row p of a [512, 256] block at lane j: `(∑ k, x(p,k) · Wt(j,k)) + bt(0,j)`. -/
def projAt (x : (⟨2, ![512, 256]⟩ : Shape).Idx → EReal) (Wt : (⟨2, ![64, 256]⟩ : Shape).Idx → EReal)
    (bt : (⟨2, ![1, 64]⟩ : Shape).Idx → EReal) (p : Fin 512) (j : Fin 64) : EReal :=
  (∑ k : Fin 256, x (ix2 p k) * Wt (ix2 j k)) + bt (ix2 (0 : Fin 1) j)

/-- Entry (p, 0) of the stored column: the inner product over the 64 lanes of the two rows' linear images. -/
def scoreAt (u v : (⟨2, ![512, 256]⟩ : Shape).Idx → EReal) (Wt : (⟨2, ![64, 256]⟩ : Shape).Idx → EReal)
    (bt : (⟨2, ![1, 64]⟩ : Shape).Idx → EReal) (p : Fin 512) : EReal :=
  ∑ j : Fin 64, projAt u Wt bt p j * projAt v Wt bt p j

/-- `scoreAt` with the two linear images written out. -/
theorem scoreAt_eq (u v : (⟨2, ![512, 256]⟩ : Shape).Idx → EReal) (Wt : (⟨2, ![64, 256]⟩ : Shape).Idx → EReal)
    (bt : (⟨2, ![1, 64]⟩ : Shape).Idx → EReal) (p : Fin 512) :
    scoreAt u v Wt bt p
      = ∑ j : Fin 64, ((∑ k : Fin 256, u (ix2 p k) * Wt (ix2 j k)) + bt (ix2 (0 : Fin 1) j))
          * ((∑ k : Fin 256, v (ix2 p k) * Wt (ix2 j k)) + bt (ix2 (0 : Fin 1) j)) := rfl

/-- A matrix product of a [512, 256] block by a [256, 64] matrix into the zero accumulator, read at (p, j). -/
theorem matmul_at (L : FVec Ideal S512x256 .f32) (R : FVec Ideal S256x64 .f32) (p : Fin 512) (j : Fin 64) :
    matmul dot_S512x256_S256x64_S512x64_1_0_0_1_n_n none L R (constant (F := Ideal) S512x64 .f32 0x00000000#32) (ix2 p j)
      = ∑ k : Fin 256, L (ix2 p k) * R (ix2 k j) :=
  Cert.DenseLayer.matmul_rows_cols dot_S512x256_S256x64_S512x64_1_0_0_1_n_n rfl rfl
    (fun _ _ => rfl) (fun _ _ => rfl) (fun _ _ => rfl) (fun _ _ => rfl) none L R p j

/-- One linear map of the body at (p, j): the product by the transposed weight plus the broadcast bias row. -/
theorem linear_at (X : FVec Ideal S512x256 .f32) (Wt : FVec Ideal S64x256 .f32) (bt : FVec Ideal S1x64 .f32)
    (hT : S64x256.Transposes [1, 0] S256x64) (hB : S1x64.Broadcasts S512x64) (p : Fin 512) (j : Fin 64) :
    addf (matmul dot_S512x256_S256x64_S512x64_1_0_0_1_n_n none X (transpose S256x64 [1, 0] Wt hT)
        (constant (F := Ideal) S512x64 .f32 0x00000000#32)) (broadcastTo S512x64 bt hB) (ix2 p j)
      = projAt X Wt bt p j := by
  rw [addf_apply, matmul_at, broadcastTo_1b_ab_apply]
  refine congrArg (· + bt (ix2 (0 : Fin 1) j)) (Finset.sum_congr rfl fun k _ => ?_)
  rw [transpose_ix2_apply]

/-- A sum over the 64 lanes (axis 1) of a [512, 64] block from the zero word, read at row p: the row's sum. -/
theorem lane_sum_at (src : FVec Ideal S512x64 .f32) (hR : S512x64.Reduces [1] S512) (hφ : FKind.Formats .f32)
    (hacc : (0x00000000#32 : BitVec 32) = FKind.add.neutral .f32 hφ) (p : Fin 512) :
    multiReduction (F := Ideal) .add [1] S512 src 0x00000000#32 hR hφ hacc (ix1 p) = ∑ j : Fin 64, src (ix2 p j) := by
  refine (Ideal.multiReduction_add_single src 0x00000000#32 hR hφ hacc (ix1 p)).trans ?_
  show ∑ j : Fin 64, src (hR.lift (ix1 p) j) = ∑ j : Fin 64, src (ix2 p j)
  refine Finset.sum_congr rfl fun j _ => congrArg src (funext fun a => Fin.ext ?_)
  match a with
  | ⟨0, _⟩ => rfl
  | ⟨1, _⟩ => rfl

/-- A vector of 512 numbers viewed as a [512, 1] column reads, at (p, 0), the vector at p. -/
theorem column_at (x : FVec Ideal S512 .f32) (hC : S512.ShapeCasts S512x1) (p : Fin 512) :
    shapeCast S512x1 x hC (ix2 p (0 : Fin 1)) = x (ix1 p) :=
  shapeCast_apply x hC (ix2 p (0 : Fin 1)) (ix1 p) (by
    rw [Shape.rowMajor_val_one, Shape.rowMajor_val_two]
    show p.val = p.val * 1 + 0
    omega)

/-- The body's whole arithmetic at (p, 0), from its operands as the body has them. -/
theorem body_at (u v : FVec Ideal S512x256 .f32) (Wt : FVec Ideal S64x256 .f32) (bt : FVec Ideal S1x64 .f32)
    (hT : S64x256.Transposes [1, 0] S256x64) (hB : S1x64.Broadcasts S512x64) (hR : S512x64.Reduces [1] S512)
    (hC : S512.ShapeCasts S512x1) (hφ : FKind.Formats .f32)
    (hacc : (0x00000000#32 : BitVec 32) = FKind.add.neutral .f32 hφ) (p : Fin 512) :
    shapeCast S512x1
        (multiReduction (F := Ideal) .add [1] S512
          (mulf
            (addf (matmul dot_S512x256_S256x64_S512x64_1_0_0_1_n_n none u (transpose S256x64 [1, 0] Wt hT)
              (constant (F := Ideal) S512x64 .f32 0x00000000#32)) (broadcastTo S512x64 bt hB))
            (addf (matmul dot_S512x256_S256x64_S512x64_1_0_0_1_n_n none v (transpose S256x64 [1, 0] Wt hT)
              (constant (F := Ideal) S512x64 .f32 0x00000000#32)) (broadcastTo S512x64 bt hB)))
          0x00000000#32 hR hφ hacc)
        hC (ix2 p (0 : Fin 1))
      = scoreAt u v Wt bt p := by
  refine (column_at _ hC p).trans ?_
  refine (lane_sum_at _ hR hφ hacc p).trans ?_
  unfold scoreAt
  refine Finset.sum_congr rfl fun j _ => ?_
  rw [mulf_apply, linear_at, linear_at]

theorem k3_pay1_apply (x0 x1 : Vec Ideal S512x256 .f32) (w : Vec Ideal S64x256 .f32) (b : Vec Ideal S1x64 .f32)
    (p : Fin 512) :
    Gen.k3_pay1 (F := Ideal) x0 x1 w b (ix2 p (0 : Fin 1)) = scoreAt x0 x1 w b p := by
  unfold Gen.k3_pay1
  simp only [shapeCast_self]
  exact body_at x0 x1 w b _ _ _ _ _ _ p

end Cert.KernelIdeal.ScoreValue

end
-- ==== Proof.ScoreArray.lean ====
/-
  From blocks to the array, for the scoring region.

  The region runs over eight grid points; point t reads rows 512·t … 512·t + 511 of the two gathered embedding arrays
  ([4096, 256]; windows 0 and 1), the whole weight matrix ([64, 256]; window 2) and the whole bias row ([1, 64]; window 3),
  whose block index never moves, and overwrites the same 512 rows of the [4096, 1] output column (window 4). Entry (r, 0)
  of the output depends only on row r of the two embedding arrays, so what every point writes back is ITS BLOCK of one
  whole-array function, `scoreWhole`:
      ∑ j, ((∑ k, u(r,k) · Wt(j,k)) + bt(0,j)) · ((∑ k, v(r,k) · Wt(j,k)) + bt(0,j)).
  The eight blocks tile the 4096 rows (row r lies in the block of point r / 512), so after the region the output column
  IS that function of the arrays as the region found them (`final3`).
-/
import proofs.«142689_j30262339568120_1_alg».proof.Proof.KernelIdealRegion3
import proofs.«142689_j30262339568120_1_alg».proof.Proof.ScorePayload
import Idealize.ShloMosaic.Lib.Pipeline.Value

noncomputable section

namespace Cert.KernelIdeal.ScoreValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Entry (r, 0) of the whole output column, from the whole embedding arrays, the weight and the bias. -/
def scoreWhole (u v : (⟨2, ![4096, 256]⟩ : Shape).Idx → EReal) (Wt : (⟨2, ![64, 256]⟩ : Shape).Idx → EReal)
    (bt : (⟨2, ![1, 64]⟩ : Shape).Idx → EReal) (r : Fin 4096) : EReal :=
  ∑ j : Fin 64, ((∑ k : Fin 256, u (ix2 r k) * Wt (ix2 j k)) + bt (ix2 (0 : Fin 1) j))
    * ((∑ k : Fin 256, v (ix2 r k) * Wt (ix2 j k)) + bt (ix2 (0 : Fin 1) j))

/-- A block's entry is the whole array's: if row p of the two row blocks is row r of the two arrays and the weight and
    bias are the arrays', the block's score at p is the whole one at r. -/
theorem score_point (u v : (⟨2, ![4096, 256]⟩ : Shape).Idx → EReal) (Wt : (⟨2, ![64, 256]⟩ : Shape).Idx → EReal)
    (bt : (⟨2, ![1, 64]⟩ : Shape).Idx → EReal)
    (x0 x1 : (⟨2, ![512, 256]⟩ : Shape).Idx → EReal) (x2 : (⟨2, ![64, 256]⟩ : Shape).Idx → EReal)
    (x3 : (⟨2, ![1, 64]⟩ : Shape).Idx → EReal) (p : Fin 512) (r : Fin 4096)
    (h0 : ∀ k : Fin 256, x0 (ix2 p k) = u (ix2 r k)) (h1 : ∀ k : Fin 256, x1 (ix2 p k) = v (ix2 r k))
    (h2 : x2 = Wt) (h3 : x3 = bt) :
    scoreAt x0 x1 x2 x3 p = scoreWhole u v Wt bt r := by
  subst h2 h3
  unfold scoreAt projAt scoreWhole
  simp only [h0, h1]

/-- The index maps of the region's five windows at each of the eight grid points: the two row-blocked inputs and the
    output are at block (t, 0); the weight and the bias stay at block (0, 0). -/
theorem idx_facts3 : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- A block of the first embedding rows (window 0) at point t, read at x: the array at row 512·t + x₀. -/
theorem iblk3_0_apply (c : Dev nD) (t : Fin cfg3.N) (x : S512x256.Idx) (k : S4096x256.Idx)
    (hk0 : (k 0).val = t.val * 512 + (x 0).val) (hk1 : (k 1).val = (x 1).val) :
    (Frame.iblk3 V c 0 t : Vec Ideal S512x256 .f32) x = (V c (Pipeline.arrRef spec3 0) : S4096x256.Idx → EReal) k := by
  obtain ⟨e0, e1, -, -, -, -, -, -, e6, -⟩ := idx_facts3 t
  unfold Frame.iblk3
  rw [View.read_apply]
  show V c (Pipeline.arrRef spec3 0) _ = V c (Pipeline.arrRef spec3 0) _
  congr 1
  funext a; apply Fin.ext
  match a with
  | ⟨0, _⟩ => show win3_0.index t (0 : Fin 2) * 512 + 1 * (x 0).val = (k 0).val; rw [e0, e6, hk0]; omega
  | ⟨1, _⟩ => show win3_0.index t (1 : Fin 2) * 256 + 1 * (x 1).val = (k 1).val; rw [e1, hk1]; omega

/-- A block of the second embedding rows (window 1) likewise. -/
theorem iblk3_1_apply (c : Dev nD) (t : Fin cfg3.N) (x : S512x256.Idx) (k : S4096x256.Idx)
    (hk0 : (k 0).val = t.val * 512 + (x 0).val) (hk1 : (k 1).val = (x 1).val) :
    (Frame.iblk3 V c 1 t : Vec Ideal S512x256 .f32) x = (V c (Pipeline.arrRef spec3 1) : S4096x256.Idx → EReal) k := by
  obtain ⟨-, -, e0, e1, -, -, -, -, e6, -⟩ := idx_facts3 t
  unfold Frame.iblk3
  rw [View.read_apply]
  show V c (Pipeline.arrRef spec3 1) _ = V c (Pipeline.arrRef spec3 1) _
  congr 1
  funext a; apply Fin.ext
  match a with
  | ⟨0, _⟩ => show win3_1.index t (0 : Fin 2) * 512 + 1 * (x 0).val = (k 0).val; rw [e0, e6, hk0]; omega
  | ⟨1, _⟩ => show win3_1.index t (1 : Fin 2) * 256 + 1 * (x 1).val = (k 1).val; rw [e1, hk1]; omega

/-- The weight's and the bias's windows do not move: their one block is the whole array. -/
theorem iblk3_2_eq (c : Dev nD) (t : Fin cfg3.N) :
    (Frame.iblk3 V c 2 t : Vec Ideal S64x256 .f32) = (V c (Pipeline.arrRef spec3 2) : S64x256.Idx → EReal) := by
  obtain ⟨-, -, -, -, e0, e1, -⟩ := idx_facts3 t
  funext x
  unfold Frame.iblk3
  rw [View.read_apply]
  show V c (Pipeline.arrRef spec3 2) _ = V c (Pipeline.arrRef spec3 2) x
  congr 1
  funext a; apply Fin.ext
  match a with
  | ⟨0, _⟩ => show win3_2.index t (0 : Fin 2) * 64 + 1 * (x 0).val = (x 0).val; rw [e0]; omega
  | ⟨1, _⟩ => show win3_2.index t (1 : Fin 2) * 256 + 1 * (x 1).val = (x 1).val; rw [e1]; omega

theorem iblk3_3_eq (c : Dev nD) (t : Fin cfg3.N) :
    (Frame.iblk3 V c 3 t : Vec Ideal S1x64 .f32) = (V c (Pipeline.arrRef spec3 3) : S1x64.Idx → EReal) := by
  obtain ⟨-, -, -, -, -, -, e0, e1, -⟩ := idx_facts3 t
  funext x
  unfold Frame.iblk3
  rw [View.read_apply]
  show V c (Pipeline.arrRef spec3 3) _ = V c (Pipeline.arrRef spec3 3) x
  congr 1
  funext a; apply Fin.ext
  match a with
  | ⟨0, _⟩ => show win3_3.index t (0 : Fin 2) * 1 + 1 * (x 0).val = (x 0).val; rw [e0]; omega
  | ⟨1, _⟩ => show win3_3.index t (1 : Fin 2) * 64 + 1 * (x 1).val = (x 1).val; rw [e1]; omega

/-- The body's stored value read at any index of its [512, 1] block: the column has one lane. -/
theorem k3_pay1_at (x0 x1 : Vec Ideal S512x256 .f32) (w : Vec Ideal S64x256 .f32) (b : Vec Ideal S1x64 .f32)
    (y : S512x1.Idx) :
    Gen.k3_pay1 (F := Ideal) x0 x1 w b y = scoreAt x0 x1 w b (y 0) := by
  obtain ⟨p, z, rfl⟩ : ∃ (p : Fin 512) (z : Fin 1), y = ix2 p z := ⟨y 0, y 1, eq_ix2 y⟩
  obtain rfl : z = 0 := Fin.eq_zero z
  exact k3_pay1_apply x0 x1 w b p

set_option maxHeartbeats 1000000 in
/-- What point t writes back is block t of the whole-array score of the arrays as the region finds them. -/
theorem flushed3_eq (c : Dev nD) (t : Fin cfg3.N) :
    (Frame.dat3 (F := Ideal) V c).flushed 4 t = ((cfg3.win 4).blk t).view.read (Elt Ideal)
      (fun i : S4096x1.Idx => scoreWhole (V c (Pipeline.arrRef spec3 0)) (V c (Pipeline.arrRef spec3 1))
        (V c (Pipeline.arrRef spec3 2)) (V c (Pipeline.arrRef spec3 3)) (i 0)) := by
  show (cfg3.win 4).cut (grid3.coords t) ((Frame.dat3 V c).after 4 t) = _
  rw [Frame.after3_4]
  unfold Frame.out3_4
  rw [View.canon_unit_zero hz]
  simp only [View.ld_unit_zero (S := S512x256) hz, View.ld_unit_zero (S := S64x256) hz, View.ld_unit_zero (S := S1x64) hz]
  funext j
  rw [View.read_apply]
  show Gen.k3_pay1 (F := Ideal) (Frame.iblk3 V c 0 t) (Frame.iblk3 V c 1 t) (Frame.iblk3 V c 2 t) (Frame.iblk3 V c 3 t)
        ((win3 4).xinj (grid3.coords t) j)
      = scoreWhole (V c (Pipeline.arrRef spec3 0)) (V c (Pipeline.arrRef spec3 1)) (V c (Pipeline.arrRef spec3 2))
        (V c (Pipeline.arrRef spec3 3)) (((View.whole main_v90).slice ((win3 4).rect t)).emb j 0)
  refine (k3_pay1_at (Frame.iblk3 V c 0 t) (Frame.iblk3 V c 1 t) (Frame.iblk3 V c 2 t) (Frame.iblk3 V c 3 t)
        ((win3 4).xinj (grid3.coords t) j)).trans ?_
  obtain ⟨-, -, -, -, -, -, -, -, e6, e7⟩ := idx_facts3 t
  refine score_point (V c (Pipeline.arrRef spec3 0)) (V c (Pipeline.arrRef spec3 1)) (V c (Pipeline.arrRef spec3 2))
    (V c (Pipeline.arrRef spec3 3))
    (Frame.iblk3 V c 0 t) (Frame.iblk3 V c 1 t) (Frame.iblk3 V c 2 t) (Frame.iblk3 V c 3 t)
    ((win3 4).xinj (grid3.coords t) j 0)
    (((View.whole main_v90).slice ((win3 4).rect t)).emb j 0) ?_ ?_
    (iblk3_2_eq V c t) (iblk3_3_eq V c t)
  · intro k
    refine iblk3_0_apply V c t _ _ ?_ rfl
    show win3_4.index t (0 : Fin 2) * 512 + 1 * (j 0).val = t.val * 512 + (j 0).val
    rw [e6]; omega
  · intro k
    refine iblk3_1_apply V c t _ _ ?_ rfl
    show win3_4.index t (0 : Fin 2) * 512 + 1 * (j 0).val = t.val * 512 + (j 0).val
    rw [e6]; omega

/-- An index of the output column is in point t's block iff each coordinate is in the block's range on its axis. -/
theorem mem_blk3 (t : Fin cfg3.N) (i : S4096x1.Idx) :
    i ∈ ((cfg3.win 4).blk t).view.set ↔ ∀ a : Fin 2, win3_4.index t a * S512x1.size a ≤ (i a).val
      ∧ (i a).val < win3_4.index t a * S512x1.size a + S512x1.size a := by
  show i ∈ ((View.whole main_v90).slice (win3_4.rect t)).set ↔ _
  rw [View.set_slice_whole, Rect.mem_set_unit]
  exact Iff.rfl

/-- The eight row blocks tile the 4096 rows: row r is in the block of point r / 512. -/
theorem cover3 (i : S4096x1.Idx) :
    ∃ t : Fin cfg3.N, (cfg3.win 4).flush t = true ∧ i ∈ ((cfg3.win 4).blk t).view.set := by
  have hi0 : (i 0).val < 4096 := (i 0).isLt
  have hi1 : (i 1).val < 1 := (i 1).isLt
  have hN : cfg3.N = 8 := Gen.N_3
  have ht : (i 0).val / 512 < cfg3.N := by rw [hN]; omega
  obtain ⟨-, -, -, -, -, -, -, -, e6, e7⟩ := idx_facts3 ⟨(i 0).val / 512, ht⟩
  refine ⟨⟨(i 0).val / 512, ht⟩, flush3_4 _, ?_⟩
  rw [mem_blk3]
  intro a
  match a with
  | ⟨0, _⟩ =>
    show win3_4.index ⟨(i 0).val / 512, ht⟩ (0 : Fin 2) * 512 ≤ (i 0).val
      ∧ (i 0).val < win3_4.index ⟨(i 0).val / 512, ht⟩ (0 : Fin 2) * 512 + 512
    rw [e6]
    show (i 0).val / 512 * 512 ≤ (i 0).val ∧ (i 0).val < (i 0).val / 512 * 512 + 512
    omega
  | ⟨1, _⟩ =>
    show win3_4.index ⟨(i 0).val / 512, ht⟩ (1 : Fin 2) * 1 ≤ (i 1).val
      ∧ (i 1).val < win3_4.index ⟨(i 0).val / 512, ht⟩ (1 : Fin 2) * 1 + 1
    rw [e7]
    omega

/-- The output column after the region: the whole-array score of the arrays as the region finds them. -/
theorem final3 (c : Dev nD) :
    (Frame.dat3 (F := Ideal) V c).arrAt 4 cfg3.N
      = fun i : S4096x1.Idx => scoreWhole (V c (Pipeline.arrRef spec3 0)) (V c (Pipeline.arrRef spec3 1))
        (V c (Pipeline.arrRef spec3 2)) (V c (Pipeline.arrRef spec3 3)) (i 0) :=
  (Frame.dat3 (F := Ideal) V c).arrAt_eq_of_cover 4 _ (fun t _ => flushed3_eq V c t) cover3

end Cert.KernelIdeal.ScoreValue

end
-- ==== Proof.ReferenceRead.lean ====
/- The reference program read back, layer by layer: each layer's result as a named function of the
   buffers the layer reads (the sparse aggregation and the dense rest kept apart), the read-out likewise. -/
import proofs.«142689_j30262339568120_1_alg».proof.Proof.ReferenceFrame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The layers as functions -/

/-- The sparse aggregation: row `rows e` of the result accumulates `vals e` times row `cols e` of `x` (a negative
    column index first wrapped by the row count), from the zero array. -/
def spmm (x : (⟨S150000x64, .f32⟩ : BufTy).Contents (Elt F)) (rows cols : (⟨S2400000, .i32⟩ : BufTy).Contents (Elt F)) (vals : (⟨S2400000, .f32⟩ : BufTy).Contents (Elt F)) : (⟨S150000x64, .f32⟩ : BufTy).Contents (Elt F) :=
  Host.scatterAdd scatter_S150000x64_S2400000x1_S2400000x64_1_0_0_1
    (broadcastInDim S150000x64 ![] bcast_S_S150000x64 (constant (F := F) S_ .f32 0x00000000#32))
    (broadcastInDim S2400000x1 ![0] bcast_S2400000_S2400000x1_0 rows)
    (mulf
      (broadcastInDim S2400000x64 ![0, 1] bcast_S2400000x1_S2400000x64_0_1
        (broadcastInDim S2400000x1 ![0] bcast_S2400000_S2400000x1_0 vals))
      (Host.gather gather_S150000x64_S2400000x1_S2400000x64_1_0_n_n_0_1_164 x
        (broadcastInDim S2400000x1 ![0] bcast_S2400000_S2400000x1_0
          (select (cmpi .slt cols (broadcastInDim S2400000 ![] bcast_S_S2400000 (constantI S_ 32 0#32)))
            (addi cols (broadcastInDim S2400000 ![] bcast_S_S2400000 (constantI S_ 32 150000#32))) cols))))

/-- One linear map of a layer: `a` times the transposed weight slice, plus the bias slice along the rows. -/
def lin (a : (⟨S150000x64, .f32⟩ : BufTy).Contents (Elt F)) (Wl : (⟨S1x64x64, .f32⟩ : BufTy).Contents (Elt F)) (bl : (⟨S1x64, .f32⟩ : BufTy).Contents (Elt F)) : (⟨S150000x64, .f32⟩ : BufTy).Contents (Elt F) :=
  addf
    (Host.dotGeneral dot_S150000x64_S64x64_S150000x64_1_0_0_1_n_n none a
      (transpose S64x64 [1, 0] (shapeCast S64x64 Wl shapeCasts_S1x64x64_S64x64) transposes_S64x64_S64x64_1_0))
    (broadcastInDim S150000x64 ![0, 1] bcast_S1x64_S150000x64_0_1
      (broadcastInDim S1x64 ![1] bcast_S64_S1x64_1 (shapeCast S64 bl shapeCasts_S1x64_S64)))

/-- A layer before the rectifier: the linear map of the sum plus the linear map of the product. -/
def preact (agg x : (⟨S150000x64, .f32⟩ : BufTy).Contents (Elt F)) (W1l : (⟨S1x64x64, .f32⟩ : BufTy).Contents (Elt F)) (b1l : (⟨S1x64, .f32⟩ : BufTy).Contents (Elt F)) (W2l : (⟨S1x64x64, .f32⟩ : BufTy).Contents (Elt F)) (b2l : (⟨S1x64, .f32⟩ : BufTy).Contents (Elt F)) : (⟨S150000x64, .f32⟩ : BufTy).Contents (Elt F) :=
  addf (lin (addf agg x) W1l b1l) (lin (mulf agg x) W2l b2l)

/-- The leaky rectifier on an array: `p` where `p ≥ 0`, the slope times `p` elsewhere. -/
def leakyv (p : (⟨S150000x64, .f32⟩ : BufTy).Contents (Elt F)) : (⟨S150000x64, .f32⟩ : BufTy).Contents (Elt F) :=
  select (cmpf .oge p (broadcastInDim S150000x64 ![] bcast_S_S150000x64 (constant (F := F) S_ .f32 0x00000000#32))) p
    (mulf (broadcastInDim S150000x64 ![] bcast_S_S150000x64 (id (constant (F := F) S_ .f32 0x3C23D70A#32))) p)

/-- Layer 1 after the aggregation: slice 0 of each weight and bias. -/
def dense1 (agg x : (⟨S150000x64, .f32⟩ : BufTy).Contents (Elt F)) (W1 : (⟨S3x64x64, .f32⟩ : BufTy).Contents (Elt F)) (b1 : (⟨S3x64, .f32⟩ : BufTy).Contents (Elt F)) (W2 : (⟨S3x64x64, .f32⟩ : BufTy).Contents (Elt F)) (b2 : (⟨S3x64, .f32⟩ : BufTy).Contents (Elt F)) : (⟨S150000x64, .f32⟩ : BufTy).Contents (Elt F) :=
  leakyv (preact agg x
    (extractStridedSlice S1x64x64 ![0, 0, 0] W1 slices_S3x64x64_S1x64x64_0_0_0)
    (extractStridedSlice S1x64 ![0, 0] b1 slices_S3x64_S1x64_0_0)
    (extractStridedSlice S1x64x64 ![0, 0, 0] W2 slices_S3x64x64_S1x64x64_0_0_0)
    (extractStridedSlice S1x64 ![0, 0] b2 slices_S3x64_S1x64_0_0))

/-- Layer 2 after the aggregation: slice 1 of each weight and bias. -/
def dense2 (agg x : (⟨S150000x64, .f32⟩ : BufTy).Contents (Elt F)) (W1 : (⟨S3x64x64, .f32⟩ : BufTy).Contents (Elt F)) (b1 : (⟨S3x64, .f32⟩ : BufTy).Contents (Elt F)) (W2 : (⟨S3x64x64, .f32⟩ : BufTy).Contents (Elt F)) (b2 : (⟨S3x64, .f32⟩ : BufTy).Contents (Elt F)) : (⟨S150000x64, .f32⟩ : BufTy).Contents (Elt F) :=
  leakyv (preact agg x
    (extractStridedSlice S1x64x64 ![1, 0, 0] W1 slices_S3x64x64_S1x64x64_1_0_0)
    (extractStridedSlice S1x64 ![1, 0] b1 slices_S3x64_S1x64_1_0)
    (extractStridedSlice S1x64x64 ![1, 0, 0] W2 slices_S3x64x64_S1x64x64_1_0_0)
    (extractStridedSlice S1x64 ![1, 0] b2 slices_S3x64_S1x64_1_0))

/-- Layer 3 after the aggregation: slice 2 of each weight and bias. -/
def dense3 (agg x : (⟨S150000x64, .f32⟩ : BufTy).Contents (Elt F)) (W1 : (⟨S3x64x64, .f32⟩ : BufTy).Contents (Elt F)) (b1 : (⟨S3x64, .f32⟩ : BufTy).Contents (Elt F)) (W2 : (⟨S3x64x64, .f32⟩ : BufTy).Contents (Elt F)) (b2 : (⟨S3x64, .f32⟩ : BufTy).Contents (Elt F)) : (⟨S150000x64, .f32⟩ : BufTy).Contents (Elt F) :=
  leakyv (preact agg x
    (extractStridedSlice S1x64x64 ![2, 0, 0] W1 slices_S3x64x64_S1x64x64_2_0_0)
    (extractStridedSlice S1x64 ![2, 0] b1 slices_S3x64_S1x64_2_0)
    (extractStridedSlice S1x64x64 ![2, 0, 0] W2 slices_S3x64x64_S1x64x64_2_0_0)
    (extractStridedSlice S1x64 ![2, 0] b2 slices_S3x64_S1x64_2_0))

/-! ## The layers read back -/

set_option maxRecDepth 16384 in
set_option maxHeartbeats 4000000 in
/-- Layer 1's result from any contents `W` before it. -/
theorem read1 (W : Valuation τ sig (Elt F)) :
    after ops1 W (Proc.devRef .tc main_v34)
      = dense1 (spmm (W (Proc.devRef .tc main_arg0)) (W (Proc.devRef .tc main_arg1)) (W (Proc.devRef .tc main_arg2)) (W (Proc.devRef .tc main_arg3))) (W (Proc.devRef .tc main_arg0))
          (W (Proc.devRef .tc main_arg6)) (W (Proc.devRef .tc main_arg7)) (W (Proc.devRef .tc main_arg8)) (W (Proc.devRef .tc main_arg9)) := by
  after_results_simp
  rfl

set_option maxRecDepth 16384 in
set_option maxHeartbeats 4000000 in
/-- Layer 2's result from any contents `W` before it. -/
theorem read2 (W : Valuation τ sig (Elt F)) :
    after ops2 W (Proc.devRef .tc main_v69)
      = dense2 (spmm (W (Proc.devRef .tc main_v34)) (W (Proc.devRef .tc main_arg1)) (W (Proc.devRef .tc main_arg2)) (W (Proc.devRef .tc main_arg3))) (W (Proc.devRef .tc main_v34))
          (W (Proc.devRef .tc main_arg6)) (W (Proc.devRef .tc main_arg7)) (W (Proc.devRef .tc main_arg8)) (W (Proc.devRef .tc main_arg9)) := by
  after_results_simp
  rfl

set_option maxRecDepth 16384 in
set_option maxHeartbeats 4000000 in
/-- Layer 3's result from any contents `W` before it. -/
theorem read3 (W : Valuation τ sig (Elt F)) :
    after ops3 W (Proc.devRef .tc main_v104)
      = dense3 (spmm (W (Proc.devRef .tc main_v69)) (W (Proc.devRef .tc main_arg1)) (W (Proc.devRef .tc main_arg2)) (W (Proc.devRef .tc main_arg3))) (W (Proc.devRef .tc main_v69))
          (W (Proc.devRef .tc main_arg6)) (W (Proc.devRef .tc main_arg7)) (W (Proc.devRef .tc main_arg8)) (W (Proc.devRef .tc main_arg9)) := by
  after_results_simp
  rfl

/-! ## The read-out -/

/-- The four feature blocks side by side. -/
def concat4 (x0 x1 x2 x3 : (⟨S150000x64, .f32⟩ : BufTy).Contents (Elt F)) : (⟨S150000x256, .f32⟩ : BufTy).Contents (Elt F) :=
  concatenate S150000x256 1 [⟨S150000x64, x0⟩, ⟨S150000x64, x1⟩, ⟨S150000x64, x2⟩, ⟨S150000x64, x3⟩]
    concatenates_S150000x64_S150000x64_S150000x64_S150000x64_S150000x256_d1

/-- The rows of `final` at the first index list (a negative index first wrapped by the row count). -/
def gatherU (final : (⟨S150000x256, .f32⟩ : BufTy).Contents (Elt F)) (users : (⟨S4096, .i32⟩ : BufTy).Contents (Elt F)) : (⟨S4096x256, .f32⟩ : BufTy).Contents (Elt F) :=
  Host.gather gather_S150000x256_S4096x1_S4096x256_1_0_n_n_0_1_1256 final
    (broadcastInDim S4096x1 ![0] bcast_S4096_S4096x1_0
      (select (cmpi .slt users (broadcastInDim S4096 ![] bcast_S_S4096 (constantI S_ 32 0#32)))
        (addi users (broadcastInDim S4096 ![] bcast_S_S4096 (constantI S_ 32 150000#32))) users))

/-- The second index list moved past the first block of rows. -/
def shiftItems (items : (⟨S4096, .i32⟩ : BufTy).Contents (Elt F)) : (⟨S4096, .i32⟩ : BufTy).Contents (Elt F) :=
  addi (broadcastInDim S4096 ![] bcast_S_S4096 (constantI S_ 32 100000#32)) items

/-- The rows of `final` at the shifted second index list (wrapped likewise). -/
def gatherI (final : (⟨S150000x256, .f32⟩ : BufTy).Contents (Elt F)) (items : (⟨S4096, .i32⟩ : BufTy).Contents (Elt F)) : (⟨S4096x256, .f32⟩ : BufTy).Contents (Elt F) :=
  Host.gather gather_S150000x256_S4096x1_S4096x256_1_0_n_n_0_1_1256 final
    (broadcastInDim S4096x1 ![0] bcast_S4096_S4096x1_0
      (select (cmpi .slt (shiftItems items) (broadcastInDim S4096 ![] bcast_S_S4096 (constantI S_ 32 0#32)))
        (addi (shiftItems items) (broadcastInDim S4096 ![] bcast_S_S4096 (constantI S_ 32 150000#32))) (shiftItems items)))

/-- The output map: gathered rows times the transposed output weights, plus the bias along the rows. -/
def emb (G : (⟨S4096x256, .f32⟩ : BufTy).Contents (Elt F)) (Wt : (⟨S64x256, .f32⟩ : BufTy).Contents (Elt F)) (bt : (⟨S64, .f32⟩ : BufTy).Contents (Elt F)) : (⟨S4096x64, .f32⟩ : BufTy).Contents (Elt F) :=
  addf
    (Host.dotGeneral dot_S4096x256_S256x64_S4096x64_1_0_0_1_n_n none G
      (transpose S256x64 [1, 0] Wt transposes_S64x256_S256x64_1_0))
    (broadcastInDim S4096x64 ![0, 1] bcast_S1x64_S4096x64_0_1 (broadcastInDim S1x64 ![1] bcast_S64_S1x64_1 bt))

/-- The read-out: the two embedded row sets multiplied and summed along the feature axis, from zero. -/
def scoreTail (x0 x1 x2 x3 : (⟨S150000x64, .f32⟩ : BufTy).Contents (Elt F)) (users items : (⟨S4096, .i32⟩ : BufTy).Contents (Elt F)) (Wt : (⟨S64x256, .f32⟩ : BufTy).Contents (Elt F)) (bt : (⟨S64, .f32⟩ : BufTy).Contents (Elt F)) : (⟨S4096, .f32⟩ : BufTy).Contents (Elt F) :=
  Host.reduceAdd
    (mulf (emb (gatherU (concat4 x0 x1 x2 x3) users) Wt bt) (emb (gatherI (concat4 x0 x1 x2 x3) items) Wt bt))
    (constant (F := F) S_ .f32 0x00000000#32) reducesTo_S4096x64_S4096_d1 h_S_

set_option maxRecDepth 16384 in
set_option maxHeartbeats 4000000 in
/-- The read-out's result from any contents `W` before it. -/
theorem read4 (W : Valuation τ sig (Elt F)) :
    after ops4 W (Proc.devRef .tc main_v133)
      = scoreTail (W (Proc.devRef .tc main_arg0)) (W (Proc.devRef .tc main_v34)) (W (Proc.devRef .tc main_v69)) (W (Proc.devRef .tc main_v104))
          (W (Proc.devRef .tc main_arg4)) (W (Proc.devRef .tc main_arg5)) (W (Proc.devRef .tc main_arg10)) (W (Proc.devRef .tc main_arg11)) := by
  after_results_simp
  rfl

end Cert.ReferenceIdeal.RefRun

end
-- ==== Proof.ReferenceWhole.lean ====
/- The reference's run read back whole: from any contents before @main, the result buffer holds the read-out
   of the argument features and the three layers' features, each layer the dense rest of its own sparse
   aggregation of the previous layer's features. Only chains the four layer read-backs with the facts that a
   layer leaves the references it does not write as they were. -/
import proofs.«142689_j30262339568120_1_alg».proof.Proof.ReferenceRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first layer's features: the dense rest of the sparse aggregation of the argument features. -/
def layer1 (a0 : (⟨S150000x64, .f32⟩ : BufTy).Contents (Elt F)) (a1 a2 : (⟨S2400000, .i32⟩ : BufTy).Contents (Elt F)) (a3 : (⟨S2400000, .f32⟩ : BufTy).Contents (Elt F))
    (a6 : (⟨S3x64x64, .f32⟩ : BufTy).Contents (Elt F)) (a7 : (⟨S3x64, .f32⟩ : BufTy).Contents (Elt F)) (a8 : (⟨S3x64x64, .f32⟩ : BufTy).Contents (Elt F)) (a9 : (⟨S3x64, .f32⟩ : BufTy).Contents (Elt F)) : (⟨S150000x64, .f32⟩ : BufTy).Contents (Elt F) :=
  dense1 (spmm a0 a1 a2 a3) a0 a6 a7 a8 a9
/-- The second layer's features, on the first layer's. -/
def layer2 (a0 : (⟨S150000x64, .f32⟩ : BufTy).Contents (Elt F)) (a1 a2 : (⟨S2400000, .i32⟩ : BufTy).Contents (Elt F)) (a3 : (⟨S2400000, .f32⟩ : BufTy).Contents (Elt F))
    (a6 : (⟨S3x64x64, .f32⟩ : BufTy).Contents (Elt F)) (a7 : (⟨S3x64, .f32⟩ : BufTy).Contents (Elt F)) (a8 : (⟨S3x64x64, .f32⟩ : BufTy).Contents (Elt F)) (a9 : (⟨S3x64, .f32⟩ : BufTy).Contents (Elt F)) : (⟨S150000x64, .f32⟩ : BufTy).Contents (Elt F) :=
  dense2 (spmm (layer1 a0 a1 a2 a3 a6 a7 a8 a9) a1 a2 a3) (layer1 a0 a1 a2 a3 a6 a7 a8 a9) a6 a7 a8 a9
/-- The third layer's features, on the second layer's. -/
def layer3 (a0 : (⟨S150000x64, .f32⟩ : BufTy).Contents (Elt F)) (a1 a2 : (⟨S2400000, .i32⟩ : BufTy).Contents (Elt F)) (a3 : (⟨S2400000, .f32⟩ : BufTy).Contents (Elt F))
    (a6 : (⟨S3x64x64, .f32⟩ : BufTy).Contents (Elt F)) (a7 : (⟨S3x64, .f32⟩ : BufTy).Contents (Elt F)) (a8 : (⟨S3x64x64, .f32⟩ : BufTy).Contents (Elt F)) (a9 : (⟨S3x64, .f32⟩ : BufTy).Contents (Elt F)) : (⟨S150000x64, .f32⟩ : BufTy).Contents (Elt F) :=
  dense3 (spmm (layer2 a0 a1 a2 a3 a6 a7 a8 a9) a1 a2 a3) (layer2 a0 a1 a2 a3 a6 a7 a8 a9) a6 a7 a8 a9

theorem v34_after1 (V : Valuation τ sig (Elt F)) :
    after ops1 V (Proc.devRef .tc main_v34) = layer1 (V (Proc.devRef .tc main_arg0)) (V (Proc.devRef .tc main_arg1)) (V (Proc.devRef .tc main_arg2)) (V (Proc.devRef .tc main_arg3)) (V (Proc.devRef .tc main_arg6)) (V (Proc.devRef .tc main_arg7)) (V (Proc.devRef .tc main_arg8)) (V (Proc.devRef .tc main_arg9)) := read1 V

theorem v69_after2 (V : Valuation τ sig (Elt F)) :
    after ops2 (after ops1 V) (Proc.devRef .tc main_v69) = layer2 (V (Proc.devRef .tc main_arg0)) (V (Proc.devRef .tc main_arg1)) (V (Proc.devRef .tc main_arg2)) (V (Proc.devRef .tc main_arg3)) (V (Proc.devRef .tc main_arg6)) (V (Proc.devRef .tc main_arg7)) (V (Proc.devRef .tc main_arg8)) (V (Proc.devRef .tc main_arg9)) := by
  rw [read2, v34_after1]
  simp only [ops1_keep _ main_arg1 (by decide), ops1_keep _ main_arg2 (by decide), ops1_keep _ main_arg3 (by decide), ops1_keep _ main_arg6 (by decide), ops1_keep _ main_arg7 (by decide), ops1_keep _ main_arg8 (by decide), ops1_keep _ main_arg9 (by decide)]
  rfl

theorem v104_after3 (V : Valuation τ sig (Elt F)) :
    after ops3 (after ops2 (after ops1 V)) (Proc.devRef .tc main_v104) = layer3 (V (Proc.devRef .tc main_arg0)) (V (Proc.devRef .tc main_arg1)) (V (Proc.devRef .tc main_arg2)) (V (Proc.devRef .tc main_arg3)) (V (Proc.devRef .tc main_arg6)) (V (Proc.devRef .tc main_arg7)) (V (Proc.devRef .tc main_arg8)) (V (Proc.devRef .tc main_arg9)) := by
  rw [read3, v69_after2]
  simp only [ops2_keep _ main_arg1 (by decide), ops2_keep _ main_arg2 (by decide), ops2_keep _ main_arg3 (by decide), ops2_keep _ main_arg6 (by decide), ops2_keep _ main_arg7 (by decide), ops2_keep _ main_arg8 (by decide), ops2_keep _ main_arg9 (by decide), ops1_keep _ main_arg1 (by decide), ops1_keep _ main_arg2 (by decide), ops1_keep _ main_arg3 (by decide), ops1_keep _ main_arg6 (by decide), ops1_keep _ main_arg7 (by decide), ops1_keep _ main_arg8 (by decide), ops1_keep _ main_arg9 (by decide)]
  rfl

/-- @main's result from any contents `V` before it. -/
theorem whole (V : Valuation τ sig (Elt F)) :
    after (ops : List (HloOp τ sig (Elt F))) V (Proc.devRef .tc main_v133)
      = scoreTail (V (Proc.devRef .tc main_arg0)) (layer1 (V (Proc.devRef .tc main_arg0)) (V (Proc.devRef .tc main_arg1)) (V (Proc.devRef .tc main_arg2)) (V (Proc.devRef .tc main_arg3)) (V (Proc.devRef .tc main_arg6)) (V (Proc.devRef .tc main_arg7)) (V (Proc.devRef .tc main_arg8)) (V (Proc.devRef .tc main_arg9))) (layer2 (V (Proc.devRef .tc main_arg0)) (V (Proc.devRef .tc main_arg1)) (V (Proc.devRef .tc main_arg2)) (V (Proc.devRef .tc main_arg3)) (V (Proc.devRef .tc main_arg6)) (V (Proc.devRef .tc main_arg7)) (V (Proc.devRef .tc main_arg8)) (V (Proc.devRef .tc main_arg9))) (layer3 (V (Proc.devRef .tc main_arg0)) (V (Proc.devRef .tc main_arg1)) (V (Proc.devRef .tc main_arg2)) (V (Proc.devRef .tc main_arg3)) (V (Proc.devRef .tc main_arg6)) (V (Proc.devRef .tc main_arg7)) (V (Proc.devRef .tc main_arg8)) (V (Proc.devRef .tc main_arg9)))
          (V (Proc.devRef .tc main_arg4)) (V (Proc.devRef .tc main_arg5)) (V (Proc.devRef .tc main_arg10)) (V (Proc.devRef .tc main_arg11)) := by
  rw [after_ops, read4, v104_after3, ops3_keep _ main_v69 (by decide), v69_after2,
    ops3_keep _ main_v34 (by decide), ops2_keep _ main_v34 (by decide), v34_after1]
  simp only [ops3_keep _ main_arg0 (by decide), ops3_keep _ main_arg4 (by decide), ops3_keep _ main_arg5 (by decide), ops3_keep _ main_arg10 (by decide), ops3_keep _ main_arg11 (by decide),
    ops2_keep _ main_arg0 (by decide), ops2_keep _ main_arg4 (by decide), ops2_keep _ main_arg5 (by decide), ops2_keep _ main_arg10 (by decide), ops2_keep _ main_arg11 (by decide),
    ops1_keep _ main_arg0 (by decide), ops1_keep _ main_arg4 (by decide), ops1_keep _ main_arg5 (by decide), ops1_keep _ main_arg10 (by decide), ops1_keep _ main_arg11 (by decide)]

/-- On every device, for any float values, from any memory with zero counters: every weakly fair execution of
    @main terminates with the result buffer at the read-out of the launch contents' argument features and three
    layers' features. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v133)
        = scoreTail (launchContents m c (Proc.devRef .tc main_arg0))
            (layer1 (launchContents m c (Proc.devRef .tc main_arg0)) (launchContents m c (Proc.devRef .tc main_arg1)) (launchContents m c (Proc.devRef .tc main_arg2)) (launchContents m c (Proc.devRef .tc main_arg3)) (launchContents m c (Proc.devRef .tc main_arg6)) (launchContents m c (Proc.devRef .tc main_arg7)) (launchContents m c (Proc.devRef .tc main_arg8)) (launchContents m c (Proc.devRef .tc main_arg9)))
            (layer2 (launchContents m c (Proc.devRef .tc main_arg0)) (launchContents m c (Proc.devRef .tc main_arg1)) (launchContents m c (Proc.devRef .tc main_arg2)) (launchContents m c (Proc.devRef .tc main_arg3)) (launchContents m c (Proc.devRef .tc main_arg6)) (launchContents m c (Proc.devRef .tc main_arg7)) (launchContents m c (Proc.devRef .tc main_arg8)) (launchContents m c (Proc.devRef .tc main_arg9)))
            (layer3 (launchContents m c (Proc.devRef .tc main_arg0)) (launchContents m c (Proc.devRef .tc main_arg1)) (launchContents m c (Proc.devRef .tc main_arg2)) (launchContents m c (Proc.devRef .tc main_arg3)) (launchContents m c (Proc.devRef .tc main_arg6)) (launchContents m c (Proc.devRef .tc main_arg7)) (launchContents m c (Proc.devRef .tc main_arg8)) (launchContents m c (Proc.devRef .tc main_arg9)))
            (launchContents m c (Proc.devRef .tc main_arg4)) (launchContents m c (Proc.devRef .tc main_arg5)) (launchContents m c (Proc.devRef .tc main_arg10)) (launchContents m c (Proc.devRef .tc main_arg11)) :=
  (θ_run defs _ _).mono (fun _ h c => (h c main_v133).trans (whole (launchContents m c))) (run_all m ρ)

end Cert.ReferenceIdeal.RefRun

end
-- ==== Proof.ReferenceReadAt.lean ====
/- The reference's dense layers and read-out, read at an index over the extended reals: each entry of a
   layer is the leaky rectifier of two linear maps' sum, each linear map a sum over the contracted axis of
   the weight slice's row plus the bias entry; each entry of the read-out is the initial value plus the sum
   along the feature axis of the product of the two embedded rows. -/
import proofs.«142689_j30262339568120_1_alg».proof.Proof.ReferenceRead
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

namespace Cert.ReferenceIdeal.RefRun

open Cert.ReferenceIdeal Cert.ReferenceIdeal.Gen Idealize.ShloMosaic Idealize.ShloMosaic.ValueIdx

/-! ## A rank-2 product read at an entry -/

/-- The host's product of an [A, K] by a [K, B] matrix, read at (p, q): the sum over the contracted axis of the
    left operand's row p times the right operand's column q — for any dimension record whose index facts (the
    left index takes the output row and the contraction position, the right index the contraction position and
    the output column) are supplied. -/
theorem dot2_apply {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    Host.dotGeneral d prec L R (ix2 p q) = ∑ k : Fin K, L (ix2 p k) * R (ix2 k q) := by
  show FloatOps.dotGeneral d prec .single L R (ix2 p q) = _
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-! ## One layer at an entry -/

/-- The leaky rectifier on the extended reals: the identity where `0 ≤ x`, the slope word's value times `x` elsewhere. -/
def leakyE (x : EReal) : EReal := if 0 ≤ x then x else Ideal.ofBits .f32 0x3C23D70A#32 * x

/-- A [64]-vector broadcast to one row, read at (0, q). -/
theorem bcast_row_apply (v : (⟨1, ![64]⟩ : Shape).Idx → EReal) (u : Fin 1) (q : Fin 64) :
    broadcastInDim S1x64 ![1] bcast_S64_S1x64_1 v (ix2 u q) = v (ix1 q) := by
  refine broadcastInDim_apply ![1] bcast_S64_S1x64_1 v (ix2 u q) (ix1 q) fun a => ?_
  match a with
  | ⟨0, _⟩ => rfl

/-- One linear map at (i, q): the row of `a` against row q of the weight slice (the product is by the transpose),
    plus the bias slice's entry q. -/
theorem lin_apply (a : FVec Ideal S150000x64 .f32) (Wl : FVec Ideal S1x64x64 .f32) (bl : FVec Ideal S1x64 .f32) (i : Fin 150000) (q : Fin 64) :
    lin (F := Ideal) a Wl bl (ix2 i q)
      = (∑ k : Fin 64, a (ix2 i k) * Wl (ix3 (0 : Fin 1) q k)) + bl (ix2 (0 : Fin 1) q) := by
  unfold lin
  rw [addf_apply, dot2_apply dot_S150000x64_S64x64_S150000x64_1_0_0_1_n_n rfl rfl
    (fun _ _ => rfl) (fun _ _ => rfl) (fun _ _ => rfl) (fun _ _ => rfl),
    broadcastInDim_oneRow_apply, bcast_row_apply, shapeCast_1a_a_apply]
  refine congrArg (· + bl (ix2 (0 : Fin 1) q)) (Finset.sum_congr rfl fun k _ => ?_)
  rw [transpose_ix2_apply, shapeCast_1ab_ab_apply]

/-- The rectifier on an array, at an entry. -/
theorem leakyv_apply (p : FVec Ideal S150000x64 .f32) (j : S150000x64.Idx) :
    leakyv (F := Ideal) p j = leakyE (p j) := by
  unfold leakyv
  rw [select_apply, cmpf_apply, mulf_apply, broadcastInDim_scalar_apply, broadcastInDim_scalar_apply]
  show Scalar.select (Ideal.cmp .oge (p j) (Ideal.ofBits .f32 0x00000000#32)) (p j) (Ideal.ofBits .f32 0x3C23D70A#32 * p j) = leakyE (p j)
  rw [Ideal.ofBits_zero_f32]
  unfold leakyE Ideal.cmp Scalar.select
  by_cases h : (0 : EReal) ≤ p j
  · simp [h]
  · simp [h]

/-- Slice `l` of a [3, 64, 64] array, read at (0, q, k). -/
theorem sliceW_apply (l : Fin 3) (W : FVec Ideal S3x64x64 .f32) (h : S3x64x64.Slices ![l.val, 0, 0] S1x64x64) (q k : Fin 64) :
    extractStridedSlice S1x64x64 ![l.val, 0, 0] W h (ix3 (0 : Fin 1) q k) = W (ix3 l q k) := by
  refine extractStridedSlice_apply _ W h _ (ix3 l q k) fun a => ?_
  match a with
  | ⟨0, _⟩ => rfl
  | ⟨1, _⟩ => exact (Nat.zero_add _).symm
  | ⟨2, _⟩ => exact (Nat.zero_add _).symm

/-- Slice `l` of a [3, 64] array, read at (0, q). -/
theorem sliceB_apply (l : Fin 3) (b : FVec Ideal S3x64 .f32) (h : S3x64.Slices ![l.val, 0] S1x64) (q : Fin 64) :
    extractStridedSlice S1x64 ![l.val, 0] b h (ix2 (0 : Fin 1) q) = b (ix2 l q) := by
  refine extractStridedSlice_apply _ b h _ (ix2 l q) fun a => ?_
  match a with
  | ⟨0, _⟩ => rfl
  | ⟨1, _⟩ => exact (Nat.zero_add _).symm

/-- Layer `l` before the rectifier, at (i, q): the two linear maps with their biases, added. -/
def preE (l : Fin 3) (agg x : FVec Ideal S150000x64 .f32) (W1 : FVec Ideal S3x64x64 .f32) (b1 : FVec Ideal S3x64 .f32)
    (W2 : FVec Ideal S3x64x64 .f32) (b2 : FVec Ideal S3x64 .f32) (i : Fin 150000) (q : Fin 64) : EReal :=
  ((∑ k : Fin 64, (agg (ix2 i k) + x (ix2 i k)) * W1 (ix3 l q k)) + b1 (ix2 l q))
    + ((∑ k : Fin 64, (agg (ix2 i k) * x (ix2 i k)) * W2 (ix3 l q k)) + b2 (ix2 l q))

/-- Layer 1 after the aggregation, at (i, q). -/
theorem dense1_apply (agg x : FVec Ideal S150000x64 .f32) (W1 : FVec Ideal S3x64x64 .f32) (b1 : FVec Ideal S3x64 .f32)
    (W2 : FVec Ideal S3x64x64 .f32) (b2 : FVec Ideal S3x64 .f32) (i : Fin 150000) (q : Fin 64) :
    dense1 (F := Ideal) agg x W1 b1 W2 b2 (ix2 i q) = leakyE (preE (0 : Fin 3) agg x W1 b1 W2 b2 i q) := by
  have hb1 : extractStridedSlice S1x64 ![0, 0] b1 slices_S3x64_S1x64_0_0 (ix2 (0 : Fin 1) q) = b1 (ix2 (0 : Fin 3) q) :=
    sliceB_apply (0 : Fin 3) b1 slices_S3x64_S1x64_0_0 q
  have hb2 : extractStridedSlice S1x64 ![0, 0] b2 slices_S3x64_S1x64_0_0 (ix2 (0 : Fin 1) q) = b2 (ix2 (0 : Fin 3) q) :=
    sliceB_apply (0 : Fin 3) b2 slices_S3x64_S1x64_0_0 q
  have hW1 : ∀ k : Fin 64, extractStridedSlice S1x64x64 ![0, 0, 0] W1 slices_S3x64x64_S1x64x64_0_0_0 (ix3 (0 : Fin 1) q k)
      = W1 (ix3 (0 : Fin 3) q k) := fun k => sliceW_apply (0 : Fin 3) W1 slices_S3x64x64_S1x64x64_0_0_0 q k
  have hW2 : ∀ k : Fin 64, extractStridedSlice S1x64x64 ![0, 0, 0] W2 slices_S3x64x64_S1x64x64_0_0_0 (ix3 (0 : Fin 1) q k)
      = W2 (ix3 (0 : Fin 3) q k) := fun k => sliceW_apply (0 : Fin 3) W2 slices_S3x64x64_S1x64x64_0_0_0 q k
  unfold dense1
  rw [leakyv_apply]
  congr 1
  unfold preact preE
  rw [addf_apply, lin_apply, lin_apply, hb1, hb2]
  simp only [addf_apply, mulf_apply, hW1, hW2]

/-- Layer 2 after the aggregation, at (i, q). -/
theorem dense2_apply (agg x : FVec Ideal S150000x64 .f32) (W1 : FVec Ideal S3x64x64 .f32) (b1 : FVec Ideal S3x64 .f32)
    (W2 : FVec Ideal S3x64x64 .f32) (b2 : FVec Ideal S3x64 .f32) (i : Fin 150000) (q : Fin 64) :
    dense2 (F := Ideal) agg x W1 b1 W2 b2 (ix2 i q) = leakyE (preE (1 : Fin 3) agg x W1 b1 W2 b2 i q) := by
  have hb1 : extractStridedSlice S1x64 ![1, 0] b1 slices_S3x64_S1x64_1_0 (ix2 (0 : Fin 1) q) = b1 (ix2 (1 : Fin 3) q) :=
    sliceB_apply (1 : Fin 3) b1 slices_S3x64_S1x64_1_0 q
  have hb2 : extractStridedSlice S1x64 ![1, 0] b2 slices_S3x64_S1x64_1_0 (ix2 (0 : Fin 1) q) = b2 (ix2 (1 : Fin 3) q) :=
    sliceB_apply (1 : Fin 3) b2 slices_S3x64_S1x64_1_0 q
  have hW1 : ∀ k : Fin 64, extractStridedSlice S1x64x64 ![1, 0, 0] W1 slices_S3x64x64_S1x64x64_1_0_0 (ix3 (0 : Fin 1) q k)
      = W1 (ix3 (1 : Fin 3) q k) := fun k => sliceW_apply (1 : Fin 3) W1 slices_S3x64x64_S1x64x64_1_0_0 q k
  have hW2 : ∀ k : Fin 64, extractStridedSlice S1x64x64 ![1, 0, 0] W2 slices_S3x64x64_S1x64x64_1_0_0 (ix3 (0 : Fin 1) q k)
      = W2 (ix3 (1 : Fin 3) q k) := fun k => sliceW_apply (1 : Fin 3) W2 slices_S3x64x64_S1x64x64_1_0_0 q k
  unfold dense2
  rw [leakyv_apply]
  congr 1
  unfold preact preE
  rw [addf_apply, lin_apply, lin_apply, hb1, hb2]
  simp only [addf_apply, mulf_apply, hW1, hW2]

/-- Layer 3 after the aggregation, at (i, q). -/
theorem dense3_apply (agg x : FVec Ideal S150000x64 .f32) (W1 : FVec Ideal S3x64x64 .f32) (b1 : FVec Ideal S3x64 .f32)
    (W2 : FVec Ideal S3x64x64 .f32) (b2 : FVec Ideal S3x64 .f32) (i : Fin 150000) (q : Fin 64) :
    dense3 (F := Ideal) agg x W1 b1 W2 b2 (ix2 i q) = leakyE (preE (2 : Fin 3) agg x W1 b1 W2 b2 i q) := by
  have hb1 : extractStridedSlice S1x64 ![2, 0] b1 slices_S3x64_S1x64_2_0 (ix2 (0 : Fin 1) q) = b1 (ix2 (2 : Fin 3) q) :=
    sliceB_apply (2 : Fin 3) b1 slices_S3x64_S1x64_2_0 q
  have hb2 : extractStridedSlice S1x64 ![2, 0] b2 slices_S3x64_S1x64_2_0 (ix2 (0 : Fin 1) q) = b2 (ix2 (2 : Fin 3) q) :=
    sliceB_apply (2 : Fin 3) b2 slices_S3x64_S1x64_2_0 q
  have hW1 : ∀ k : Fin 64, extractStridedSlice S1x64x64 ![2, 0, 0] W1 slices_S3x64x64_S1x64x64_2_0_0 (ix3 (0 : Fin 1) q k)
      = W1 (ix3 (2 : Fin 3) q k) := fun k => sliceW_apply (2 : Fin 3) W1 slices_S3x64x64_S1x64x64_2_0_0 q k
  have hW2 : ∀ k : Fin 64, extractStridedSlice S1x64x64 ![2, 0, 0] W2 slices_S3x64x64_S1x64x64_2_0_0 (ix3 (0 : Fin 1) q k)
      = W2 (ix3 (2 : Fin 3) q k) := fun k => sliceW_apply (2 : Fin 3) W2 slices_S3x64x64_S1x64x64_2_0_0 q k
  unfold dense3
  rw [leakyv_apply]
  congr 1
  unfold preact preE
  rw [addf_apply, lin_apply, lin_apply, hb1, hb2]
  simp only [addf_apply, mulf_apply, hW1, hW2]

end Cert.ReferenceIdeal.RefRun

end
-- ==== Proof.ReferenceScoreAt.lean ====
/- The reference's read-out at an index over the extended reals: entry i is the initial value plus the sum
   along the feature axis of the product of the two embedded rows, each embedded entry a sum over the
   contracted axis against a row of the output weights (the product is by the transpose) plus the bias entry. -/
import proofs.«142689_j30262339568120_1_alg».proof.Proof.ReferenceReadAt

noncomputable section

namespace Cert.ReferenceIdeal.RefRun

open Cert.ReferenceIdeal Cert.ReferenceIdeal.Gen Idealize.ShloMosaic Idealize.ShloMosaic.ValueIdx

/-- The output map at (i, j): row i of the gathered rows against row j of the output weights, plus bias entry j. -/
theorem emb_apply (G : FVec Ideal S4096x256 .f32) (Wt : FVec Ideal S64x256 .f32) (bt : FVec Ideal S64 .f32) (i : Fin 4096) (j : Fin 64) :
    emb (F := Ideal) G Wt bt (ix2 i j) = (∑ k : Fin 256, G (ix2 i k) * Wt (ix2 j k)) + bt (ix1 j) := by
  unfold emb
  rw [addf_apply, dot2_apply dot_S4096x256_S256x64_S4096x64_1_0_0_1_n_n rfl rfl
    (fun _ _ => rfl) (fun _ _ => rfl) (fun _ _ => rfl) (fun _ _ => rfl),
    broadcastInDim_oneRow_apply, bcast_row_apply]
  refine congrArg (· + bt (ix1 j)) (Finset.sum_congr rfl fun k _ => ?_)
  rw [transpose_ix2_apply]

/-- The read-out at entry i. -/
theorem scoreTail_apply (x0 x1 x2 x3 : FVec Ideal S150000x64 .f32) (users items : (⟨S4096, .i32⟩ : BufTy).Contents (Elt Ideal))
    (Wt : FVec Ideal S64x256 .f32) (bt : FVec Ideal S64 .f32) (i : Fin 4096) :
    scoreTail (F := Ideal) x0 x1 x2 x3 users items Wt bt (ix1 i)
      = Ideal.ofBits .f32 0x00000000#32 + ∑ j : Fin 64,
          ((∑ k : Fin 256, gatherU (F := Ideal) (concat4 x0 x1 x2 x3) users (ix2 i k) * Wt (ix2 j k)) + bt (ix1 j))
            * ((∑ k : Fin 256, gatherI (F := Ideal) (concat4 x0 x1 x2 x3) items (ix2 i k) * Wt (ix2 j k)) + bt (ix1 j)) := by
  have h : S4096x64.Reduces [1] S4096 := by decide
  have key : ∀ j : Fin 64, mulf (F := Ideal) (s := S4096x64) (φ := .f32) (emb (F := Ideal) (gatherU (concat4 x0 x1 x2 x3) users) Wt bt) (emb (F := Ideal) (gatherI (concat4 x0 x1 x2 x3) items) Wt bt) (h.lift (ix1 i) j)
      = ((∑ k : Fin 256, gatherU (F := Ideal) (concat4 x0 x1 x2 x3) users (ix2 i k) * Wt (ix2 j k)) + bt (ix1 j))
          * ((∑ k : Fin 256, gatherI (F := Ideal) (concat4 x0 x1 x2 x3) items (ix2 i k) * Wt (ix2 j k)) + bt (ix1 j)) := by
    intro j
    have hl : h.lift (ix1 i) j = ix2 i j := funext fun a => Fin.ext (by
      match a with
      | ⟨0, _⟩ => rfl
      | ⟨1, _⟩ => rfl)
    rw [hl, mulf_apply, emb_apply, emb_apply]
  unfold scoreTail
  rw [hostReduceAdd_apply, Ideal.hostReduceAdd_single reducesTo_S4096x64_S4096_d1 h]
  exact congrArg (Ideal.ofBits .f32 0x00000000#32 + ·) (Finset.sum_congr rfl fun j _ => key j)

end Cert.ReferenceIdeal.RefRun

end
-- ==== Proof.Bridge.lean ====
/-
  The kernel and the reference compute the same arrays, layer by layer. After region l the kernel's output array is, at
  (i, q), leaky(pre) of the sparse aggregation of the previous features, the previous features, and layer l's weights
  and biases read out of the stacked arguments; the reference's layer-l term, read at the same index, is the same
  expression (a matrix product into a zero accumulator and a host dot product are the same sum at the ideal instance;
  the aggregation is one and the same host term in both programs). The three layers are joined one after the other,
  then the two result vectors: at i both are the sum over the 64 projected coordinates of the product of the user's and
  the item's projections, the reference's from the zero word.
-/
import proofs.«142689_j30262339568120_1_alg».proof.Proof.KernelIdealKept
import proofs.«142689_j30262339568120_1_alg».proof.Proof.KernelIdealHost
import proofs.«142689_j30262339568120_1_alg».proof.Proof.LayerArray
import proofs.«142689_j30262339568120_1_alg».proof.Proof.ScoreArray
import proofs.«142689_j30262339568120_1_alg».proof.Proof.ReferenceWhole
import proofs.«142689_j30262339568120_1_alg».proof.Proof.ReferenceScoreAt
import proofs.«142689_j30262339568120_1_alg».proof.Proof.Assemble

set_option maxRecDepth 16384

noncomputable section

namespace Cert.Bridge

open Cert.KernelIdeal Cert.KernelIdeal.Gen
open Idealize.ShloMosaic Idealize.ShloMosaic.TcCoe Idealize.SL.Sem Idealize.ShloMosaic.ValueIdx
open scoped BigOperators

/-! ## The two spellings of one layer and of the score -/

/-- The kernel's layer formula over weights and bias rows cut out of the stacked arguments is the reference's. -/
theorem layerWhole_eq (l : Fin 3) (a f : (⟨2, ![150000, 64]⟩ : Shape).Idx → EReal) (w1 w2 : (⟨2, ![64, 64]⟩ : Shape).Idx → EReal)
    (b1 b2 : (⟨2, ![1, 64]⟩ : Shape).Idx → EReal) (W1 : (⟨3, ![3, 64, 64]⟩ : Shape).Idx → EReal) (B1 : (⟨2, ![3, 64]⟩ : Shape).Idx → EReal)
    (W2 : (⟨3, ![3, 64, 64]⟩ : Shape).Idx → EReal) (B2 : (⟨2, ![3, 64]⟩ : Shape).Idx → EReal)
    (hw1 : ∀ q k : Fin 64, w1 (ix2 q k) = W1 (ix3 l q k)) (hw2 : ∀ q k : Fin 64, w2 (ix2 q k) = W2 (ix3 l q k))
    (hb1 : ∀ q : Fin 64, b1 (ix2 (0 : Fin 1) q) = B1 (ix2 l q)) (hb2 : ∀ q : Fin 64, b2 (ix2 (0 : Fin 1) q) = B2 (ix2 l q))
    (r : Fin 150000) (q : Fin 64) :
    Cert.KernelIdeal.LayerValue.layerWhole a f w1 w2 b1 b2 r q = Cert.ReferenceIdeal.RefRun.leakyE (Cert.ReferenceIdeal.RefRun.preE l a f W1 B1 W2 B2 r q) := by
  unfold Cert.KernelIdeal.LayerValue.layerWhole Cert.KernelIdeal.LayerValue.leaky Cert.ReferenceIdeal.RefRun.leakyE Cert.ReferenceIdeal.RefRun.preE
  simp only [hw1, hw2, hb1, hb2]

/-- The kernel's score formula over a bias row is the sum over the bias vector. -/
theorem scoreWhole_eq (U I : (⟨2, ![4096, 256]⟩ : Shape).Idx → EReal) (Wt : (⟨2, ![64, 256]⟩ : Shape).Idx → EReal)
    (btrow : (⟨2, ![1, 64]⟩ : Shape).Idx → EReal) (Bt : (⟨1, ![64]⟩ : Shape).Idx → EReal) (hbt : ∀ j : Fin 64, btrow (ix2 (0 : Fin 1) j) = Bt (ix1 j))
    (i : Fin 4096) :
    Cert.KernelIdeal.ScoreValue.scoreWhole U I Wt btrow i
      = ∑ j : Fin 64, ((∑ k : Fin 256, U (ix2 i k) * Wt (ix2 j k)) + Bt (ix1 j)) * ((∑ k : Fin 256, I (ix2 i k) * Wt (ix2 j k)) + Bt (ix1 j)) := by
  unfold Cert.KernelIdeal.ScoreValue.scoreWhole
  simp only [hbt]

/-! ## The layers -/

variable (m : (ℓ : Loc nD τ sig) → Buf (Elt Ideal) ℓ) (c : Dev nD)

/-- Layer 1: what region 0 leaves in `main_v23` is the reference's layer-1 term of the arguments. -/
theorem feats1 : (Cert.KernelIdeal.Frame.X2 m c (Proc.devRef .tc main_v23) : S150000x64.Idx → EReal)
    = Cert.ReferenceIdeal.RefRun.layer1 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) := by
  funext idx
  obtain ⟨i, q, rfl⟩ : ∃ (i : Fin 150000) (q : Fin 64), idx = ix2 i q := ⟨idx 0, idx 1, eq_ix2 idx⟩
  have h1 : Cert.KernelIdeal.Frame.X2 m c (Proc.devRef .tc main_v23) = (Cert.KernelIdeal.Frame.dat0 (Cert.KernelIdeal.Frame.Y1 m) c).arrAt 6 cfg0.N := Cert.KernelIdeal.Frame.X2_arr m c 6
  rw [h1, Cert.KernelIdeal.LayerValue.final0 (Cert.KernelIdeal.Frame.Y1 m) c]
  show Cert.KernelIdeal.LayerValue.layerWhole (Cert.KernelIdeal.Frame.X1 m c (Proc.devRef .tc main_v12)) (Cert.KernelIdeal.Frame.X1 m c (Proc.devRef .tc main_arg0)) (Cert.KernelIdeal.Frame.X1 m c (Proc.devRef .tc main_v14))
    (Cert.KernelIdeal.Frame.X1 m c (Proc.devRef .tc main_v18)) (Cert.KernelIdeal.Frame.X1 m c (Proc.devRef .tc main_v21)) (Cert.KernelIdeal.Frame.X1 m c (Proc.devRef .tc main_v22)) i q = _
  refine (layerWhole_eq (0 : Fin 3) _ _ _ _ _ _ (m ((c : Thread nD τ).loc main_arg6)) (m ((c : Thread nD τ).loc main_arg7)) (m ((c : Thread nD τ).loc main_arg8)) (m ((c : Thread nD τ).loc main_arg9))
    (fun q k => Cert.KernelIdeal.HostValue.w1_0 (Cert.KernelIdeal.Frame.X0 m c) q k) (fun q k => Cert.KernelIdeal.HostValue.w2_0 (Cert.KernelIdeal.Frame.X0 m c) q k)
    (fun q => Cert.KernelIdeal.HostValue.b1_0 (Cert.KernelIdeal.Frame.X0 m c) (0 : Fin 1) q) (fun q => Cert.KernelIdeal.HostValue.b2_0 (Cert.KernelIdeal.Frame.X0 m c) (0 : Fin 1) q) i q).trans ?_
  rw [show Cert.KernelIdeal.Frame.X1 m c (Proc.devRef .tc main_v12) = Cert.KernelIdeal.HostValue.spmm (m ((c : Thread nD τ).loc main_arg0)) (m ((c : Thread nD τ).loc main_arg1)) (m ((c : Thread nD τ).loc main_arg2)) (m ((c : Thread nD τ).loc main_arg3)) from Cert.KernelIdeal.HostValue.agg0 (Cert.KernelIdeal.Frame.X0 m c), Cert.KernelIdeal.Frame.keep1_main_arg0 m c]
  unfold Cert.ReferenceIdeal.RefRun.layer1
  rw [Cert.ReferenceIdeal.RefRun.dense1_apply]
  rfl

/-- Layer 2: what region 1 leaves in `main_v47` is the reference's layer-2 term of the arguments. -/
theorem feats2 : (Cert.KernelIdeal.Frame.X4 m c (Proc.devRef .tc main_v47) : S150000x64.Idx → EReal)
    = Cert.ReferenceIdeal.RefRun.layer2 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) := by
  funext idx
  obtain ⟨i, q, rfl⟩ : ∃ (i : Fin 150000) (q : Fin 64), idx = ix2 i q := ⟨idx 0, idx 1, eq_ix2 idx⟩
  have h1 : Cert.KernelIdeal.Frame.X4 m c (Proc.devRef .tc main_v47) = (Cert.KernelIdeal.Frame.dat1 (Cert.KernelIdeal.Frame.Y3 m) c).arrAt 6 cfg1.N := Cert.KernelIdeal.Frame.X4_arr m c 6
  rw [h1, Cert.KernelIdeal.LayerValue.final1 (Cert.KernelIdeal.Frame.Y3 m) c]
  show Cert.KernelIdeal.LayerValue.layerWhole (Cert.KernelIdeal.Frame.X3 m c (Proc.devRef .tc main_v36)) (Cert.KernelIdeal.Frame.X3 m c (Proc.devRef .tc main_v23)) (Cert.KernelIdeal.Frame.X3 m c (Proc.devRef .tc main_v38))
    (Cert.KernelIdeal.Frame.X3 m c (Proc.devRef .tc main_v42)) (Cert.KernelIdeal.Frame.X3 m c (Proc.devRef .tc main_v45)) (Cert.KernelIdeal.Frame.X3 m c (Proc.devRef .tc main_v46)) i q = _
  refine (layerWhole_eq (1 : Fin 3) _ _ _ _ _ _ (m ((c : Thread nD τ).loc main_arg6)) (m ((c : Thread nD τ).loc main_arg7)) (m ((c : Thread nD τ).loc main_arg8)) (m ((c : Thread nD τ).loc main_arg9))
    (fun q k => (Cert.KernelIdeal.HostValue.w1_1 (Cert.KernelIdeal.Frame.X2 m c) q k).trans (congrFun (Cert.KernelIdeal.Frame.keep2_main_arg6 m c) _)) (fun q k => (Cert.KernelIdeal.HostValue.w2_1 (Cert.KernelIdeal.Frame.X2 m c) q k).trans (congrFun (Cert.KernelIdeal.Frame.keep2_main_arg8 m c) _))
    (fun q => (Cert.KernelIdeal.HostValue.b1_1 (Cert.KernelIdeal.Frame.X2 m c) (0 : Fin 1) q).trans (congrFun (Cert.KernelIdeal.Frame.keep2_main_arg7 m c) _)) (fun q => (Cert.KernelIdeal.HostValue.b2_1 (Cert.KernelIdeal.Frame.X2 m c) (0 : Fin 1) q).trans (congrFun (Cert.KernelIdeal.Frame.keep2_main_arg9 m c) _)) i q).trans ?_
  rw [show Cert.KernelIdeal.Frame.X3 m c (Proc.devRef .tc main_v36) = Cert.KernelIdeal.HostValue.spmm (Cert.KernelIdeal.Frame.X2 m c (Proc.devRef .tc main_v23)) (Cert.KernelIdeal.Frame.X2 m c (Proc.devRef .tc main_arg1)) (Cert.KernelIdeal.Frame.X2 m c (Proc.devRef .tc main_arg2)) (Cert.KernelIdeal.Frame.X2 m c (Proc.devRef .tc main_arg3)) from Cert.KernelIdeal.HostValue.agg1 (Cert.KernelIdeal.Frame.X2 m c),
    Cert.KernelIdeal.Frame.keep2_main_arg1 m c, Cert.KernelIdeal.Frame.keep2_main_arg2 m c, Cert.KernelIdeal.Frame.keep2_main_arg3 m c, Cert.KernelIdeal.Frame.keep3_main_v23 m c, feats1 m c]
  unfold Cert.ReferenceIdeal.RefRun.layer2
  rw [Cert.ReferenceIdeal.RefRun.dense2_apply]
  rfl

/-- Layer 3: what region 2 leaves in `main_v71` is the reference's layer-3 term of the arguments. -/
theorem feats3 : (Cert.KernelIdeal.Frame.X6 m c (Proc.devRef .tc main_v71) : S150000x64.Idx → EReal)
    = Cert.ReferenceIdeal.RefRun.layer3 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) := by
  funext idx
  obtain ⟨i, q, rfl⟩ : ∃ (i : Fin 150000) (q : Fin 64), idx = ix2 i q := ⟨idx 0, idx 1, eq_ix2 idx⟩
  have h1 : Cert.KernelIdeal.Frame.X6 m c (Proc.devRef .tc main_v71) = (Cert.KernelIdeal.Frame.dat2 (Cert.KernelIdeal.Frame.Y5 m) c).arrAt 6 cfg2.N := Cert.KernelIdeal.Frame.X6_arr m c 6
  rw [h1, Cert.KernelIdeal.LayerValue.final2 (Cert.KernelIdeal.Frame.Y5 m) c]
  show Cert.KernelIdeal.LayerValue.layerWhole (Cert.KernelIdeal.Frame.X5 m c (Proc.devRef .tc main_v60)) (Cert.KernelIdeal.Frame.X5 m c (Proc.devRef .tc main_v47)) (Cert.KernelIdeal.Frame.X5 m c (Proc.devRef .tc main_v62))
    (Cert.KernelIdeal.Frame.X5 m c (Proc.devRef .tc main_v66)) (Cert.KernelIdeal.Frame.X5 m c (Proc.devRef .tc main_v69)) (Cert.KernelIdeal.Frame.X5 m c (Proc.devRef .tc main_v70)) i q = _
  refine (layerWhole_eq (2 : Fin 3) _ _ _ _ _ _ (m ((c : Thread nD τ).loc main_arg6)) (m ((c : Thread nD τ).loc main_arg7)) (m ((c : Thread nD τ).loc main_arg8)) (m ((c : Thread nD τ).loc main_arg9))
    (fun q k => (Cert.KernelIdeal.HostValue.w1_2 (Cert.KernelIdeal.Frame.X4 m c) q k).trans (congrFun (Cert.KernelIdeal.Frame.keep4_main_arg6 m c) _)) (fun q k => (Cert.KernelIdeal.HostValue.w2_2 (Cert.KernelIdeal.Frame.X4 m c) q k).trans (congrFun (Cert.KernelIdeal.Frame.keep4_main_arg8 m c) _))
    (fun q => (Cert.KernelIdeal.HostValue.b1_2 (Cert.KernelIdeal.Frame.X4 m c) (0 : Fin 1) q).trans (congrFun (Cert.KernelIdeal.Frame.keep4_main_arg7 m c) _)) (fun q => (Cert.KernelIdeal.HostValue.b2_2 (Cert.KernelIdeal.Frame.X4 m c) (0 : Fin 1) q).trans (congrFun (Cert.KernelIdeal.Frame.keep4_main_arg9 m c) _)) i q).trans ?_
  rw [show Cert.KernelIdeal.Frame.X5 m c (Proc.devRef .tc main_v60) = Cert.KernelIdeal.HostValue.spmm (Cert.KernelIdeal.Frame.X4 m c (Proc.devRef .tc main_v47)) (Cert.KernelIdeal.Frame.X4 m c (Proc.devRef .tc main_arg1)) (Cert.KernelIdeal.Frame.X4 m c (Proc.devRef .tc main_arg2)) (Cert.KernelIdeal.Frame.X4 m c (Proc.devRef .tc main_arg3)) from Cert.KernelIdeal.HostValue.agg2 (Cert.KernelIdeal.Frame.X4 m c),
    Cert.KernelIdeal.Frame.keep4_main_arg1 m c, Cert.KernelIdeal.Frame.keep4_main_arg2 m c, Cert.KernelIdeal.Frame.keep4_main_arg3 m c, Cert.KernelIdeal.Frame.keep5_main_v47 m c, feats2 m c]
  unfold Cert.ReferenceIdeal.RefRun.layer3
  rw [Cert.ReferenceIdeal.RefRun.dense3_apply]
  rfl

/-! ## The result -/

/-- The kernel's result vector at i. -/
theorem out_at (i : Fin 4096) : (Cert.KernelIdeal.Frame.X9 m c (Proc.devRef .tc main_v91) : S4096.Idx → EReal) (ix1 i)
    = ∑ j : Fin 64,
        ((∑ k : Fin 256, Cert.KernelIdeal.HostValue.gatherRows (F := Ideal) (Cert.KernelIdeal.HostValue.concat4 (m ((c : Thread nD τ).loc main_arg0)) (Cert.ReferenceIdeal.RefRun.layer1 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9))) (Cert.ReferenceIdeal.RefRun.layer2 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9))) (Cert.ReferenceIdeal.RefRun.layer3 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)))) (m ((c : Thread nD τ).loc main_arg4)) (ix2 i k)
            * (m ((c : Thread nD τ).loc main_arg10)) (ix2 j k)) + (m ((c : Thread nD τ).loc main_arg11)) (ix1 j))
        * ((∑ k : Fin 256, Cert.KernelIdeal.HostValue.gatherRows (F := Ideal) (Cert.KernelIdeal.HostValue.concat4 (m ((c : Thread nD τ).loc main_arg0)) (Cert.ReferenceIdeal.RefRun.layer1 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9))) (Cert.ReferenceIdeal.RefRun.layer2 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9))) (Cert.ReferenceIdeal.RefRun.layer3 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)))) (Cert.KernelIdeal.HostValue.shiftItems (m ((c : Thread nD τ).loc main_arg5))) (ix2 i k)
            * (m ((c : Thread nD τ).loc main_arg10)) (ix2 j k)) + (m ((c : Thread nD τ).loc main_arg11)) (ix1 j)) := by
  refine (Cert.KernelIdeal.HostValue.out4 (Cert.KernelIdeal.Frame.X8 m c) i).trans ?_
  have h1 : Cert.KernelIdeal.Frame.X8 m c (Proc.devRef .tc main_v90) = (Cert.KernelIdeal.Frame.dat3 (Cert.KernelIdeal.Frame.Y7 m) c).arrAt 4 cfg3.N := Cert.KernelIdeal.Frame.X8_arr m c 4
  rw [h1, Cert.KernelIdeal.ScoreValue.final3 (Cert.KernelIdeal.Frame.Y7 m) c]
  show Cert.KernelIdeal.ScoreValue.scoreWhole (Cert.KernelIdeal.Frame.X7 m c (Proc.devRef .tc main_v79)) (Cert.KernelIdeal.Frame.X7 m c (Proc.devRef .tc main_v88)) (Cert.KernelIdeal.Frame.X7 m c (Proc.devRef .tc main_arg10))
    (Cert.KernelIdeal.Frame.X7 m c (Proc.devRef .tc main_v89)) i = _
  refine (scoreWhole_eq _ _ _ _ (m ((c : Thread nD τ).loc main_arg11)) (fun j => (Cert.KernelIdeal.HostValue.bt3 (Cert.KernelIdeal.Frame.X6 m c) (0 : Fin 1) j).trans (congrFun (Cert.KernelIdeal.Frame.keep6_main_arg11 m c) _)) i).trans ?_
  rw [show Cert.KernelIdeal.Frame.X7 m c (Proc.devRef .tc main_v79) = _ from Cert.KernelIdeal.HostValue.users3 (Cert.KernelIdeal.Frame.X6 m c),
    show Cert.KernelIdeal.Frame.X7 m c (Proc.devRef .tc main_v88) = _ from Cert.KernelIdeal.HostValue.items3 (Cert.KernelIdeal.Frame.X6 m c),
    Cert.KernelIdeal.Frame.keep7_main_arg10 m c, Cert.KernelIdeal.Frame.keep6_main_arg0 m c, Cert.KernelIdeal.Frame.keep6_main_arg4 m c, Cert.KernelIdeal.Frame.keep6_main_arg5 m c,
    Cert.KernelIdeal.Frame.keep6_main_v23 m c, Cert.KernelIdeal.Frame.keep6_main_v47 m c, feats1 m c, feats2 m c, feats3 m c]

/-- THE VALUE EQUATION: from a memory agreeing with the kernel's on the twelve arguments, the reference's result buffer
    ends holding what the kernel's does. -/
theorem value_eq (m' : (ℓ : Loc Cert.ReferenceIdeal.nD Cert.ReferenceIdeal.τ Cert.ReferenceIdeal.sig) → Buf (Elt Ideal) ℓ)
    (h : Cert.Proof.Agree m m' c) :
    StableHlo.after (Cert.ReferenceIdeal.RefRun.ops (F := Ideal)) (StableHlo.launchContents m' c) (Proc.devRef .tc Cert.ReferenceIdeal.main_v133)
      = Cert.KernelIdeal.Frame.X9 m c (Proc.devRef .tc main_v91) := by
  obtain ⟨h0, h1, h2, h3, h4, h5, h6, h7, h8, h9, h10, h11⟩ := h
  rw [Cert.ReferenceIdeal.RefRun.whole (F := Ideal) (StableHlo.launchContents m' c)]
  funext idx
  obtain ⟨i, rfl⟩ : ∃ i : Fin 4096, idx = ix1 i := ⟨idx 0, eq_ix1 idx⟩
  refine Eq.trans ?_ (out_at m c i).symm
  show Cert.ReferenceIdeal.RefRun.scoreTail (F := Ideal) (m' ((c.tc : Thread Cert.ReferenceIdeal.nD Cert.ReferenceIdeal.τ).loc Cert.ReferenceIdeal.main_arg0)) _ _ _ _ _ _ _ (ix1 i) = _
  rw [Cert.ReferenceIdeal.RefRun.scoreTail_apply, Ideal.ofBits_zero_f32, zero_add]
  show (∑ j : Fin 64, _) = _
  simp only [show ∀ b, StableHlo.launchContents m' c (Proc.devRef .tc b) = m' ((c.tc : Thread Cert.ReferenceIdeal.nD Cert.ReferenceIdeal.τ).loc b) from fun _ => rfl,
    h0, h1, h2, h3, h4, h5, h6, h7, h8, h9, h10, h11]
  rfl

end Cert.Bridge

end
-- ==== Proof.lean ====
/-
  The certificate of a three-layer graph-convolution recommender against its jnp reference.

  Both programs compute, from node features x₀ : [150000, 64], a sparse graph in coordinate form (rows, cols, vals) and
  per-layer weights, three layers
      x_{l+1}(i, q) = leaky( (∑ₖ (a(i,k) + x_l(i,k)) · W1[l](q,k)) + b1[l](q) + ((∑ₖ (a(i,k) · x_l(i,k)) · W2[l](q,k)) + b2[l](q)) ),
  where a = the sparse aggregation of x_l (gather the rows `cols`, scale by `vals`, scatter-add at `rows`) and
  leaky(t) = t for t ≥ 0 and c·t otherwise, c one float word shared by both programs; then, with the four feature
  arrays concatenated to [150000, 256], gathered at `users` and at `100000 + items`, the score
      s(i) = ∑ⱼ ((∑ₖ U(i,k) · Wt(j,k)) + bt(j)) · ((∑ₖ I(i,k) · Wt(j,k)) + bt(j)).
  The kernel runs the dense part of each layer and the scoring as pallas_calls over row blocks (ten blocks of 15000
  rows; eight blocks of 512 pairs) and everything else as host operations; the reference is host operations only. A row
  of a layer's output depends only on the same row of its two inputs, so the blocks written back are restrictions of
  one whole-array function, and at the ideal instance a matrix product into a zero accumulator is the plain sum: the
  two programs are the same function of the arguments, layer by layer. No law beyond that is used, so the
  precondition is never opened.

  The three frames: each program's @main is run item by item (host stretches and regions for the kernels, the list of
  host operations for the reference) and every argument array is shown to reach the end as launched. The ideal pass
  rewrote no operation, so the kernel's idealization is its own text read at the ideal instance.
-/
import proofs.«142689_j30262339568120_1_alg».proof.Defs
import proofs.«142689_j30262339568120_1_alg».proof.Proof.Gen.Kernel
import proofs.«142689_j30262339568120_1_alg».proof.Proof.Gen.KernelIdeal
import proofs.«142689_j30262339568120_1_alg».proof.Proof.Gen.ReferenceIdeal
import proofs.«142689_j30262339568120_1_alg».proof.Proof.Gen.Pre_finite_inputs
import proofs.«142689_j30262339568120_1_alg».proof.Proof.KernelRun
import proofs.«142689_j30262339568120_1_alg».proof.Proof.KernelIdealRun
import proofs.«142689_j30262339568120_1_alg».proof.Proof.ReferenceFrame
import proofs.«142689_j30262339568120_1_alg».proof.Proof.Assemble
import proofs.«142689_j30262339568120_1_alg».proof.Proof.Bridge
import Idealize.ShloMosaic.Adequacy
import Idealize.ShloMosaic.Init

noncomputable section

namespace Cert.Proof

open Idealize.ShloMosaic Idealize.SL.Sem

/-- The word-level kernel runs to the end, faults nowhere, and leaves its twelve argument arrays as launched. -/
theorem frame_kernel : Cert.frame_Kernel := fun m ρ _ => Cert.Kernel.Frame.frame m ρ

/-- The same at the ideal instance. -/
theorem frame_kernelIdeal : Cert.frame_KernelIdeal := fun m ρ _ => Cert.KernelIdeal.Frame.frame m ρ

/-- The reference, a list of host operations none of which writes an argument. -/
theorem frame_referenceIdeal : Cert.frame_ReferenceIdeal := fun m ρ _ => Cert.ReferenceIdeal.RefRun.frame m ρ

/-- The ideal pass rewrote nothing. -/
theorem preserves : Cert.preserves_Kernel_KernelIdeal := trivial

/-- At the ideal instance the two programs end with equal result vectors: the reference's result buffer, from a memory
    agreeing with the kernel's on the arguments, holds what the kernel's does (the layers joined one after the other,
    then the scores index by index). -/
theorem algebraic : Cert.algebraic_KernelIdeal_ReferenceIdeal :=
  algebraic_of_value fun m m' c h => Cert.Bridge.value_eq m c m' h

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
